-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v55)) (v1 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_v56) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S400000x3 : Shape := ⟨2, ![400000, 3]⟩
abbrev S100000x128 : Shape := ⟨2, ![100000, 128]⟩
abbrev S237x128 : Shape := ⟨2, ![237, 128]⟩
abbrev S128x384 : Shape := ⟨2, ![128, 384]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S237x128 : S_.BroadcastsInDim S237x128 (![] : Fin 0 → Fin S237x128.rank)
  reducesTo_S237x128_S_d0_1 : S237x128.ReducesTo [0, 1] S_
  bcast_S_S128x384 : S_.BroadcastsInDim S128x384 (![] : Fin 0 → Fin S128x384.rank)
  reducesTo_S128x384_S_d0_1 : S128x384.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1x128 .f32) (main_arg6 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S1x128 .f32 := Host.absf main_arg5
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : IVec S400000x3 32) (main_arg1 : FVec F S100000x128 .f32) (main_arg2 : FVec F S237x128 .f32) (main_arg3 : FVec F S128x384 .f32) (main_arg4 : FVec F S128 .f32) (main_arg5 : FVec F S1x128 .f32) (main_arg6 : FVec F S1 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S237x128 .f32 := Host.absf main_arg2
  let main_cst_0 : FVec F S_ .f32 := constant S_ .f32 0x7F800000#32
  let main_v5 : FVec F S237x128 .f32 := broadcastInDim S237x128 ![] bcast_S_S237x128 main_cst_0
  let main_v6 : IVec S237x128 1 := cmpf .olt main_v4 main_v5
  let main_c_1 : IVec S_ 1 := constantI S_ 1 1#1
  let main_v7 : IVec S_ 1 := (fun x v => Host.reduce IntOp.andi x v reducesTo_S237x128_S_d0_1 h_S_) main_v6 main_c_1
  let main_v8 : IVec S_ 1 := andi main_v3 main_v7
  let main_v9 : FVec F S128x384 .f32 := Host.absf main_arg3
  let main_cst_2 : FVec F S_ .f32 := constant S_ .f32 0x7F800000#32
  let main_v10 : FVec F S128x384 .f32 := broadcastInDim S128x384 ![] bcast_S_S128x384 main_cst_2
  let main_v11 : IVec S128x384 1 := cmpf .olt main_v9 main_v10
  let main_c_3 : IVec S_ 1 := constantI S_ 1 1#1
  let main_v12 : IVec S_ 1 := (fun x v => Host.reduce IntOp.andi x v reducesTo_S128x384_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S400000x3 : Shape := ⟨2, ![400000, 3]⟩
abbrev S100000x128 : Shape := ⟨2, ![100000, 128]⟩
abbrev S237x128 : Shape := ⟨2, ![237, 128]⟩
abbrev S128x384 : Shape := ⟨2, ![128, 384]⟩
abbrev S128 : Shape := ⟨1, ![128]⟩
abbrev S1x128 : Shape := ⟨2, ![1, 128]⟩
abbrev S1 : Shape := ⟨1, ![1]⟩
abbrev S400000x1 : Shape := ⟨2, ![400000, 1]⟩
abbrev S400000 : Shape := ⟨1, ![400000]⟩
abbrev S_ : Shape := ⟨0, ![]⟩
abbrev S400000x128 : Shape := ⟨2, ![400000, 128]⟩
abbrev S400000x384 : Shape := ⟨2, ![400000, 384]⟩
abbrev S384x128 : Shape := ⟨2, ![384, 128]⟩
abbrev S3200x384 : Shape := ⟨2, ![3200, 384]⟩
abbrev S3200x128 : Shape := ⟨2, ![3200, 128]⟩
abbrev S3200x1 : Shape := ⟨2, ![3200, 1]⟩
abbrev S3200 : Shape := ⟨1, ![3200]⟩
abbrev S1x1 : Shape := ⟨2, ![1, 1]⟩
abbrev S100000x1 : Shape := ⟨2, ![100000, 1]⟩
abbrev S237x1 : Shape := ⟨2, ![237, 1]⟩

abbrev nBuf : Space → Nat
  | .hbm => 109
  | .vmem => 10
  | .smem => 0
  | _ => 0

abbrev bufTy : (tb : Table) → Fin (tcTables nBuf tb) → BufTy
  | .hbm, ⟨0, _⟩ => ⟨S400000x3, .i32⟩
  | .hbm, ⟨1, _⟩ => ⟨S100000x128, .f32⟩
  | .hbm, ⟨2, _⟩ => ⟨S237x128, .f32⟩
  | .hbm, ⟨3, _⟩ => ⟨S128x384, .f32⟩
  | .hbm, ⟨4, _⟩ => ⟨S128, .f32⟩
  | .hbm, ⟨5, _⟩ => ⟨S1x128, .f32⟩
  | .hbm, ⟨6, _⟩ => ⟨S1, .f32⟩
  | .hbm, ⟨7, _⟩ => ⟨S400000x1, .i32⟩
  | .hbm, ⟨8, _⟩ => ⟨S400000, .i32⟩
  | .hbm, ⟨9, _⟩ => ⟨S400000x1, .i32⟩
  | .hbm, ⟨10, _⟩ => ⟨S400000, .i32⟩
  | .hbm, ⟨11, _⟩ => ⟨S400000x1, .i32⟩
  | .hbm, ⟨12, _⟩ => ⟨S400000, .i32⟩
  | .hbm, ⟨13, _⟩ => ⟨S100000x128, .bf16⟩
  | .hbm, ⟨14, _⟩ => ⟨S237x128, .bf16⟩
  | .hbm, ⟨15, _⟩ => ⟨S_, .i32⟩
  | .hbm, ⟨16, _⟩ => ⟨S400000, .i32⟩
  | .hbm, ⟨17, _⟩ => ⟨S400000, .i1⟩
  | .hbm, ⟨18, _⟩ => ⟨S_, .i32⟩
  | .hbm, ⟨19, _⟩ => ⟨S400000, .i32⟩
  | .hbm, ⟨20, _⟩ => ⟨S400000, .i32⟩
  | .hbm, ⟨21, _⟩ => ⟨S400000, .i32⟩
  | .hbm, ⟨22, _⟩ => ⟨S400000x1, .i32⟩
  | .hbm, ⟨23, _⟩ => ⟨S400000x128, .bf16⟩
  | .hbm, ⟨24, _⟩ => ⟨S_, .i32⟩
  | .hbm, ⟨25, _⟩ => ⟨S400000, .i32⟩
  | .hbm, ⟨26, _⟩ => ⟨S400000, .i1⟩
  | .hbm, ⟨27, _⟩ => ⟨S_, .i32⟩
  | .hbm, ⟨28, _⟩ => ⟨S400000, .i32⟩
  | .hbm, ⟨29, _⟩ => ⟨S400000, .i32⟩
  | .hbm, ⟨30, _⟩ => ⟨S400000, .i32⟩
  | .hbm, ⟨31, _⟩ => ⟨S400000x1, .i32⟩
  | .hbm, ⟨32, _⟩ => ⟨S400000x128, .bf16⟩
  | .hbm, ⟨33, _⟩ => ⟨S_, .i32⟩
  | .hbm, ⟨34, _⟩ => ⟨S400000, .i32⟩
  | .hbm, ⟨35, _⟩ => ⟨S400000, .i1⟩
  | .hbm, ⟨36, _⟩ => ⟨S_, .i32⟩
  | .hbm, ⟨37, _⟩ => ⟨S400000, .i32⟩
  | .hbm, ⟨38, _⟩ => ⟨S400000, .i32⟩
  | .hbm, ⟨39, _⟩ => ⟨S400000, .i32⟩
  | .hbm, ⟨40, _⟩ => ⟨S400000x1, .i32⟩
  | .hbm, ⟨41, _⟩ => ⟨S400000x128, .bf16⟩
  | .hbm, ⟨42, _⟩ => ⟨S400000x384, .bf16⟩
  | .hbm, ⟨43, _⟩ => ⟨S384x128, .f32⟩
  | .hbm, ⟨44, _⟩ => ⟨S384x128, .bf16⟩
  | .hbm, ⟨45, _⟩ => ⟨S400000x128, .f32⟩
  | .hbm, ⟨46, _⟩ => ⟨S400000x1, .f32⟩
  | .hbm, ⟨47, _⟩ => ⟨S_, .f32⟩
  | .hbm, ⟨48, _⟩ => ⟨S100000x1, .f32⟩
  | .hbm, ⟨49, _⟩ => ⟨S400000x1, .i32⟩
  | .hbm, ⟨50, _⟩ => ⟨S100000x1, .f32⟩
  | .hbm, ⟨51, _⟩ => ⟨S_, .f32⟩
  | .hbm, ⟨52, _⟩ => ⟨S100000x128, .f32⟩
  | .hbm, ⟨53, _⟩ => ⟨S400000x1, .i32⟩
  | .hbm, ⟨54, _⟩ => ⟨S100000x128, .f32⟩
  | .hbm, ⟨55, _⟩ => ⟨S_, .f32⟩
  | .hbm, ⟨56, _⟩ => ⟨S100000x1, .f32⟩
  | .hbm, ⟨57, _⟩ => ⟨S100000x1, .i1⟩
  | .hbm, ⟨58, _⟩ => ⟨S_, .f32⟩
  | .hbm, ⟨59, _⟩ => ⟨S_, .f32⟩
  | .hbm, ⟨60, _⟩ => ⟨S100000x1, .f32⟩
  | .hbm, ⟨61, _⟩ => ⟨S100000x1, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S237x128, .f32⟩
  | .hbm, ⟨66, _⟩ => ⟨S400000x1, .i32⟩
  | .hbm, ⟨67, _⟩ => ⟨S237x128, .f32⟩
  | .hbm, ⟨68, _⟩ => ⟨S_, .f32⟩
  | .hbm, ⟨69, _⟩ => ⟨S400000x1, .f32⟩
  | .hbm, ⟨70, _⟩ => ⟨S_, .f32⟩
  | .hbm, ⟨71, _⟩ => ⟨S237x1, .f32⟩
  | .hbm, ⟨72, _⟩ => ⟨S400000x1, .i32⟩
  | .hbm, ⟨73, _⟩ => ⟨S237x1, .f32⟩
  | .hbm, ⟨74, _⟩ => ⟨S_, .f32⟩
  | .hbm, ⟨75, _⟩ => ⟨S237x1, .f32⟩
  | .hbm, ⟨76, _⟩ => ⟨S237x1, .f32⟩
  | .hbm, ⟨77, _⟩ => ⟨S237x128, .f32⟩
  | .hbm, ⟨78, _⟩ => ⟨S237x128, .f32⟩
  | .hbm, ⟨79, _⟩ => ⟨S_, .f32⟩
  | .hbm, ⟨80, _⟩ => ⟨S100000x128, .f32⟩
  | .hbm, ⟨81, _⟩ => ⟨S100000x128, .i1⟩
  | .hbm, ⟨82, _⟩ => ⟨S_, .f32⟩
  | .hbm, ⟨83, _⟩ => ⟨S100000x128, .f32⟩
  | .hbm, ⟨84, _⟩ => ⟨S100000x128, .i1⟩
  | .hbm, ⟨85, _⟩ => ⟨S_, .f32⟩
  | .hbm, ⟨86, _⟩ => ⟨S_, .f32⟩
  | .hbm, ⟨87, _⟩ => ⟨S100000x128, .f32⟩
  | .hbm, ⟨88, _⟩ => ⟨S100000x128, .f32⟩
  | .hbm, ⟨89, _⟩ => ⟨S100000x128, .f32⟩
  | .hbm, ⟨90, _⟩ => ⟨S_, .f32⟩
  | .hbm, ⟨91, _⟩ => ⟨S100000x128, .f32⟩
  | .hbm, ⟨92, _⟩ => ⟨S100000x128, .f32⟩
  | .hbm, ⟨93, _⟩ => ⟨S100000x128, .f32⟩
  | .hbm, ⟨94, _⟩ => ⟨S_, .f32⟩
  | .hbm, ⟨95, _⟩ => ⟨S237x128, .f32⟩
  | .hbm, ⟨96, _⟩ => ⟨S237x128, .i1⟩
  | .hbm, ⟨97, _⟩ => ⟨S_, .f32⟩
  | .hbm, ⟨98, _⟩ => ⟨S237x128, .f32⟩
  | .hbm, ⟨99, _⟩ => ⟨S237x128, .i1⟩
  | .hbm, ⟨100, _⟩ => ⟨S_, .f32⟩
  | .hbm, ⟨101, _⟩ => ⟨S_, .f32⟩
  | .hbm, ⟨102, _⟩ => ⟨S237x128, .f32⟩
  | .hbm, ⟨103, _⟩ => ⟨S237x128, .f32⟩
  | .hbm, ⟨104, _⟩ => ⟨S237x128, .f32⟩
  | .hbm, ⟨105, _⟩ => ⟨S_, .f32⟩
  | .hbm, ⟨106, _⟩ => ⟨S237x128, .f32⟩
  | .hbm, ⟨107, _⟩ => ⟨S237x128, .f32⟩
  | .hbm, ⟨108, _⟩ => ⟨S237x128, .f32⟩
  | .local _ .vmem, ⟨0, _⟩ => ⟨S3200x384, .bf16⟩
  | .local _ .vmem, ⟨1, _⟩ => ⟨S3200x384, .bf16⟩
  | .local _ .vmem, ⟨2, _⟩ => ⟨S384x128, .bf16⟩
  | .local _ .vmem, ⟨3, _⟩ => ⟨S128, .f32⟩
  | .local _ .vmem, ⟨4, _⟩ => ⟨S1x128, .f32⟩
  | .local _ .vmem, ⟨5, _⟩ => ⟨S1, .f32⟩
  | .local _ .vmem, ⟨6, _⟩ => ⟨S3200x128, .f32⟩
  | .local _ .vmem, ⟨7, _⟩ => ⟨S3200x128, .f32⟩
  | .local _ .vmem, ⟨8, _⟩ => ⟨S3200x1, .f32⟩
  | .local _ .vmem, ⟨9, _⟩ => ⟨S3200x1, .f32⟩
  | _, _ => ⟨S400000x3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32_0 : Ref sig .tc := ⟨.hbm, 45, rfl⟩
abbrev main_v32_1 : Ref sig .tc := ⟨.hbm, 46, rfl⟩
abbrev main_cst : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_call0_v0 : Ref sig .tc := ⟨.hbm, 59, rfl⟩
abbrev main_call0_v1 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_cst_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call1_cst : Ref sig .tc := ⟨.hbm, 79, rfl⟩
abbrev main_call1_v0 : Ref sig .tc := ⟨.hbm, 80, rfl⟩
abbrev main_call1_v1 : Ref sig .tc := ⟨.hbm, 81, rfl⟩
abbrev main_call1_cst_0 : Ref sig .tc := ⟨.hbm, 82, rfl⟩
abbrev main_call1_v2 : Ref sig .tc := ⟨.hbm, 83, rfl⟩
abbrev main_call1_v3 : Ref sig .tc := ⟨.hbm, 84, rfl⟩
abbrev main_call1_cst_1 : Ref sig .tc := ⟨.hbm, 85, rfl⟩
abbrev main_call1_call0_v0 : Ref sig .tc := ⟨.hbm, 86, rfl⟩
abbrev main_call1_call0_v1 : Ref sig .tc := ⟨.hbm, 87, rfl⟩
abbrev main_call1_v4 : Ref sig .tc := ⟨.hbm, 88, rfl⟩
abbrev main_call1_v5 : Ref sig .tc := ⟨.hbm, 89, rfl⟩
abbrev main_call1_cst_2 : Ref sig .tc := ⟨.hbm, 90, rfl⟩
abbrev main_call1_v6 : Ref sig .tc := ⟨.hbm, 91, rfl⟩
abbrev main_call1_v7 : Ref sig .tc := ⟨.hbm, 92, rfl⟩
abbrev main_v55 : Ref sig .tc := ⟨.hbm, 93, rfl⟩
abbrev main_call2_cst : Ref sig .tc := ⟨.hbm, 94, rfl⟩
abbrev main_call2_v0 : Ref sig .tc := ⟨.hbm, 95, rfl⟩
abbrev main_call2_v1 : Ref sig .tc := ⟨.hbm, 96, rfl⟩
abbrev main_call2_cst_0 : Ref sig .tc := ⟨.hbm, 97, rfl⟩
abbrev main_call2_v2 : Ref sig .tc := ⟨.hbm, 98, rfl⟩
abbrev main_call2_v3 : Ref sig .tc := ⟨.hbm, 99, rfl⟩
abbrev main_call2_cst_1 : Ref sig .tc := ⟨.hbm, 100, rfl⟩
abbrev main_call2_call0_v0 : Ref sig .tc := ⟨.hbm, 101, rfl⟩
abbrev main_call2_call0_v1 : Ref sig .tc := ⟨.hbm, 102, rfl⟩
abbrev main_call2_v4 : Ref sig .tc := ⟨.hbm, 103, rfl⟩
abbrev main_call2_v5 : Ref sig .tc := ⟨.hbm, 104, rfl⟩
abbrev main_call2_cst_2 : Ref sig .tc := ⟨.hbm, 105, rfl⟩
abbrev main_call2_v6 : Ref sig .tc := ⟨.hbm, 106, rfl⟩
abbrev main_call2_v7 : Ref sig .tc := ⟨.hbm, 107, rfl⟩
abbrev main_v56 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S3200x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3200x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S400000x3_S400000x1_0_0 : S400000x3.Slices ![0, 0] S400000x1
  shapeCasts_S400000x1_S400000 : S400000x1.ShapeCasts S400000
  slices_S400000x3_S400000x1_0_1 : S400000x3.Slices ![0, 1] S400000x1
  slices_S400000x3_S400000x1_0_2 : S400000x3.Slices ![0, 2] S400000x1
  bitsLt_bf16_f32 : FTy.bits .bf16 < FTy.bits .f32
  bcast_S_S400000 : S_.BroadcastsInDim S400000 (![] : Fin 0 → Fin S400000.rank)
  bcast_S400000_S400000x1_0 : S400000.BroadcastsInDim S400000x1 (![0] : Fin 1 → Fin S400000x1.rank)
  concatenates_S400000x128_S400000x128_S400000x128_S400000x384_d1 : Shape.Concatenates [S400000x128, S400000x128, S400000x128] S400000x384 1
  transposes_S128x384_S384x128_1_0 : S128x384.Transposes [1, 0] S384x128
  inb_S3200x384_S3200x384_0_0 : ∀ a, (![0, 0] : Fin 2 → Nat) a + S3200x384.size a ≤ S3200x384.size a
  h_S3200x384 : 0 < S3200x384.numel
  shapeCasts_S3200x384_S3200x384 : S3200x384.ShapeCasts S3200x384
  inb_S384x128_S384x128_0_0 : ∀ a, (![0, 0] : Fin 2 → Nat) a + S384x128.size a ≤ S384x128.size a
  h_S384x128 : 0 < S384x128.numel
  shapeCasts_S384x128_S384x128 : S384x128.ShapeCasts S384x128
  inb_S128_S128_0 : ∀ a, (![0] : Fin 1 → Nat) a + S128.size a ≤ S128.size a
  h_S128 : 0 < S128.numel
  shapeCasts_S128_S1x128 : S128.ShapeCasts S1x128
  broadcasts_S1x128_S3200x128 : S1x128.Broadcasts S3200x128
  inb_S1x128_S1x128_0_0 : ∀ a, (![0, 0] : Fin 2 → Nat) a + S1x128.size a ≤ S1x128.size a
  h_S1x128 : 0 < S1x128.numel
  reduces_S3200x128_S3200 : S3200x128.Reduces [1] S3200
  shapeCasts_S3200_S3200x1 : S3200.ShapeCasts S3200x1
  inb_S1_S1_0 : ∀ a, (![0] : Fin 1 → Nat) a + S1.size a ≤ S1.size a
  h_S1 : 0 < S1.numel
  shapeCasts_S1_S1x1 : S1.ShapeCasts S1x1
  broadcasts_S1x1_S3200x1 : S1x1.Broadcasts S3200x1
  broadcasts_S3200x1_S3200x128 : S3200x1.Broadcasts S3200x128
  inb_S3200x128_S3200x128_0_0 : ∀ a, (![0, 0] : Fin 2 → Nat) a + S3200x128.size a ≤ S3200x128.size a
  h_S3200x128 : 0 < S3200x128.numel
  inb_S3200x1_S3200x1_0_0 : ∀ a, (![0, 0] : Fin 2 → Nat) a + S3200x1.size a ≤ S3200x1.size a
  h_S3200x1 : 0 < S3200x1.numel
  bcast_S_S100000x1 : S_.BroadcastsInDim S100000x1 (![] : Fin 0 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S_S237x128 : S_.BroadcastsInDim S237x128 (![] : Fin 0 → Fin S237x128.rank)
  bcast_S_S400000x1 : S_.BroadcastsInDim S400000x1 (![] : Fin 0 → Fin S400000x1.rank)
  bcast_S_S237x1 : S_.BroadcastsInDim S237x1 (![] : Fin 0 → Fin S237x1.rank)
  bcast_S237x1_S237x128_0_1 : S237x1.BroadcastsInDim S237x128 (![0, 1] : Fin 2 → Fin S237x128.rank)
  gather_S100000x128_S400000x1_S400000x128_1_0_n_n_0_1_1128_wf : GatherDims.WF S100000x128 S400000x1 S400000x128 [1] [0] [] [0] [] 1 ![1, 128]
  gather_S237x128_S400000x1_S400000x128_1_0_n_n_0_1_1128_wf : GatherDims.WF S237x128 S400000x1 S400000x128 [1] [0] [] [0] [] 1 ![1, 128]
  dot_S3200x384_S384x128_S3200x128_1_0_0_1_n_n_wf : DotDims.WF S3200x384 S384x128 S3200x128 [1] [0] [0] [1] [] []
  scatter_S100000x1_S400000x1_S400000x1_1_0_0_1_wf : ScatterDims.WF S100000x1 S400000x1 S400000x1 [1] [0] [0] 1
  scatter_S100000x128_S400000x1_S400000x128_1_0_0_1_wf : ScatterDims.WF S100000x128 S400000x1 S400000x128 [1] [0] [0] 1
  scatter_S237x128_S400000x1_S400000x128_1_0_0_1_wf : ScatterDims.WF S237x128 S400000x1 S400000x128 [1] [0] [0] 1
  scatter_S237x1_S400000x1_S400000x1_1_0_0_1_wf : ScatterDims.WF S237x1 S400000x1 S400000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x384.size a ≤ S400000x384.size a
  hwx0_0 : ∀ i : grid0.Coords, EltTy.bits .bf16 = 32 ∨ (Rect.block (s := S400000x384) S3200x384.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x128.size a ≤ S384x128.size a
  hwx0_1 : ∀ i : grid0.Coords, EltTy.bits .bf16 = 32 ∨ (Rect.block (s := S384x128) S384x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S3200x128.size a ≤ S400000x128.size a
  hwx0_5 : ∀ i : grid0.Coords, EltTy.bits .f32 = 32 ∨ (Rect.block (s := S400000x128) S3200x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S3200x1.size a ≤ S400000x1.size a
  hwx0_6 : ∀ i : grid0.Coords, EltTy.bits .f32 = 32 ∨ (Rect.block (s := S400000x1) S3200x1.size (cc0_transform_6 i) (hinb0_6 i)).WholeWords (EltTy.packing .f32)

variable [Facts₀]

def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def gather_S237x128_S400000x1_S400000x128_1_0_n_n_0_1_1128 : GatherDims S237x128 S400000x1 S400000x128 where
  offsetDims := [1]
  collapsedSliceDims := [0]
  operandBatchingDims := []
  startIndicesBatchingDims := []
  startIndexMap := [0]
  indexVectorDim := 1
  sliceSizes := ![1, 128]
  wf := gather_S237x128_S400000x1_S400000x128_1_0_n_n_0_1_1128_wf
def dot_S3200x384_S384x128_S3200x128_1_0_0_1_n_n : DotDims S3200x384 S384x128 S3200x128 where
  lhsContracting := [1]
  rhsContracting := [0]
  lhsNonContracting := [0]
  rhsNonContracting := [1]
  lhsBatch := []
  rhsBatch := []
  wf := dot_S3200x384_S384x128_S3200x128_1_0_0_1_n_n_wf
def scatter_S100000x1_S400000x1_S400000x1_1_0_0_1 : ScatterDims S100000x1 S400000x1 S400000x1 where
  updateWindowDims := [1]
  insertedWindowDims := [0]
  scatterDimsToOperandDims := [0]
  indexVectorDim := 1
  wf := scatter_S100000x1_S400000x1_S400000x1_1_0_0_1_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def scatter_S237x128_S400000x1_S400000x128_1_0_0_1 : ScatterDims S237x128 S400000x1 S400000x128 where
  updateWindowDims := [1]
  insertedWindowDims := [0]
  scatterDimsToOperandDims := [0]
  indexVectorDim := 1
  wf := scatter_S237x128_S400000x1_S400000x128_1_0_0_1_wf
def scatter_S237x1_S400000x1_S400000x1_1_0_0_1 : ScatterDims S237x1 S400000x1 S400000x1 where
  updateWindowDims := [1]
  insertedWindowDims := [0]
  scatterDimsToOperandDims := [0]
  indexVectorDim := 1
  wf := scatter_S237x1_S400000x1_S400000x1_1_0_0_1_wf

abbrev win0_0 : Pipeline.Window sig grid0 :=
  Pipeline.Window.ofSpec (Memref.whole main_v29) S3200x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32_0) S3200x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v32_1) S3200x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S400000x3 : Shape := ⟨2, ![400000, 3]⟩
abbrev S100000x128 : Shape := ⟨2, ![100000, 128]⟩
abbrev S237x128 : Shape := ⟨2, ![237, 128]⟩
abbrev S128x384 : Shape := ⟨2, ![128, 384]⟩
abbrev S128 : Shape := ⟨1, ![128]⟩
abbrev S1x128 : Shape := ⟨2, ![1, 128]⟩
abbrev S1 : Shape := ⟨1, ![1]⟩
abbrev S400000x1 : Shape := ⟨2, ![400000, 1]⟩
abbrev S400000 : Shape := ⟨1, ![400000]⟩
abbrev S_ : Shape := ⟨0, ![]⟩
abbrev S400000x128 : Shape := ⟨2, ![400000, 128]⟩
abbrev S400000x384 : Shape := ⟨2, ![400000, 384]⟩
abbrev S384x128 : Shape := ⟨2, ![384, 128]⟩
abbrev S128x1 : Shape := ⟨2, ![128, 1]⟩
abbrev S1x1 : Shape := ⟨2, ![1, 1]⟩
abbrev S100000x1 : Shape := ⟨2, ![100000, 1]⟩
abbrev S237x1 : Shape := ⟨2, ![237, 1]⟩

abbrev nBuf : Space → Nat
  | .hbm => 123
  | .vmem => 0
  | .smem => 0
  | _ => 0

abbrev bufTy : (tb : Table) → Fin (tcTables nBuf tb) → BufTy
  | .hbm, ⟨0, _⟩ => ⟨S400000x3, .i32⟩
  | .hbm, ⟨1, _⟩ => ⟨S100000x128, .f32⟩
  | .hbm, ⟨2, _⟩ => ⟨S237x128, .f32⟩
  | .hbm, ⟨3, _⟩ => ⟨S128x384, .f32⟩
  | .hbm, ⟨4, _⟩ => ⟨S128, .f32⟩
  | .hbm, ⟨5, _⟩ => ⟨S1x128, .f32⟩
  | .hbm, ⟨6, _⟩ => ⟨S1, .f32⟩
  | .hbm, ⟨7, _⟩ => ⟨S400000x1, .i32⟩
  | .hbm, ⟨8, _⟩ => ⟨S400000, .i32⟩
  | .hbm, ⟨9, _⟩ => ⟨S400000x1, .i32⟩
  | .hbm, ⟨10, _⟩ => ⟨S400000, .i32⟩
  | .hbm, ⟨11, _⟩ => ⟨S400000x1, .i32⟩
  | .hbm, ⟨12, _⟩ => ⟨S400000, .i32⟩
  | .hbm, ⟨13, _⟩ => ⟨S_, .i32⟩
  | .hbm, ⟨14, _⟩ => ⟨S400000, .i32⟩
  | .hbm, ⟨15, _⟩ => ⟨S400000, .i1⟩
  | .hbm, ⟨16, _⟩ => ⟨S_, .i32⟩
  | .hbm, ⟨17, _⟩ => ⟨S400000, .i32⟩
  | .hbm, ⟨18, _⟩ => ⟨S400000, .i32⟩
  | .hbm, ⟨19, _⟩ => ⟨S400000, .i32⟩
  | .hbm, ⟨20, _⟩ => ⟨S400000x1, .i32⟩
  | .hbm, ⟨21, _⟩ => ⟨S400000x128, .f32⟩
  | .hbm, ⟨22, _⟩ => ⟨S_, .i32⟩
  | .hbm, ⟨23, _⟩ => ⟨S400000, .i32⟩
  | .hbm, ⟨24, _⟩ => ⟨S400000, .i1⟩
  | .hbm, ⟨25, _⟩ => ⟨S_, .i32⟩
  | .hbm, ⟨26, _⟩ => ⟨S400000, .i32⟩
  | .hbm, ⟨27, _⟩ => ⟨S400000, .i32⟩
  | .hbm, ⟨28, _⟩ => ⟨S400000, .i32⟩
  | .hbm, ⟨29, _⟩ => ⟨S400000x1, .i32⟩
  | .hbm, ⟨30, _⟩ => ⟨S400000x128, .f32⟩
  | .hbm, ⟨31, _⟩ => ⟨S_, .i32⟩
  | .hbm, ⟨32, _⟩ => ⟨S400000, .i32⟩
  | .hbm, ⟨33, _⟩ => ⟨S400000, .i1⟩
  | .hbm, ⟨34, _⟩ => ⟨S_, .i32⟩
  | .hbm, ⟨35, _⟩ => ⟨S400000, .i32⟩
  | .hbm, ⟨36, _⟩ => ⟨S400000, .i32⟩
  | .hbm, ⟨37, _⟩ => ⟨S400000, .i32⟩
  | .hbm, ⟨38, _⟩ => ⟨S400000x1, .i32⟩
  | .hbm, ⟨39, _⟩ => ⟨S400000x128, .f32⟩
  | .hbm, ⟨40, _⟩ => ⟨S400000x384, .f32⟩
  | .hbm, ⟨41, _⟩ => ⟨S384x128, .f32⟩
  | .hbm, ⟨42, _⟩ => ⟨S400000x128, .f32⟩
  | .hbm, ⟨43, _⟩ => ⟨S1x128, .f32⟩
  | .hbm, ⟨44, _⟩ => ⟨S400000x128, .f32⟩
  | .hbm, ⟨45, _⟩ => ⟨S400000x128, .f32⟩
  | .hbm, ⟨46, _⟩ => ⟨S128x1, .f32⟩
  | .hbm, ⟨47, _⟩ => ⟨S400000x1, .f32⟩
  | .hbm, ⟨48, _⟩ => ⟨S1x1, .f32⟩
  | .hbm, ⟨49, _⟩ => ⟨S400000x1, .f32⟩
  | .hbm, ⟨50, _⟩ => ⟨S400000x1, .f32⟩
  | .hbm, ⟨51, _⟩ => ⟨S_, .f32⟩
  | .hbm, ⟨52, _⟩ => ⟨S400000x1, .f32⟩
  | .hbm, ⟨53, _⟩ => ⟨S400000x1, .i1⟩
  | .hbm, ⟨54, _⟩ => ⟨S_, .f32⟩
  | .hbm, ⟨55, _⟩ => ⟨S400000x1, .f32⟩
  | .hbm, ⟨56, _⟩ => ⟨S400000x1, .f32⟩
  | .hbm, ⟨57, _⟩ => ⟨S400000x1, .f32⟩
  | .hbm, ⟨58, _⟩ => ⟨S400000x1, .f32⟩
  | .hbm, ⟨59, _⟩ => ⟨S_, .f32⟩
  | .hbm, ⟨60, _⟩ => ⟨S100000x1, .f32⟩
  | .hbm, ⟨61, _⟩ => ⟨S400000x1, .i32⟩
  | .hbm, ⟨62, _⟩ => ⟨S100000x1, .f32⟩
  | .hbm, ⟨63, _⟩ => ⟨S400000x128, .f32⟩
  | .hbm, ⟨64, _⟩ => ⟨S400000x128, .f32⟩
  | .hbm, ⟨65, _⟩ => ⟨S_, .f32⟩
  | .hbm, ⟨66, _⟩ => ⟨S100000x128, .f32⟩
  | .hbm, ⟨67, _⟩ => ⟨S400000x1, .i32⟩
  | .hbm, ⟨68, _⟩ => ⟨S100000x128, .f32⟩
  | .hbm, ⟨69, _⟩ => ⟨S_, .f32⟩
  | .hbm, ⟨70, _⟩ => ⟨S100000x1, .f32⟩
  | .hbm, ⟨71, _⟩ => ⟨S100000x1, .i1⟩
  | .hbm, ⟨72, _⟩ => ⟨S_, .f32⟩
  | .hbm, ⟨73, _⟩ => ⟨S_, .f32⟩
  | .hbm, ⟨74, _⟩ => ⟨S100000x1, .f32⟩
  | .hbm, ⟨75, _⟩ => ⟨S100000x1, .f32⟩
  | .hbm, ⟨76, _⟩ => ⟨S100000x128, .f32⟩
  | .hbm, ⟨77, _⟩ => ⟨S100000x128, .f32⟩
  | .hbm, ⟨78, _⟩ => ⟨S_, .f32⟩
  | .hbm, ⟨79, _⟩ => ⟨S237x128, .f32⟩
  | .hbm, ⟨80, _⟩ => ⟨S400000x1, .i32⟩
  | .hbm, ⟨81, _⟩ => ⟨S237x128, .f32⟩
  | .hbm, ⟨82, _⟩ => ⟨S_, .f32⟩
  | .hbm, ⟨83, _⟩ => ⟨S400000x1, .f32⟩
  | .hbm, ⟨84, _⟩ => ⟨S_, .f32⟩
  | .hbm, ⟨85, _⟩ => ⟨S237x1, .f32⟩
  | .hbm, ⟨86, _⟩ => ⟨S400000x1, .i32⟩
  | .hbm, ⟨87, _⟩ => ⟨S237x1, .f32⟩
  | .hbm, ⟨88, _⟩ => ⟨S_, .f32⟩
  | .hbm, ⟨89, _⟩ => ⟨S237x1, .f32⟩
  | .hbm, ⟨90, _⟩ => ⟨S237x1, .f32⟩
  | .hbm, ⟨91, _⟩ => ⟨S237x128, .f32⟩
  | .hbm, ⟨92, _⟩ => ⟨S237x128, .f32⟩
  | .hbm, ⟨93, _⟩ => ⟨S_, .f32⟩
  | .hbm, ⟨94, _⟩ => ⟨S100000x128, .f32⟩
  | .hbm, ⟨95, _⟩ => ⟨S100000x128, .i1⟩
  | .hbm, ⟨96, _⟩ => ⟨S_, .f32⟩
  | .hbm, ⟨97, _⟩ => ⟨S100000x128, .f32⟩
  | .hbm, ⟨98, _⟩ => ⟨S100000x128, .i1⟩
  | .hbm, ⟨99, _⟩ => ⟨S_, .f32⟩
  | .hbm, ⟨100, _⟩ => ⟨S_, .f32⟩
  | .hbm, ⟨101, _⟩ => ⟨S100000x128, .f32⟩
  | .hbm, ⟨102, _⟩ => ⟨S100000x128, .f32⟩
  | .hbm, ⟨103, _⟩ => ⟨S100000x128, .f32⟩
  | .hbm, ⟨104, _⟩ => ⟨S_, .f32⟩
  | .hbm, ⟨105, _⟩ => ⟨S100000x128, .f32⟩
  | .hbm, ⟨106, _⟩ => ⟨S100000x128, .f32⟩
  | .hbm, ⟨107, _⟩ => ⟨S100000x128, .f32⟩
  | .hbm, ⟨108, _⟩ => ⟨S_, .f32⟩
  | .hbm, ⟨109, _⟩ => ⟨S237x128, .f32⟩
  | .hbm, ⟨110, _⟩ => ⟨S237x128, .i1⟩
  | .hbm, ⟨111, _⟩ => ⟨S_, .f32⟩
  | .hbm, ⟨112, _⟩ => ⟨S237x128, .f32⟩
  | .hbm, ⟨113, _⟩ => ⟨S237x128, .i1⟩
  | .hbm, ⟨114, _⟩ => ⟨S_, .f32⟩
  | .hbm, ⟨115, _⟩ => ⟨S_, .f32⟩
  | .hbm, ⟨116, _⟩ => ⟨S237x128, .f32⟩
  | .hbm, ⟨117, _⟩ => ⟨S237x128, .f32⟩
  | .hbm, ⟨118, _⟩ => ⟨S237x128, .f32⟩
  | .hbm, ⟨119, _⟩ => ⟨S_, .f32⟩
  | .hbm, ⟨120, _⟩ => ⟨S237x128, .f32⟩
  | .hbm, ⟨121, _⟩ => ⟨S237x128, .f32⟩
  | .hbm, ⟨122, _⟩ => ⟨S237x128, .f32⟩
  | _, _ => ⟨S400000x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_call0_cst : Ref sig .tc := ⟨.hbm, 51, rfl⟩
abbrev main_call0_v0 : Ref sig .tc := ⟨.hbm, 52, rfl⟩
abbrev main_call0_v1 : Ref sig .tc := ⟨.hbm, 53, rfl⟩
abbrev main_call0_cst_0 : Ref sig .tc := ⟨.hbm, 54, rfl⟩
abbrev main_call0_v2 : Ref sig .tc := ⟨.hbm, 55, rfl⟩
abbrev main_call0_v3 : Ref sig .tc := ⟨.hbm, 56, rfl⟩
abbrev main_v38 : Ref sig .tc := ⟨.hbm, 57, rfl⟩
abbrev main_v39 : Ref sig .tc := ⟨.hbm, 58, rfl⟩
abbrev main_cst : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_5 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_6 : Ref sig .tc := ⟨.hbm, 69, rfl⟩
abbrev main_v48 : Ref sig .tc := ⟨.hbm, 70, rfl⟩
abbrev main_v49 : Ref sig .tc := ⟨.hbm, 71, rfl⟩
abbrev main_cst_7 : Ref sig .tc := ⟨.hbm, 72, rfl⟩
abbrev main_call1_v0 : Ref sig .tc := ⟨.hbm, 73, rfl⟩
abbrev main_call1_v1 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_8 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_9 : Ref sig .tc := ⟨.hbm, 82, rfl⟩
abbrev main_v56 : Ref sig .tc := ⟨.hbm, 83, rfl⟩
abbrev main_cst_10 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_11 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_call2_cst : Ref sig .tc := ⟨.hbm, 93, rfl⟩
abbrev main_call2_v0 : Ref sig .tc := ⟨.hbm, 94, rfl⟩
abbrev main_call2_v1 : Ref sig .tc := ⟨.hbm, 95, rfl⟩
abbrev main_call2_cst_0 : Ref sig .tc := ⟨.hbm, 96, rfl⟩
abbrev main_call2_v2 : Ref sig .tc := ⟨.hbm, 97, rfl⟩
abbrev main_call2_v3 : Ref sig .tc := ⟨.hbm, 98, rfl⟩
abbrev main_call2_cst_1 : Ref sig .tc := ⟨.hbm, 99, rfl⟩
abbrev main_call2_call0_v0 : Ref sig .tc := ⟨.hbm, 100, rfl⟩
abbrev main_call2_call0_v1 : Ref sig .tc := ⟨.hbm, 101, rfl⟩
abbrev main_call2_v4 : Ref sig .tc := ⟨.hbm, 102, rfl⟩
abbrev main_call2_v5 : Ref sig .tc := ⟨.hbm, 103, rfl⟩
abbrev main_call2_cst_2 : Ref sig .tc := ⟨.hbm, 104, rfl⟩
abbrev main_call2_v6 : Ref sig .tc := ⟨.hbm, 105, rfl⟩
abbrev main_call2_v7 : Ref sig .tc := ⟨.hbm, 106, rfl⟩
abbrev main_v64 : Ref sig .tc := ⟨.hbm, 107, rfl⟩
abbrev main_call3_cst : Ref sig .tc := ⟨.hbm, 108, rfl⟩
abbrev main_call3_v0 : Ref sig .tc := ⟨.hbm, 109, rfl⟩
abbrev main_call3_v1 : Ref sig .tc := ⟨.hbm, 110, rfl⟩
abbrev main_call3_cst_0 : Ref sig .tc := ⟨.hbm, 111, rfl⟩
abbrev main_call3_v2 : Ref sig .tc := ⟨.hbm, 112, rfl⟩
abbrev main_call3_v3 : Ref sig .tc := ⟨.hbm, 113, rfl⟩
abbrev main_call3_cst_1 : Ref sig .tc := ⟨.hbm, 114, rfl⟩
abbrev main_call3_call0_v0 : Ref sig .tc := ⟨.hbm, 115, rfl⟩
abbrev main_call3_call0_v1 : Ref sig .tc := ⟨.hbm, 116, rfl⟩
abbrev main_call3_v4 : Ref sig .tc := ⟨.hbm, 117, rfl⟩
abbrev main_call3_v5 : Ref sig .tc := ⟨.hbm, 118, rfl⟩
abbrev main_call3_cst_2 : Ref sig .tc := ⟨.hbm, 119, rfl⟩
abbrev main_call3_v6 : Ref sig .tc := ⟨.hbm, 120, rfl⟩
abbrev main_call3_v7 : Ref sig .tc := ⟨.hbm, 121, rfl⟩
abbrev main_v65 : Ref sig .tc := ⟨.hbm, 122, rfl⟩

abbrev nD : Nat := 1
abbrev τ : Topo := Topo.v7x

variable {F : FTy → Type} [FloatOps F]

class Facts₀ : Prop where
  slices_S400000x3_S400000x1_0_0 : S400000x3.Slices ![0, 0] S400000x1
  shapeCasts_S400000x1_S400000 : S400000x1.ShapeCasts S400000
  slices_S400000x3_S400000x1_0_1 : S400000x3.Slices ![0, 1] S400000x1
  slices_S400000x3_S400000x1_0_2 : S400000x3.Slices ![0, 2] S400000x1
  bcast_S_S400000 : S_.BroadcastsInDim S400000 (![] : Fin 0 → Fin S400000.rank)
  bcast_S400000_S400000x1_0 : S400000.BroadcastsInDim S400000x1 (![0] : Fin 1 → Fin S400000x1.rank)
  concatenates_S400000x128_S400000x128_S400000x128_S400000x384_d1 : Shape.Concatenates [S400000x128, S400000x128, S400000x128] S400000x384 1
  transposes_S128x384_S384x128_1_0 : S128x384.Transposes [1, 0] S384x128
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  transposes_S1x128_S128x1_1_0 : S1x128.Transposes [1, 0] S128x1
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  bcast_S_S400000x1 : S_.BroadcastsInDim S400000x1 (![] : Fin 0 → Fin S400000x1.rank)
  bcast_S_S100000x1 : S_.BroadcastsInDim S100000x1 (![] : Fin 0 → Fin S100000x1.rank)
  bcast_S400000x1_S400000x128_0_1 : S400000x1.BroadcastsInDim S400000x128 (![0, 1] : Fin 2 → Fin S400000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S_S237x128 : S_.BroadcastsInDim S237x128 (![] : Fin 0 → Fin S237x128.rank)
  bcast_S_S237x1 : S_.BroadcastsInDim S237x1 (![] : Fin 0 → Fin S237x1.rank)
  bcast_S237x1_S237x128_0_1 : S237x1.BroadcastsInDim S237x128 (![0, 1] : Fin 2 → Fin S237x128.rank)
  gather_S100000x128_S400000x1_S400000x128_1_0_n_n_0_1_1128_wf : GatherDims.WF S100000x128 S400000x1 S400000x128 [1] [0] [] [0] [] 1 ![1, 128]
  gather_S237x128_S400000x1_S400000x128_1_0_n_n_0_1_1128_wf : GatherDims.WF S237x128 S400000x1 S400000x128 [1] [0] [] [0] [] 1 ![1, 128]
  dot_S400000x384_S384x128_S400000x128_1_0_0_1_n_n_wf : DotDims.WF S400000x384 S384x128 S400000x128 [1] [0] [0] [1] [] []
  dot_S400000x128_S128x1_S400000x1_1_0_0_1_n_n_wf : DotDims.WF S400000x128 S128x1 S400000x1 [1] [0] [0] [1] [] []
  scatter_S100000x1_S400000x1_S400000x1_1_0_0_1_wf : ScatterDims.WF S100000x1 S400000x1 S400000x1 [1] [0] [0] 1
  scatter_S100000x128_S400000x1_S400000x128_1_0_0_1_wf : ScatterDims.WF S100000x128 S400000x1 S400000x128 [1] [0] [0] 1
  scatter_S237x128_S400000x1_S400000x128_1_0_0_1_wf : ScatterDims.WF S237x128 S400000x1 S400000x128 [1] [0] [0] 1
  scatter_S237x1_S400000x1_S400000x1_1_0_0_1_wf : ScatterDims.WF S237x1 S400000x1 S400000x1 [1] [0] [0] 1

variable [Facts₀]

def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def gather_S237x128_S400000x1_S400000x128_1_0_n_n_0_1_1128 : GatherDims S237x128 S400000x1 S400000x128 where
  offsetDims := [1]
  collapsedSliceDims := [0]
  operandBatchingDims := []
  startIndicesBatchingDims := []
  startIndexMap := [0]
  indexVectorDim := 1
  sliceSizes := ![1, 128]
  wf := gather_S237x128_S400000x1_S400000x128_1_0_n_n_0_1_1128_wf
def dot_S400000x384_S384x128_S400000x128_1_0_0_1_n_n : DotDims S400000x384 S384x128 S400000x128 where
  lhsContracting := [1]
  rhsContracting := [0]
  lhsNonContracting := [0]
  rhsNonContracting := [1]
  lhsBatch := []
  rhsBatch := []
  wf := dot_S400000x384_S384x128_S400000x128_1_0_0_1_n_n_wf
def dot_S400000x128_S128x1_S400000x1_1_0_0_1_n_n : DotDims S400000x128 S128x1 S400000x1 where
  lhsContracting := [1]
  rhsContracting := [0]
  lhsNonContracting := [0]
  rhsNonContracting := [1]
  lhsBatch := []
  rhsBatch := []
  wf := dot_S400000x128_S128x1_S400000x1_1_0_0_1_n_n_wf
def scatter_S100000x1_S400000x1_S400000x1_1_0_0_1 : ScatterDims S100000x1 S400000x1 S400000x1 where
  updateWindowDims := [1]
  insertedWindowDims := [0]
  scatterDimsToOperandDims := [0]
  indexVectorDim := 1
  wf := scatter_S100000x1_S400000x1_S400000x1_1_0_0_1_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def scatter_S237x128_S400000x1_S400000x128_1_0_0_1 : ScatterDims S237x128 S400000x1 S400000x128 where
  updateWindowDims := [1]
  insertedWindowDims := [0]
  scatterDimsToOperandDims := [0]
  indexVectorDim := 1
  wf := scatter_S237x128_S400000x1_S400000x128_1_0_0_1_wf
def scatter_S237x1_S400000x1_S400000x1_1_0_0_1 : ScatterDims S237x1 S400000x1 S400000x1 where
  updateWindowDims := [1]
  insertedWindowDims := [0]
  scatterDimsToOperandDims := [0]
  indexVectorDim := 1
  wf := scatter_S237x1_S400000x1_S400000x1_1_0_0_1_wf

class Facts : Prop extends Facts₀ where

variable [Facts]
-- ==== Proof.KFrameBits.lean ====
import proofs.«177955_j49082886259211_2_alg».proof.Proof.Gen.Kernel.Launch
import proofs.«177955_j49082886259211_2_alg».proof.Proof.Gen.Kernel.Skeleton
import proofs.«177955_j49082886259211_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-!
# The frame run of the program, written out

The program's entry function is: a stretch of host operations (one of them a concatenation of three arrays), one
pipelined region over a grid of 125 points with five input windows and two output windows, and five further stretches
of host operations. This module states what every buffer holds when the region is entered, what each window's staging
buffer holds before and after the body at each grid point, the body's triple, and from these the run of the whole
entry function: it terminates, every array of the pipeline ends at the contents computed from the per-point values,
every other unscoped buffer at what the later host operations compute, and the seven argument arrays are unchanged.
-/

-- deciding membership in a rectangle whose extents are in the thousands recurses once per coordinate
set_option maxRecDepth 16384

noncomputable section

namespace Cert.Kernel.GenH

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry function around its region -/

/-- The contents of core `c`'s buffers at the moment the region is entered: the initial memory folded through the
    38 host operations that precede the region. -/
abbrev V0 (c : Dev nD) : Valuation τ sig (Elt F) := StableHlo.after (List.flatten [hostOps0]) (fun b => m (c, b))
/-- The same contents, indexed by a reference of the core. -/
abbrev V (c : Dev nD) (b : Ref sig .tc) : Buf (Elt F) ((c : Thread nD τ).loc b) := V0 m c (Proc.devRef .tc b)

/-- No host operation allocates a buffer: stretch by stretch. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

set_option maxHeartbeats 2000000 in
/-- The entry function is the first stretch, then the region, then the five later stretches; so, holding the unscoped
    buffers at the initial memory, it reduces to the region entered at contents `V` and continued by the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4]) :=
  Pipeline.hmain_around cfgs 0 defs₀ 𝒱₀ m main [hostOps0] [hostOps1, hostOps1_1, hostOps1_2, hostOps1_3, hostOps1_4] (by simp only [List.Forall]; exact hostOps0_sub)
    (by simp only [List.Forall]; exact hostOps0_fresh) main_chain

/-- Every buffer a later operation touches is an unscoped reference of the core, hence either an array of the pipeline
    or a buffer that bypasses the region (nothing is prefetched). -/
theorem sfx_sub : ∀ ops ∈ ([hostOps1, hostOps1_1, hostOps1_2, hostOps1_3, hostOps1_4] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
/-- No later operation allocates. -/
theorem sfx_fresh : ∀ ops ∈ ([hostOps1, hostOps1_1, hostOps1_2, hostOps1_3, hostOps1_4] : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- Each later operation writes one buffer, its result, and that result is none of the seven windows' arrays:
    stretch by stretch, one inequality of references per operation and window. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; fin_cases w <;> exact StableHlo.devRef_ne_of_ne (by decide)
theorem hostOps1_1_keeps : (hostOps1_1 : List (HloOp τ sig (Elt F))).Forall fun op =>
    ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; fin_cases w <;> exact StableHlo.devRef_ne_of_ne (by decide)
theorem hostOps1_2_keeps : (hostOps1_2 : List (HloOp τ sig (Elt F))).Forall fun op =>
    ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; fin_cases w <;> exact StableHlo.devRef_ne_of_ne (by decide)
theorem hostOps1_3_keeps : (hostOps1_3 : List (HloOp τ sig (Elt F))).Forall fun op =>
    ∀ w, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; fin_cases w <;> exact StableHlo.devRef_ne_of_ne (by decide)
theorem hostOps1_4_keeps : (hostOps1_4 : List (HloOp τ sig (Elt F))).Forall fun op =>
    ∀ w, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; fin_cases w <;> exact StableHlo.devRef_ne_of_ne (by decide)
/-- So the later stretches write no array of the pipeline. -/
theorem sfx_keeps : ∀ ops ∈ ([hostOps1, hostOps1_1, hostOps1_2, hostOps1_3, hostOps1_4] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop

/-! ## The argument arrays -/

/-- None of the operations before the region writes argument 0: at the region's entry it holds its initial contents. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the operations before the region writes argument 1: at the region's entry it holds its initial contents. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the operations before the region writes argument 2: at the region's entry it holds its initial contents. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the operations before the region writes argument 3: at the region's entry it holds its initial contents. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the operations before the region writes argument 4: at the region's entry it holds its initial contents. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the operations before the region writes argument 5: at the region's entry it holds its initial contents. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the operations before the region writes argument 6: at the region's entry it holds its initial contents. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Argument 0 is no window's array and none of the later operations writes it: after them it holds its initial contents. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- Argument 1 is no window's array and none of the later operations writes it: after them it holds its initial contents. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- Argument 2 is no window's array and none of the later operations writes it: after them it holds its initial contents. -/
theorem W_main_arg2 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- Argument 3 is no window's array and none of the later operations writes it: after them it holds its initial contents. -/
theorem W_main_arg3 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- Argument 4 is the array of input window 2, which is never written back: after all 125 points it holds its
    contents at the region's entry, which are its initial contents. -/
theorem W_main_arg4 (dats : (p : Fin 1) → (c : Dev nD) → Dat τ (Elt F) Unit ℕ (UR sig nD τ) ℕ (cfgs p) c)
    (hA : ∀ c w, (dats 0 c).A w = V m c (Pipeline.arrRef spec0 w)) (c : Dev nD) :
    (dats 0 c).arrAt 2 (cfgs 0).N = m ((c : Thread nD τ).loc main_arg4) :=
  ((dats 0 c).arrAt_in 2 rfl _).trans ((hA c 2).trans (V_main_arg4 m c))
/-- Argument 5 is the array of input window 3, which is never written back: after all 125 points it holds its
    contents at the region's entry, which are its initial contents. -/
theorem W_main_arg5 (dats : (p : Fin 1) → (c : Dev nD) → Dat τ (Elt F) Unit ℕ (UR sig nD τ) ℕ (cfgs p) c)
    (hA : ∀ c w, (dats 0 c).A w = V m c (Pipeline.arrRef spec0 w)) (c : Dev nD) :
    (dats 0 c).arrAt 3 (cfgs 0).N = m ((c : Thread nD τ).loc main_arg5) :=
  ((dats 0 c).arrAt_in 3 rfl _).trans ((hA c 3).trans (V_main_arg5 m c))
/-- Argument 6 is the array of input window 4, which is never written back: after all 125 points it holds its
    contents at the region's entry, which are its initial contents. -/
theorem W_main_arg6 (dats : (p : Fin 1) → (c : Dev nD) → Dat τ (Elt F) Unit ℕ (UR sig nD τ) ℕ (cfgs p) c)
    (hA : ∀ c w, (dats 0 c).A w = V m c (Pipeline.arrRef spec0 w)) (c : Dev nD) :
    (dats 0 c).arrAt 4 (cfgs 0).N = m ((c : Thread nD τ).loc main_arg6) :=
  ((dats 0 c).arrAt_in 4 rfl _).trans ((hA c 4).trans (V_main_arg6 m c))

/-! ## The windows' blocks -/

/-- The block of window `w` at grid point `t`: the window's rectangle there, read off the window's array as it is
    when the region is entered. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0: for any per-point data whose array is the entry contents and whose body leaves the block where it
    found it, the current staging buffer holds the window's block at every point — a point at which nothing is fetched
    has the block index of the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1: for any per-point data whose array is the entry contents and whose body leaves the block where it
    found it, the current staging buffer holds the window's block at every point — a point at which nothing is fetched
    has the block index of the point before. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2: for any per-point data whose array is the entry contents and whose body leaves the block where it
    found it, the current staging buffer holds the window's block at every point — a point at which nothing is fetched
    has the block index of the point before. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3: for any per-point data whose array is the entry contents and whose body leaves the block where it
    found it, the current staging buffer holds the window's block at every point — a point at which nothing is fetched
    has the block index of the point before. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4: for any per-point data whose array is the entry contents and whose body leaves the block where it
    found it, the current staging buffer holds the window's block at every point — a point at which nothing is fetched
    has the block index of the point before. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The argument arrays at the end of the run -/

/-- From a run that ends with every array of the pipeline at its computed final contents and every bypassing buffer at
    what the later operations leave, the seven argument arrays end unchanged: arguments 0 to 3 bypass the region and are
    written by no host operation; arguments 4 to 6 are arrays of input windows, never written back. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2, hostOps1_3, hostOps1_4]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).1 2).trans (W_main_arg4 m dats hA c),
      ((h c).1 3).trans (W_main_arg5 m dats hA c),
      ((h c).1 4).trans (W_main_arg6 m dats hA c)⟩) h

/-! ## The rectangles the body reads and writes through: each the whole of its staging buffer -/

abbrev r0_0 : Rect S3200x384 := Rect.unit (s := S3200x384) ![0, 0] S3200x384.size inb_S3200x384_S3200x384_0_0
abbrev r0_1 : Rect S384x128 := Rect.unit (s := S384x128) ![0, 0] S384x128.size inb_S384x128_S384x128_0_0
abbrev r0_2 : Rect S128 := Rect.unit (s := S128) ![0] S128.size inb_S128_S128_0
abbrev r0_3 : Rect S1x128 := Rect.unit (s := S1x128) ![0, 0] S1x128.size inb_S1x128_S1x128_0_0
abbrev r0_4 : Rect S1 := Rect.unit (s := S1) ![0] S1.size inb_S1_S1_0
abbrev r0_5 : Rect S3200x128 := Rect.unit (s := S3200x128) ![0, 0] S3200x128.size inb_S3200x128_S3200x128_0_0
abbrev r0_6 : Rect S3200x1 := Rect.unit (s := S3200x1) ![0, 0] S3200x1.size inb_S3200x1_S3200x1_0_0

/-! ## What the body leaves in the two output buffers -/

/-- Output window 5's buffer after the body, as a function of the five input blocks: the one store into it, whose
    value is the row-scaled projection `k0_pay3` of the loaded blocks, over the whole buffer. -/
def out0_5 (x0 : Vec F S3200x384 .bf16) (x1 : Vec F S384x128 .bf16) (x2 : Vec F S128 .f32) (x3 : Vec F S1x128 .f32) (x4 : Vec F S1 .f32) : Vec F S3200x128 .f32 :=
  View.canon [⟨r0_5, k0_pay3 (View.ld x0 r0_0) (View.ld x1 r0_1) (View.ld x2 r0_2) (View.ld x3 r0_3) (View.ld x4 r0_4)⟩]

/-- That store's rectangle is the whole buffer, so every index lies in it. -/
theorem cover0_5 (p0 : Vec F S3200x128 .f32) (y : S3200x128.Idx) :
    ∃ pc ∈ ([⟨r0_5, p0⟩] : List (View.Piece (Elt F) S3200x128 .f32)), y ∈ pc.1.set :=
  View.cover_of_tiled [⟨r0_5, p0⟩] S3200x128.size (by rfl) y

/-- Output window 6's buffer after the body: the one store into it, whose value is the per-row weight `k0_pay2` of
    the loaded blocks, over the whole buffer. -/
def out0_6 (x0 : Vec F S3200x384 .bf16) (x1 : Vec F S384x128 .bf16) (x2 : Vec F S128 .f32) (x3 : Vec F S1x128 .f32) (x4 : Vec F S1 .f32) : Vec F S3200x1 .f32 :=
  View.canon [⟨r0_6, k0_pay2 (View.ld x0 r0_0) (View.ld x1 r0_1) (View.ld x2 r0_2) (View.ld x3 r0_3) (View.ld x4 r0_4)⟩]

/-- That store's rectangle is the whole buffer. -/
theorem cover0_6 (p0 : Vec F S3200x1 .f32) (y : S3200x1.Idx) :
    ∃ pc ∈ ([⟨r0_6, p0⟩] : List (View.Piece (Elt F) S3200x1 .f32)), y ∈ pc.1.set :=
  View.cover_of_tiled [⟨r0_6, p0⟩] S3200x1.size (by rfl) y

/-! ## The body's triple -/

set_option maxHeartbeats 4000000 in
/-- The body, called on whole staging buffers — the five inputs' holding `x0 … x4`, the two outputs' holding anything —
    runs to its continuation with the inputs' buffers unchanged and the outputs' at `out0_5` and `out0_6` of the inputs:
    five whole-buffer loads, then for each output a load whose value is dropped and a whole-buffer store. -/
theorem sound_kernel (c : Dev nD) (E : Set ℕ) (i : grid0.Coords) (arg1 : Memref sig .tc .vmem S3200x384 .bf16) (harg1 : arg1.IsWhole) (arg2 : Memref sig .tc .vmem S384x128 .bf16) (harg2 : arg2.IsWhole) (arg3 : Memref sig .tc .vmem S128 .f32) (harg3 : arg3.IsWhole) (arg4 : Memref sig .tc .vmem S1x128 .f32) (harg4 : arg4.IsWhole) (arg5 : Memref sig .tc .vmem S1 .f32) (harg5 : arg5.IsWhole) (arg6 : Memref sig .tc .vmem S3200x128 .f32) (harg6 : arg6.IsWhole) (arg7 : Memref sig .tc .vmem S3200x1 .f32) (harg7 : arg7.IsWhole)
    (x0 : Vec F S3200x384 .bf16) (x1 : Vec F S384x128 .bf16) (x2 : Vec F S128 .f32) (x3 : Vec F S1x128 .f32) (x4 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4) ∗ owns (c : Thread nD τ) arg7 fullShare (out0_6 x0 x1 x2 x3 x4)) -∗ K ⟨⟩))
      ⊢ wp frame (wpE (defs₀ (F := F)) Variants.none c none) E (cc0__kgatt_kernel i arg1 harg1 arg2 harg2 arg3 harg3 arg4 harg4 arg5 harg5 arg6 harg6 arg7 harg7) K := by
  simp only [cc0__kgatt_kernel_eq_skeleton]; unfold cc0__kgatt_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The per-point data of the pipeline -/

/-- On core `c`: the arrays at the region's entry are `V`'s; after the body at point `t` each input buffer holds its
    block and each output buffer `out0_5` / `out0_6` of the five input blocks at `t`; the invariant carried from point to
    point is the untouched scoped rest and generator register; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
    | ⟨6, _⟩ => out0_6 (iblk m c 0 t) (iblk m c 1 t) (iblk m c 2 t) (iblk m c 3 t) (iblk m c 4 t)
  Φ _ := Pipeline.ΦA spec0 c
  q _ := fullShare
  owed _ := 0

/-- The data's arrays are the entry contents (by projection, without evaluating the fold over the host operations). -/
theorem A_eq (c : Dev nD) (w : Fin cfg0.W) : (dats m 0 c).A w = V m c (Pipeline.arrRef spec0 w) := by
  dsimp only [dats]

/-- What the body leaves in each window's buffer at point `t`. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]
theorem after0_6 (c : Dev nD) (t : Fin cfg0.N) : (dats m 0 c).after 6 t = out0_6 (iblk m c 0 t) (iblk m c 1 t) (iblk m c 2 t) (iblk m c 3 t) (iblk m c 4 t) := by dsimp only [dats]

/-- What each input's buffer holds when the body is called at point `t`: the window's block there. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body at a generic point -/

/-- The resources the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and the resources it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 1000000 in
/-- The body at any point: the five input buffers hold their blocks there, so the body's triple applies with those blocks;
    the invariant and the core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's obligation on the body, at every point. -/
theorem body_obligation (c : Dev nD) : BodyObligation (dats (F := F) m 0 c) (defs₀ (F := F)) Variants.none () Set.univ := fun t => by
  rw [bigSep_W0, bigSep_W0]
  exact sound_body m c t

/-! ## The run -/

-- the implicit arguments of the run theorem are found by unifying its conclusion with the statement, which needs plain
-- definitions unfolded inside the type of a metavariable
set_option maxHeartbeats 4000000 in
set_option backward.isDefEq.respectTransparency.types false in
/-- From any initial memory with all semaphores at zero, every weakly fair execution of the entry function on the
    cores terminates without fault, and in every final state each array of the pipeline holds what the per-point data
    compute after the last point and every other unscoped buffer what the five later stretches leave. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4]) (hsub := sfx_sub) (hfresh := sfx_fresh) (hkeep := sfx_keeps)
    (hmain := hmain m Variants.none) (hA := A_eq m) (hΦ := fun _ _ => rfl)

/-- The program runs and its seven argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.GenH

end
-- ==== Proof.KFrame.lean ====
import proofs.«177955_j49082886259211_2_alg».proof.Proof.Gen.KernelIdeal.Launch
import proofs.«177955_j49082886259211_2_alg».proof.Proof.Gen.KernelIdeal.Skeleton
import proofs.«177955_j49082886259211_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-!
# The frame run of the program, written out

The program's entry function is: a stretch of host operations (one of them a concatenation of three arrays), one
pipelined region over a grid of 125 points with five input windows and two output windows, and five further stretches
of host operations. This module states what every buffer holds when the region is entered, what each window's staging
buffer holds before and after the body at each grid point, the body's triple, and from these the run of the whole
entry function: it terminates, every array of the pipeline ends at the contents computed from the per-point values,
every other unscoped buffer at what the later host operations compute, and the seven argument arrays are unchanged.
-/

-- deciding membership in a rectangle whose extents are in the thousands recurses once per coordinate
set_option maxRecDepth 16384

noncomputable section

namespace Cert.KernelIdeal.GenH

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry function around its region -/

/-- The contents of core `c`'s buffers at the moment the region is entered: the initial memory folded through the
    38 host operations that precede the region. -/
abbrev V0 (c : Dev nD) : Valuation τ sig (Elt F) := StableHlo.after (List.flatten [hostOps0]) (fun b => m (c, b))
/-- The same contents, indexed by a reference of the core. -/
abbrev V (c : Dev nD) (b : Ref sig .tc) : Buf (Elt F) ((c : Thread nD τ).loc b) := V0 m c (Proc.devRef .tc b)

/-- No host operation allocates a buffer: stretch by stretch. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

set_option maxHeartbeats 2000000 in
/-- The entry function is the first stretch, then the region, then the five later stretches; so, holding the unscoped
    buffers at the initial memory, it reduces to the region entered at contents `V` and continued by the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4]) :=
  Pipeline.hmain_around cfgs 0 defs₀ 𝒱₀ m main [hostOps0] [hostOps1, hostOps1_1, hostOps1_2, hostOps1_3, hostOps1_4] (by simp only [List.Forall]; exact hostOps0_sub)
    (by simp only [List.Forall]; exact hostOps0_fresh) main_chain

/-- Every buffer a later operation touches is an unscoped reference of the core, hence either an array of the pipeline
    or a buffer that bypasses the region (nothing is prefetched). -/
theorem sfx_sub : ∀ ops ∈ ([hostOps1, hostOps1_1, hostOps1_2, hostOps1_3, hostOps1_4] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
/-- No later operation allocates. -/
theorem sfx_fresh : ∀ ops ∈ ([hostOps1, hostOps1_1, hostOps1_2, hostOps1_3, hostOps1_4] : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- Each later operation writes one buffer, its result, and that result is none of the seven windows' arrays:
    stretch by stretch, one inequality of references per operation and window. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; fin_cases w <;> exact StableHlo.devRef_ne_of_ne (by decide)
theorem hostOps1_1_keeps : (hostOps1_1 : List (HloOp τ sig (Elt F))).Forall fun op =>
    ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; fin_cases w <;> exact StableHlo.devRef_ne_of_ne (by decide)
theorem hostOps1_2_keeps : (hostOps1_2 : List (HloOp τ sig (Elt F))).Forall fun op =>
    ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; fin_cases w <;> exact StableHlo.devRef_ne_of_ne (by decide)
theorem hostOps1_3_keeps : (hostOps1_3 : List (HloOp τ sig (Elt F))).Forall fun op =>
    ∀ w, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; fin_cases w <;> exact StableHlo.devRef_ne_of_ne (by decide)
theorem hostOps1_4_keeps : (hostOps1_4 : List (HloOp τ sig (Elt F))).Forall fun op =>
    ∀ w, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; fin_cases w <;> exact StableHlo.devRef_ne_of_ne (by decide)
/-- So the later stretches write no array of the pipeline. -/
theorem sfx_keeps : ∀ ops ∈ ([hostOps1, hostOps1_1, hostOps1_2, hostOps1_3, hostOps1_4] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop

/-! ## The argument arrays -/

/-- None of the operations before the region writes argument 0: at the region's entry it holds its initial contents. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the operations before the region writes argument 1: at the region's entry it holds its initial contents. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the operations before the region writes argument 2: at the region's entry it holds its initial contents. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the operations before the region writes argument 3: at the region's entry it holds its initial contents. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the operations before the region writes argument 4: at the region's entry it holds its initial contents. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the operations before the region writes argument 5: at the region's entry it holds its initial contents. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the operations before the region writes argument 6: at the region's entry it holds its initial contents. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Argument 0 is no window's array and none of the later operations writes it: after them it holds its initial contents. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- Argument 1 is no window's array and none of the later operations writes it: after them it holds its initial contents. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- Argument 2 is no window's array and none of the later operations writes it: after them it holds its initial contents. -/
theorem W_main_arg2 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- Argument 3 is no window's array and none of the later operations writes it: after them it holds its initial contents. -/
theorem W_main_arg3 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- Argument 4 is the array of input window 2, which is never written back: after all 125 points it holds its
    contents at the region's entry, which are its initial contents. -/
theorem W_main_arg4 (dats : (p : Fin 1) → (c : Dev nD) → Dat τ (Elt F) Unit ℕ (UR sig nD τ) ℕ (cfgs p) c)
    (hA : ∀ c w, (dats 0 c).A w = V m c (Pipeline.arrRef spec0 w)) (c : Dev nD) :
    (dats 0 c).arrAt 2 (cfgs 0).N = m ((c : Thread nD τ).loc main_arg4) :=
  ((dats 0 c).arrAt_in 2 rfl _).trans ((hA c 2).trans (V_main_arg4 m c))
/-- Argument 5 is the array of input window 3, which is never written back: after all 125 points it holds its
    contents at the region's entry, which are its initial contents. -/
theorem W_main_arg5 (dats : (p : Fin 1) → (c : Dev nD) → Dat τ (Elt F) Unit ℕ (UR sig nD τ) ℕ (cfgs p) c)
    (hA : ∀ c w, (dats 0 c).A w = V m c (Pipeline.arrRef spec0 w)) (c : Dev nD) :
    (dats 0 c).arrAt 3 (cfgs 0).N = m ((c : Thread nD τ).loc main_arg5) :=
  ((dats 0 c).arrAt_in 3 rfl _).trans ((hA c 3).trans (V_main_arg5 m c))
/-- Argument 6 is the array of input window 4, which is never written back: after all 125 points it holds its
    contents at the region's entry, which are its initial contents. -/
theorem W_main_arg6 (dats : (p : Fin 1) → (c : Dev nD) → Dat τ (Elt F) Unit ℕ (UR sig nD τ) ℕ (cfgs p) c)
    (hA : ∀ c w, (dats 0 c).A w = V m c (Pipeline.arrRef spec0 w)) (c : Dev nD) :
    (dats 0 c).arrAt 4 (cfgs 0).N = m ((c : Thread nD τ).loc main_arg6) :=
  ((dats 0 c).arrAt_in 4 rfl _).trans ((hA c 4).trans (V_main_arg6 m c))

/-! ## The windows' blocks -/

/-- The block of window `w` at grid point `t`: the window's rectangle there, read off the window's array as it is
    when the region is entered. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0: for any per-point data whose array is the entry contents and whose body leaves the block where it
    found it, the current staging buffer holds the window's block at every point — a point at which nothing is fetched
    has the block index of the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1: for any per-point data whose array is the entry contents and whose body leaves the block where it
    found it, the current staging buffer holds the window's block at every point — a point at which nothing is fetched
    has the block index of the point before. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2: for any per-point data whose array is the entry contents and whose body leaves the block where it
    found it, the current staging buffer holds the window's block at every point — a point at which nothing is fetched
    has the block index of the point before. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3: for any per-point data whose array is the entry contents and whose body leaves the block where it
    found it, the current staging buffer holds the window's block at every point — a point at which nothing is fetched
    has the block index of the point before. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4: for any per-point data whose array is the entry contents and whose body leaves the block where it
    found it, the current staging buffer holds the window's block at every point — a point at which nothing is fetched
    has the block index of the point before. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The argument arrays at the end of the run -/

/-- From a run that ends with every array of the pipeline at its computed final contents and every bypassing buffer at
    what the later operations leave, the seven argument arrays end unchanged: arguments 0 to 3 bypass the region and are
    written by no host operation; arguments 4 to 6 are arrays of input windows, never written back. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2, hostOps1_3, hostOps1_4]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).1 2).trans (W_main_arg4 m dats hA c),
      ((h c).1 3).trans (W_main_arg5 m dats hA c),
      ((h c).1 4).trans (W_main_arg6 m dats hA c)⟩) h

/-! ## The rectangles the body reads and writes through: each the whole of its staging buffer -/

abbrev r0_0 : Rect S3200x384 := Rect.unit (s := S3200x384) ![0, 0] S3200x384.size inb_S3200x384_S3200x384_0_0
abbrev r0_1 : Rect S384x128 := Rect.unit (s := S384x128) ![0, 0] S384x128.size inb_S384x128_S384x128_0_0
abbrev r0_2 : Rect S128 := Rect.unit (s := S128) ![0] S128.size inb_S128_S128_0
abbrev r0_3 : Rect S1x128 := Rect.unit (s := S1x128) ![0, 0] S1x128.size inb_S1x128_S1x128_0_0
abbrev r0_4 : Rect S1 := Rect.unit (s := S1) ![0] S1.size inb_S1_S1_0
abbrev r0_5 : Rect S3200x128 := Rect.unit (s := S3200x128) ![0, 0] S3200x128.size inb_S3200x128_S3200x128_0_0
abbrev r0_6 : Rect S3200x1 := Rect.unit (s := S3200x1) ![0, 0] S3200x1.size inb_S3200x1_S3200x1_0_0

/-! ## What the body leaves in the two output buffers -/

/-- Output window 5's buffer after the body, as a function of the five input blocks: the one store into it, whose
    value is the row-scaled projection `k0_pay3` of the loaded blocks, over the whole buffer. -/
def out0_5 (x0 : Vec F S3200x384 .bf16) (x1 : Vec F S384x128 .bf16) (x2 : Vec F S128 .f32) (x3 : Vec F S1x128 .f32) (x4 : Vec F S1 .f32) : Vec F S3200x128 .f32 :=
  View.canon [⟨r0_5, k0_pay3 (View.ld x0 r0_0) (View.ld x1 r0_1) (View.ld x2 r0_2) (View.ld x3 r0_3) (View.ld x4 r0_4)⟩]

/-- That store's rectangle is the whole buffer, so every index lies in it. -/
theorem cover0_5 (p0 : Vec F S3200x128 .f32) (y : S3200x128.Idx) :
    ∃ pc ∈ ([⟨r0_5, p0⟩] : List (View.Piece (Elt F) S3200x128 .f32)), y ∈ pc.1.set :=
  View.cover_of_tiled [⟨r0_5, p0⟩] S3200x128.size (by rfl) y

/-- Output window 6's buffer after the body: the one store into it, whose value is the per-row weight `k0_pay2` of
    the loaded blocks, over the whole buffer. -/
def out0_6 (x0 : Vec F S3200x384 .bf16) (x1 : Vec F S384x128 .bf16) (x2 : Vec F S128 .f32) (x3 : Vec F S1x128 .f32) (x4 : Vec F S1 .f32) : Vec F S3200x1 .f32 :=
  View.canon [⟨r0_6, k0_pay2 (View.ld x0 r0_0) (View.ld x1 r0_1) (View.ld x2 r0_2) (View.ld x3 r0_3) (View.ld x4 r0_4)⟩]

/-- That store's rectangle is the whole buffer. -/
theorem cover0_6 (p0 : Vec F S3200x1 .f32) (y : S3200x1.Idx) :
    ∃ pc ∈ ([⟨r0_6, p0⟩] : List (View.Piece (Elt F) S3200x1 .f32)), y ∈ pc.1.set :=
  View.cover_of_tiled [⟨r0_6, p0⟩] S3200x1.size (by rfl) y

/-! ## The body's triple -/

set_option maxHeartbeats 4000000 in
/-- The body, called on whole staging buffers — the five inputs' holding `x0 … x4`, the two outputs' holding anything —
    runs to its continuation with the inputs' buffers unchanged and the outputs' at `out0_5` and `out0_6` of the inputs:
    five whole-buffer loads, then for each output a load whose value is dropped and a whole-buffer store. -/
theorem sound_kernel (c : Dev nD) (E : Set ℕ) (i : grid0.Coords) (arg1 : Memref sig .tc .vmem S3200x384 .bf16) (harg1 : arg1.IsWhole) (arg2 : Memref sig .tc .vmem S384x128 .bf16) (harg2 : arg2.IsWhole) (arg3 : Memref sig .tc .vmem S128 .f32) (harg3 : arg3.IsWhole) (arg4 : Memref sig .tc .vmem S1x128 .f32) (harg4 : arg4.IsWhole) (arg5 : Memref sig .tc .vmem S1 .f32) (harg5 : arg5.IsWhole) (arg6 : Memref sig .tc .vmem S3200x128 .f32) (harg6 : arg6.IsWhole) (arg7 : Memref sig .tc .vmem S3200x1 .f32) (harg7 : arg7.IsWhole)
    (x0 : Vec F S3200x384 .bf16) (x1 : Vec F S384x128 .bf16) (x2 : Vec F S128 .f32) (x3 : Vec F S1x128 .f32) (x4 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4) ∗ owns (c : Thread nD τ) arg7 fullShare (out0_6 x0 x1 x2 x3 x4)) -∗ K ⟨⟩))
      ⊢ wp frame (wpE (defs₀ (F := F)) Variants.none c none) E (cc0__kgatt_kernel i arg1 harg1 arg2 harg2 arg3 harg3 arg4 harg4 arg5 harg5 arg6 harg6 arg7 harg7) K := by
  simp only [cc0__kgatt_kernel_eq_skeleton]; unfold cc0__kgatt_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The per-point data of the pipeline -/

/-- On core `c`: the arrays at the region's entry are `V`'s; after the body at point `t` each input buffer holds its
    block and each output buffer `out0_5` / `out0_6` of the five input blocks at `t`; the invariant carried from point to
    point is the untouched scoped rest and generator register; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
    | ⟨6, _⟩ => out0_6 (iblk m c 0 t) (iblk m c 1 t) (iblk m c 2 t) (iblk m c 3 t) (iblk m c 4 t)
  Φ _ := Pipeline.ΦA spec0 c
  q _ := fullShare
  owed _ := 0

/-- The data's arrays are the entry contents (by projection, without evaluating the fold over the host operations). -/
theorem A_eq (c : Dev nD) (w : Fin cfg0.W) : (dats m 0 c).A w = V m c (Pipeline.arrRef spec0 w) := by
  dsimp only [dats]

/-- What the body leaves in each window's buffer at point `t`. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]
theorem after0_6 (c : Dev nD) (t : Fin cfg0.N) : (dats m 0 c).after 6 t = out0_6 (iblk m c 0 t) (iblk m c 1 t) (iblk m c 2 t) (iblk m c 3 t) (iblk m c 4 t) := by dsimp only [dats]

/-- What each input's buffer holds when the body is called at point `t`: the window's block there. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body at a generic point -/

/-- The resources the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and the resources it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 1000000 in
/-- The body at any point: the five input buffers hold their blocks there, so the body's triple applies with those blocks;
    the invariant and the core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's obligation on the body, at every point. -/
theorem body_obligation (c : Dev nD) : BodyObligation (dats (F := F) m 0 c) (defs₀ (F := F)) Variants.none () Set.univ := fun t => by
  rw [bigSep_W0, bigSep_W0]
  exact sound_body m c t

/-! ## The run -/

-- the implicit arguments of the run theorem are found by unifying its conclusion with the statement, which needs plain
-- definitions unfolded inside the type of a metavariable
set_option maxHeartbeats 4000000 in
set_option backward.isDefEq.respectTransparency.types false in
/-- From any initial memory with all semaphores at zero, every weakly fair execution of the entry function on the
    cores terminates without fault, and in every final state each array of the pipeline holds what the per-point data
    compute after the last point and every other unscoped buffer what the five later stretches leave. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4]) (hsub := sfx_sub) (hfresh := sfx_fresh) (hkeep := sfx_keeps)
    (hmain := hmain m Variants.none) (hA := A_eq m) (hΦ := fun _ _ => rfl)

/-- The program runs and its seven argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.GenH

end
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.LibAffine.lean ====
/-
  Rows times weights plus a bias row, over the extended reals, in its two spellings. A row-tiled kernel computes, for a block
  `x` of rows, `matmul (bf16 x) w 0 + broadcast b`: the rounding of the left operand to bf16 is the identity on the extended
  reals, the matrix unit's product into a zero accumulator is the finite sum over the contracted coordinate, and the bias row
  `[1, M]` is repeated down the rows. The host computes `dot_general X W + broadcast (broadcast b)` with `b` of shape `[M]`
  lifted to `[1, M]` and then to `[A, M]`. Entry `(r, j)` of either is `Σ_k X(r,k)·W(k,j) + b(j)`.
-/
import Idealize.ShloMosaic.PureOps.Ideal.Laws
import Idealize.ShloMosaic.Lib.ValueIdx
import Idealize.ShloMosaic.Lib.ValueLayout
import Idealize.ShloMosaic.Lib.Pipeline.Value
import proofs.«177955_j49082886259211_2_alg».proof.Proof.LibPlainDot

namespace Idealize.ShloMosaic.Affine

open Idealize.ShloMosaic.ValueIdx

variable {A K M : Nat}

/-- Rows times weights plus the bias row: entry `(r, j)` is `Σ_k X(r,k)·W(k,j) + b(0,j)`. -/
noncomputable def affine {φw : FTy} (X : FVec Ideal ⟨2, ![A, K]⟩ .f32) (W : FVec Ideal ⟨2, ![K, M]⟩ φw) (b : FVec Ideal ⟨2, ![1, M]⟩ .f32) :
    FVec Ideal ⟨2, ![A, M]⟩ .f32 :=
  fun i => (∑ k : Fin K, X (ix2 ⟨(i 0).val, idx2_lt0 i⟩ k) * W (ix2 k ⟨(i 1).val, idx2_lt1 i⟩))
    + b (ix2 (0 : Fin 1) ⟨(i 1).val, idx2_lt1 i⟩)

theorem affine_ix2 {φw : FTy} (X : FVec Ideal ⟨2, ![A, K]⟩ .f32) (W : FVec Ideal ⟨2, ![K, M]⟩ φw) (b : FVec Ideal ⟨2, ![1, M]⟩ .f32)
    (p : Fin A) (q : Fin M) :
    affine X W b (ix2 p q) = (∑ k : Fin K, X (ix2 p k) * W (ix2 k q)) + b (ix2 (0 : Fin 1) q) := rfl

/-- The kernel body's value at row `p`, column `q` of its block. -/
theorem body_apply {φw : FTy} (prec : Option ContractPrecision) (x0 : FVec Ideal ⟨2, ![A, K]⟩ .f32) (x1 : FVec Ideal ⟨2, ![K, M]⟩ φw)
    (x2 : FVec Ideal ⟨2, ![1, M]⟩ .f32) (ht : FTy.bf16.bits < FTy.f32.bits)
    (hb : (⟨2, ![1, M]⟩ : Shape).Broadcasts ⟨2, ![A, M]⟩) (p : Fin A) (q : Fin M) :
    addf (FloatOps.matmul (DotDims.plain A K M) prec (truncf .bf16 x0 ht) x1 (constant ⟨2, ![A, M]⟩ .f32 0x00000000#32))
        (broadcastTo ⟨2, ![A, M]⟩ x2 hb) (ix2 p q)
      = affine x0 x1 x2 (ix2 p q) := by
  rw [affine_ix2]
  refine (addf_apply _ _ _).trans ?_
  refine congrArg₂ (· + ·) ?_ ?_
  · exact PlainDot.matmul_apply_ix2 prec (truncf .bf16 x0 ht) x1 p q
  · exact broadcastTo_1b_ab_apply x2 hb p q

/-- A bias `[M]` lifted to `[1, M]` and then to `[A, M]`, at `(p, q)`: its entry `q`. -/
theorem bias_rows_apply (b : FVec Ideal ⟨1, ![M]⟩ .f32) (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    broadcastInDim ⟨2, ![A, M]⟩ ![0, 1] h2 (broadcastInDim ⟨2, ![1, M]⟩ ![1] h1 b) (ix2 p q) = b (ix1 q) := by
  have hq := q.isLt
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if M = 1 then 0 else q.val
      split
      · omega
      · rfl
  · match a with
    | ⟨0, _⟩ =>
      show q.val = if M = 1 then 0 else q.val
      split
      · omega
      · rfl

/-- The host's spelling at `(p, q)`. -/
theorem host_apply (prec : Option ContractPrecision) (sched : HostSchedule) (X : FVec Ideal ⟨2, ![A, K]⟩ .f32)
    (W : FVec Ideal ⟨2, ![K, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    addf (FloatOps.dotGeneral (DotDims.plain A K M) prec sched X W)
        (broadcastInDim ⟨2, ![A, M]⟩ ![0, 1] h2 (broadcastInDim ⟨2, ![1, M]⟩ ![1] h1 b)) (ix2 p q)
      = (∑ k : Fin K, X (ix2 p k) * W (ix2 k q)) + b (ix1 q) := by
  refine (addf_apply _ _ _).trans ?_
  refine congrArg₂ (· + ·) ?_ ?_
  · exact PlainDot.dotGeneral_apply_ix2 prec sched X W p q
  · exact bias_rows_apply b h1 h2 p q

/-- The two spellings agree: the kernel's weights are the host's rounded to bf16 (the identity here) and its bias row the
    host's bias recast to `[1, M]`. -/
theorem affine_eq_host (prec : Option ContractPrecision) (sched : HostSchedule) (X : FVec Ideal ⟨2, ![A, K]⟩ .f32)
    (W : FVec Ideal ⟨2, ![K, M]⟩ .f32) (b : FVec Ideal ⟨1, ![M]⟩ .f32) (ht : FTy.bf16.bits < FTy.f32.bits)
    (hc : (⟨1, ![M]⟩ : Shape).ShapeCasts ⟨2, ![1, M]⟩)
    (h1 : (⟨1, ![M]⟩ : Shape).BroadcastsInDim ⟨2, ![1, M]⟩ ![1])
    (h2 : (⟨2, ![1, M]⟩ : Shape).BroadcastsInDim ⟨2, ![A, M]⟩ ![0, 1]) :
    affine X (truncf .bf16 W ht) (shapeCast ⟨2, ![1, M]⟩ b hc)
      = addf (FloatOps.dotGeneral (DotDims.plain A K M) prec sched X W)
          (broadcastInDim ⟨2, ![A, M]⟩ ![0, 1] h2 (broadcastInDim ⟨2, ![1, M]⟩ ![1] h1 b)) := by
  funext i
  obtain ⟨p, q, rfl⟩ : ∃ (p : Fin A) (q : Fin M), i = ix2 p q := ⟨i 0, i 1, eq_ix2 i⟩
  rw [host_apply, affine_ix2, shapeCast_a_1a_apply]
  rfl

end Idealize.ShloMosaic.Affine
-- ==== Proof.LibColumn.lean ====
/-
  A column vector kept as a trailing unit axis (`jnp.sum(…, keepdims=True)`), read at an index given by coordinates:
  a vector `[a]` cast to the column `[a, 1]`, and a column `[a, 1]` broadcast along its unit axis to `[a, b]`. Both read the
  operand at the row coordinate alone.
-/
import Idealize.ShloMosaic.Lib.Pipeline.Value
import Idealize.ShloMosaic.Lib.ValueIdx

namespace Idealize.ShloMosaic.Column

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Column
-- ==== Proof.LibRowColumn.lean ====
/-
  Small layout and reduction readings for a `[a, b]` matrix whose columns are reduced, at indices given by coordinates.
  • A one-row matrix `[1, a]` cast to the column `[a, 1]` reads, at `(i, u)`, the row's entry `i`.
  • A `vector.multi_reduction <maximumf>` / `<add>` of a `[a, b]` matrix over its ROWS (axis 0), at column `c`: the fold of
    `max` from the accumulator, resp. the sum, over `k : Fin a` of the entries `(k, c)`.
  • The host's `stablehlo.reduce` of a `[a, b]` matrix over its COLUMNS (axis 1) with a maximum body, at row `r`: the fold of
    `max` from the initial value over `k : Fin b` of the entries `(r, k)`.
  • The f32 patterns `0xFF800000` and `0x3F800000` denote −∞ and 1; a maximum with −∞ and a quotient by 1 change nothing.
-/
import Idealize.ShloMosaic.PureOps.Ideal.Laws
import Idealize.ShloMosaic.Lib.Pipeline.Value
import Idealize.ShloMosaic.Lib.ValueIdx

namespace Idealize.ShloMosaic.RowColumn

open Idealize.ShloMosaic Idealize.ShloMosaic.ValueIdx

/-- A `[1, a]` array cast to the column `[a, 1]` reads, at `(i, u)`, the one row's entry `i`. -/
theorem shapeCast_1a_a1_apply {α : Type} {a : ℕ} (x : (⟨2, ![1, a]⟩ : Shape).Idx → α)
    (h : (⟨2, ![1, a]⟩ : Shape).ShapeCasts ⟨2, ![a, 1]⟩) (i : Fin a) (u : Fin 1) :
    shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- Column `c` of a `[a, b]` matrix with row `k` put back is `(k, c)`. -/
theorem lift_rows {a b : ℕ} (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- Row `r` of a `[a, b]` matrix with column `k` put back is `(r, k)`. -/
theorem lift_cols {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext d; apply Fin.ext
  fin_cases d <;> rfl

variable {φ : FTy}

/-- The maximum down column `c` of a `[a, b]` matrix, as a kernel's `multi_reduction <maximumf>` over the rows computes it. -/
theorem multiReduction_maximumf_rows {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.maximumf.neutral φ hφ) (c : Fin b) :
    multiReduction .maximumf [0] ⟨1, ![b]⟩ src acc h hφ hacc (ix1 c)
      = (Finset.univ : Finset (Fin a)).fold max (Ideal.ofBits φ acc) (fun k => src (ix2 k c)) := by
  rw [Ideal.multiReduction_maximumf_single]
  exact congrArg (fun f => Finset.fold max (Ideal.ofBits φ acc) f (Finset.univ : Finset (Fin a)))
    (funext fun k => congrArg src (lift_rows h c k))

/-- The sum down column `c` of a `[a, b]` matrix, as a kernel's `multi_reduction <add>` over the rows computes it. -/
theorem multiReduction_add_rows {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (c : Fin b) :
    multiReduction .add [0] ⟨1, ![b]⟩ src acc h hφ hacc (ix1 c) = ∑ k : Fin a, src (ix2 k c) := by
  rw [Ideal.multiReduction_add_single]
  exact Finset.sum_congr rfl fun k _ => congrArg src (lift_rows h c k)

/-- The maximum along row `r` of a `[a, b]` matrix, as the host's `stablehlo.reduce` with a maximum body over the columns
    computes it from the initial value `init`. -/
theorem hostReduce_maximumf_cols {a b : ℕ} {u : Shape} (x : FVec Ideal ⟨2, ![a, b]⟩ φ) (init : FVec Ideal u φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x init h' h hu]
  exact congrArg (fun f => Finset.fold max (init (Shape.Idx.first hu)) f (Finset.univ : Finset (Fin b)))
    (funext fun k => congrArg x (lift_cols h r k))

/-- The f32 pattern `0xFF800000` denotes −∞. -/
theorem ofBits_negInf : Ideal.ofBits .f32 0xFF800000#32 = (⊥ : EReal) := by simp [Ideal.ofBits, Ideal.ieee]

/-- The maximum of −∞ and `y` is `y`. -/
theorem max_negInf (y : EReal) : max (Ideal.ofBits .f32 0xFF800000#32) y = y := by
  rw [ofBits_negInf]; exact max_bot_left y

/-- The f32 pattern `0x3F800000` denotes 1. -/
theorem ofBits_one : Ideal.ofBits .f32 0x3F800000#32 = (1 : EReal) := IdealRules.sign_bit.ideal_onePat .f32

/-- A quotient by 1 is the dividend, at the infinities too. -/
theorem div_one (y : EReal) : Ideal.div y (Ideal.ofBits .f32 0x3F800000#32) = y := by
  rw [ofBits_one, ← EReal.coe_one, Ideal.div_coe (by norm_num : (1 : ℝ) ≠ 0)]
  norm_num

end Idealize.ShloMosaic.RowColumn
-- ==== Proof.LibRowReduce.lean ====
/-
  Readings, at indices given by coordinates, of the operations a row-wise softmax kernel and its host reference meet beyond
  the column reductions of `LibRowColumn`:
  • a `vector.multi_reduction <maximumf>` / `<add>` of a `[a, b]` matrix ALONG its rows (axis 1), at row `r`: the fold of
    `max` from the accumulator, resp. the sum, over `k : Fin b` of the entries `(r, k)`;
  • the host's `stablehlo.reduce` with a maximum body of a `[B, L, N]` array over its last axis, at `(b, r)`: the fold of
    `max` from the initial value over `k : Fin N` of the entries `(b, r, k)`;
  • a `[n, k]` matrix transposed to `[k, n]` reads, at `(d, c)`, the entry `(c, d)`;
  • a `[1, a, b]` block cast to the matrix `[a, b]` reads, at `(r, c)`, the entry `(0, r, c)`, and back.
-/
import proofs.«177955_j49082886259211_2_alg».proof.Proof.LibRowColumn

namespace Idealize.ShloMosaic.RowReduce

open Idealize.ShloMosaic Idealize.ShloMosaic.ValueIdx

variable {φ : FTy}

/-- The maximum along row `r` of a `[a, b]` matrix, as a kernel's `multi_reduction <maximumf>` over the columns computes it. -/
theorem multiReduction_maximumf_cols {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (fun f => Finset.fold max (Ideal.ofBits φ acc) f (Finset.univ : Finset (Fin b)))
    (funext fun k => congrArg src (RowColumn.lift_cols h r k))

/-- The sum along row `r` of a `[a, b]` matrix, as a kernel's `multi_reduction <add>` over the columns computes it. -/
theorem multiReduction_add_cols {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ src acc h hφ hacc (ix1 r) = ∑ k : Fin b, src (ix2 r k) := by
  rw [Ideal.multiReduction_add_single]
  exact Finset.sum_congr rfl fun k _ => congrArg src (RowColumn.lift_cols h r k)

/-- Entry `(b, r)` of the reduced array with the last coordinate `k` put back is `(b, r, k)`. -/
theorem lift_last3 {B L N : ℕ} (h : (⟨3, ![B, L, N]⟩ : Shape).Reduces [2] (⟨2, ![B, L]⟩ : Shape)) (b : Fin B) (r : Fin L)
    (k : Fin ((⟨3, ![B, L, N]⟩ : Shape).size 2)) : h.lift (ix2 b r) k = ix3 b r (⟨k.val, k.isLt⟩ : Fin N) := by
  funext d; apply Fin.ext
  fin_cases d <;> rfl

/-- The maximum over the last axis of a `[B, L, N]` array at `(b, r)`, as the host's `stablehlo.reduce` with a maximum body
    computes it from the initial value `init`. -/
theorem hostReduce_maximumf_last3 {B L N : ℕ} {u : Shape} (x : FVec Ideal ⟨3, ![B, L, N]⟩ φ) (init : FVec Ideal u φ)
    (h' : (⟨3, ![B, L, N]⟩ : Shape).ReducesTo [2] (⟨2, ![B, L]⟩ : Shape))
    (h : (⟨3, ![B, L, N]⟩ : Shape).Reduces [2] (⟨2, ![B, L]⟩ : Shape)) (hu : 0 < u.numel) (b : Fin B) (r : Fin L) :
    Host.reduce FloatOps.maximumf x init h' hu (ix2 b r)
      = (Finset.univ : Finset (Fin N)).fold max (init (Shape.Idx.first hu)) (fun k => x (ix3 b r k)) := by
  rw [Host.reduce_eq_fold_single FloatOps.maximumf x init h' h hu]
  exact congrArg (fun f => Finset.fold max (init (Shape.Idx.first hu)) f (Finset.univ : Finset (Fin N)))
    (funext fun k => congrArg x (lift_last3 h b r k))

/-- A `[n, k]` matrix transposed to `[k, n]` reads, at `(d, c)`, the entry `(c, d)`. -/
theorem transpose_10_apply {α : Type} {n k : ℕ} (x : (⟨2, ![n, k]⟩ : Shape).Idx → α)
    (h : (⟨2, ![n, k]⟩ : Shape).Transposes [1, 0] ⟨2, ![k, n]⟩) (d : Fin k) (c : Fin n) :
    transpose ⟨2, ![k, n]⟩ [1, 0] x h (ix2 d c) = x (ix2 c d) :=
  transpose_apply [1, 0] x h (ix2 d c) (ix2 c d) (fun b => by
    match b with
    | ⟨0, _⟩ => rfl
    | ⟨1, _⟩ => rfl)

/-- A `[1, a, b]` block cast to the matrix `[a, b]` reads, at `(r, c)`, the block's entry `(0, r, c)`. -/
theorem shapeCast_1ab_ab_apply {α : Type} {a b : ℕ} (x : (⟨3, ![1, a, b]⟩ : Shape).Idx → α)
    (h : (⟨3, ![1, a, b]⟩ : Shape).ShapeCasts ⟨2, ![a, b]⟩) (r : Fin a) (c : Fin b) :
    shapeCast ⟨2, ![a, b]⟩ x h (ix2 r c) = x (ix3 (0 : Fin 1) r c) :=
  shapeCast_apply x h _ _ (by
    rw [Shape.rowMajor_val_three, Shape.rowMajor_val_two]
    show (0 * a + r.val) * b + c.val = r.val * b + c.val
    rw [Nat.zero_mul, Nat.zero_add])

end Idealize.ShloMosaic.RowReduce
-- ==== Proof.LibGatedRows.lean ====
/-
  A gated row transform over the extended reals, entry by entry, for any extents. For a matrix `X` of `A` rows of length `K`,
  weights `W` (`K × M`), a bias `b` (`M`), a weight row `w` (`1 × M`) and a bias `β` (one entry):
    • the projected rows    `c(p, q) = Σ_k X(p,k)·W(k,q) + b(q)`;
    • the row's gate        `g(p) = exp (ℓ (Σ_j c(p,j)·w(0,j) + β(0)))`, where `ℓ x` is `x` when `0 ≤ x` and the f32 word of
      0.01 times `x` otherwise, written with the comparison and selection the operations themselves use;
    • the gated rows        `g(p)·c(p, q)`.
  Every entry of row `p` reads row `p` of `X` only. Below, a kernel body's spelling of the three on a block of rows
  (matrix-unit product into a zero accumulator, a bias vector recast to a row and repeated down the rows, a lane sum kept as a
  column, scalar constants splat) and the host's spelling on the whole matrix (two `dot_general`s, the second by the transposed
  weight row, biases lifted twice, constants broadcast from rank 0) are each read at an entry as these functions.
-/
import Idealize.ShloMosaic.PureOps.Ideal.Laws
import Idealize.ShloMosaic.Lib.ValueIdx
import Idealize.ShloMosaic.Lib.ValueLayout
import Idealize.ShloMosaic.Lib.Pipeline.Value
import proofs.«177955_j49082886259211_2_alg».proof.Proof.LibPlainDot
import proofs.«177955_j49082886259211_2_alg».proof.Proof.LibAffine
import proofs.«177955_j49082886259211_2_alg».proof.Proof.LibColumn
import proofs.«177955_j49082886259211_2_alg».proof.Proof.LibRowReduce

namespace Idealize.ShloMosaic.GatedRows

open Idealize.ShloMosaic Idealize.ShloMosaic.ValueIdx

variable {A K M : ℕ}

/-- Entry `(p, q)` of the projected rows. -/
noncomputable def proj {φx φw : FTy} (X : FVec Ideal ⟨2, ![A, K]⟩ φx) (W : FVec Ideal ⟨2, ![K, M]⟩ φw) (b : FVec Ideal ⟨1, ![M]⟩ .f32)
    (p : Fin A) (q : Fin M) : EReal :=
  (∑ k : Fin K, X (ix2 p k) * W (ix2 k q)) + b (ix1 q)

/-- The leaky rectifier with the f32 word of 0.01, in the operations' own spelling. -/
noncomputable def leak (x : EReal) : EReal :=
  Scalar.select (Ideal.cmp .oge x (Ideal.ofBits .f32 0x00000000#32)) x (Ideal.ofBits .f32 0x3C23D70A#32 * x)

/-- The gate of row `p`. -/
noncomputable def gate {φx φw : FTy} (X : FVec Ideal ⟨2, ![A, K]⟩ φx) (W : FVec Ideal ⟨2, ![K, M]⟩ φw) (b : FVec Ideal ⟨1, ![M]⟩ .f32)
    (w : FVec Ideal ⟨2, ![1, M]⟩ .f32) (β : FVec Ideal ⟨1, ![1]⟩ .f32) (p : Fin A) : EReal :=
  Ideal.exp (leak ((∑ j : Fin M, proj X W b p j * w (ix2 (0 : Fin 1) j)) + β (ix1 (0 : Fin 1))))

/-- Entry `(p, q)` of the gated rows. -/
noncomputable def gated {φx φw : FTy} (X : FVec Ideal ⟨2, ![A, K]⟩ φx) (W : FVec Ideal ⟨2, ![K, M]⟩ φw) (b : FVec Ideal ⟨1, ![M]⟩ .f32)
    (w : FVec Ideal ⟨2, ![1, M]⟩ .f32) (β : FVec Ideal ⟨1, ![1]⟩ .f32) (p : Fin A) (q : Fin M) : EReal :=
  gate X W b w β p * proj X W b p q

/-- The projection of row `p` depends on row `p` of the left operand only. -/
theorem proj_congr {A' : ℕ} {φx φx' φw : FTy} (X : FVec Ideal ⟨2, ![A, K]⟩ φx) (X' : FVec Ideal ⟨2, ![A', K]⟩ φx')
    (W : FVec Ideal ⟨2, ![K, M]⟩ φw) (b : FVec Ideal ⟨1, ![M]⟩ .f32) (p : Fin A) (p' : Fin A')
    (h : ∀ k : Fin K, X (ix2 p k) = X' (ix2 p' k)) (q : Fin M) : proj X W b p q = proj X' W b p' q := by
  unfold proj
  exact congrArg (· + b (ix1 q)) (Finset.sum_congr rfl fun k _ => congrArg (· * W (ix2 k q)) (h k))

theorem gate_congr {A' : ℕ} {φx φx' φw : FTy} (X : FVec Ideal ⟨2, ![A, K]⟩ φx) (X' : FVec Ideal ⟨2, ![A', K]⟩ φx')
    (W : FVec Ideal ⟨2, ![K, M]⟩ φw) (b : FVec Ideal ⟨1, ![M]⟩ .f32) (w : FVec Ideal ⟨2, ![1, M]⟩ .f32) (β : FVec Ideal ⟨1, ![1]⟩ .f32)
    (p : Fin A) (p' : Fin A') (h : ∀ k : Fin K, X (ix2 p k) = X' (ix2 p' k)) : gate X W b w β p = gate X' W b w β p' := by
  unfold gate
  exact congrArg (fun s => Ideal.exp (leak (s + β (ix1 (0 : Fin 1)))))
    (Finset.sum_congr rfl fun j _ => congrArg (· * w (ix2 (0 : Fin 1) j)) (proj_congr X X' W b p p' h j))

theorem gated_congr {A' : ℕ} {φx φx' φw : FTy} (X : FVec Ideal ⟨2, ![A, K]⟩ φx) (X' : FVec Ideal ⟨2, ![A', K]⟩ φx')
    (W : FVec Ideal ⟨2, ![K, M]⟩ φw) (b : FVec Ideal ⟨1, ![M]⟩ .f32) (w : FVec Ideal ⟨2, ![1, M]⟩ .f32) (β : FVec Ideal ⟨1, ![1]⟩ .f32)
    (p : Fin A) (p' : Fin A') (h : ∀ k : Fin K, X (ix2 p k) = X' (ix2 p' k)) (q : Fin M) :
    gated X W b w β p q = gated X' W b w β p' q := by
  unfold gated
  rw [gate_congr X X' W b w β p p' h, proj_congr X X' W b p p' h q]

/-! ## A kernel body's spelling, on a block of rows -/

/-- The body's projection: the matrix unit's product into a zero accumulator plus the bias vector recast to a row and repeated
    down the rows. -/
theorem body_proj_apply {φx φw : FTy} (prec : Option ContractPrecision) (x0 : FVec Ideal ⟨2, ![A, K]⟩ φx) (x1 : FVec Ideal ⟨2, ![K, M]⟩ φw)
    (x2 : FVec Ideal ⟨1, ![M]⟩ .f32) (h0 : (⟨2, ![A, K]⟩ : Shape).ShapeCasts ⟨2, ![A, K]⟩) (h1 : (⟨2, ![K, M]⟩ : Shape).ShapeCasts ⟨2, ![K, M]⟩)
    (hc : (⟨1, ![M]⟩ : Shape).ShapeCasts ⟨2, ![1, M]⟩) (hb : (⟨2, ![1, M]⟩ : Shape).Broadcasts ⟨2, ![A, M]⟩) (p : Fin A) (q : Fin M) :
    addf (FloatOps.matmul (DotDims.plain A K M) prec (shapeCast ⟨2, ![A, K]⟩ x0 h0) (shapeCast ⟨2, ![K, M]⟩ x1 h1)
          (constant ⟨2, ![A, M]⟩ .f32 0x00000000#32))
        (broadcastTo ⟨2, ![A, M]⟩ (shapeCast ⟨2, ![1, M]⟩ x2 hc) hb) (ix2 p q)
      = proj x0 x1 x2 p q := by
  rw [shapeCast_self, shapeCast_self]
  refine (addf_apply _ _ _).trans ?_
  refine congrArg₂ (· + ·) ?_ ?_
  · exact PlainDot.matmul_apply_ix2 prec x0 x1 p q
  · exact (broadcastTo_1b_ab_apply _ hb p q).trans (shapeCast_a_1a_apply x2 hc (0 : Fin 1) q)

/-- The body's gate from its projection `C`: the lane sum of `C` times the weight row repeated down the rows, kept as a column,
    plus the one-entry bias recast and repeated, through the leaky rectifier (scalar constants splat) and the exponential. -/
theorem body_gate_apply (C : FVec Ideal ⟨2, ![A, M]⟩ .f32) (x3 : FVec Ideal ⟨2, ![1, M]⟩ .f32) (x4 : FVec Ideal ⟨1, ![1]⟩ .f32)
    (hb3 : (⟨2, ![1, M]⟩ : Shape).Broadcasts ⟨2, ![A, M]⟩)
    (hred : (⟨2, ![A, M]⟩ : Shape).Reduces [1] (⟨1, ![A]⟩ : Shape)) (hφ : FKind.Formats FTy.f32)
    (hacc : (0x00000000#32 : BitVec FTy.f32.bits) = FKind.add.neutral .f32 hφ)
    (hc13 : (⟨1, ![A]⟩ : Shape).ShapeCasts ⟨2, ![A, 1]⟩) (hc15 : (⟨1, ![1]⟩ : Shape).ShapeCasts ⟨2, ![1, 1]⟩)
    (hb16 : (⟨2, ![1, 1]⟩ : Shape).Broadcasts ⟨2, ![A, 1]⟩) (p : Fin A) (u : Fin 1) :
    exp (select
          (cmpf .oge
            (addf (shapeCast ⟨2, ![A, 1]⟩ (multiReduction .add [1] ⟨1, ![A]⟩ (mulf C (broadcastTo ⟨2, ![A, M]⟩ x3 hb3)) 0x00000000#32 hred hφ hacc) hc13)
              (broadcastTo ⟨2, ![A, 1]⟩ (shapeCast ⟨2, ![1, 1]⟩ x4 hc15) hb16))
            (broadcast ⟨2, ![A, 1]⟩ (Scalar.ofBits (F := Ideal) .f32 0x00000000#32)))
          (addf (shapeCast ⟨2, ![A, 1]⟩ (multiReduction .add [1] ⟨1, ![A]⟩ (mulf C (broadcastTo ⟨2, ![A, M]⟩ x3 hb3)) 0x00000000#32 hred hφ hacc) hc13)
              (broadcastTo ⟨2, ![A, 1]⟩ (shapeCast ⟨2, ![1, 1]⟩ x4 hc15) hb16))
          (mulf (broadcast ⟨2, ![A, 1]⟩ (Scalar.ofBits (F := Ideal) .f32 0x3C23D70A#32))
            (addf (shapeCast ⟨2, ![A, 1]⟩ (multiReduction .add [1] ⟨1, ![A]⟩ (mulf C (broadcastTo ⟨2, ![A, M]⟩ x3 hb3)) 0x00000000#32 hred hφ hacc) hc13)
              (broadcastTo ⟨2, ![A, 1]⟩ (shapeCast ⟨2, ![1, 1]⟩ x4 hc15) hb16)))) (ix2 p u)
      = Ideal.exp (leak ((∑ j : Fin M, C (ix2 p j) * x3 (ix2 (0 : Fin 1) j)) + x4 (ix1 (0 : Fin 1)))) := by
  have hu : u = 0 := Subsingleton.elim _ _
  subst hu
  have hs : addf (shapeCast ⟨2, ![A, 1]⟩ (multiReduction .add [1] ⟨1, ![A]⟩ (mulf C (broadcastTo ⟨2, ![A, M]⟩ x3 hb3)) 0x00000000#32 hred hφ hacc) hc13)
              (broadcastTo ⟨2, ![A, 1]⟩ (shapeCast ⟨2, ![1, 1]⟩ x4 hc15) hb16) (ix2 p (0 : Fin 1))
      = (∑ j : Fin M, C (ix2 p j) * x3 (ix2 (0 : Fin 1) j)) + x4 (ix1 (0 : Fin 1)) := by
    refine (addf_apply _ _ _).trans ?_
    refine congrArg₂ (· + ·) ?_ ?_
    · refine (Column.shapeCast_a_a1_apply _ hc13 p (0 : Fin 1)).trans ?_
      refine (RowReduce.multiReduction_add_cols _ 0x00000000#32 hred hφ hacc p).trans ?_
      refine Finset.sum_congr rfl fun j _ => ?_
      refine (mulf_apply _ _ _).trans ?_
      exact congrArg (C (ix2 p j) * ·) (broadcastTo_1b_ab_apply x3 hb3 p j)
    · exact (broadcastTo_1b_ab_apply _ hb16 p (0 : Fin 1)).trans (shapeCast_a_1a_apply x4 hc15 (0 : Fin 1) (0 : Fin 1))
  show Ideal.exp (Scalar.select (Ideal.cmp .oge _ (Ideal.ofBits .f32 0x00000000#32)) _ (Ideal.ofBits .f32 0x3C23D70A#32 * _)) = _
  rw [hs]
  rfl

/-- The body's gated rows: the gate column repeated along the rows times the projection. -/
theorem body_gated_apply (G : FVec Ideal ⟨2, ![A, 1]⟩ .f32) (C : FVec Ideal ⟨2, ![A, M]⟩ .f32)
    (hb : (⟨2, ![A, 1]⟩ : Shape).Broadcasts ⟨2, ![A, M]⟩) (p : Fin A) (q : Fin M) :
    mulf (broadcastTo ⟨2, ![A, M]⟩ G hb) C (ix2 p q) = G (ix2 p (0 : Fin 1)) * C (ix2 p q) :=
  (mulf_apply _ _ _).trans (congrArg (· * C (ix2 p q)) (Column.broadcastTo_a1_ab_apply G hb p q))

/-! ## The host's spelling, on the whole matrix -/

/-- A rank-0 value broadcast to any shape reads its one entry everywhere. -/
theorem bcast0_apply {α : Type} {t : Shape} (h : (⟨0, ![]⟩ : Shape).BroadcastsInDim t ![]) (x : (⟨0, ![]⟩ : Shape).Idx → α) (j : t.Idx) :
    broadcastInDim t ![] h x j = x ix0 :=
  broadcastInDim_apply _ h x j ix0 fun a => a.elim0

/-- A column `[a, 1]` lifted by `broadcast_in_dim` along the rows reads, at `(p, q)`, the column's entry `p`. -/
theorem bcastCol_apply {α : Type} {a b : ℕ} (h : (⟨2, ![a, 1]⟩ : Shape).BroadcastsInDim ⟨2, ![a, b]⟩ ![0, 1])
    (x : (⟨2, ![a, 1]⟩ : Shape).Idx → α) (p : Fin a) (q : Fin b) :
    broadcastInDim ⟨2, ![a, b]⟩ ![0, 1] h x (ix2 p q) = x (ix2 p (0 : Fin 1)) := by
  refine broadcastInDim_apply _ h x (ix2 p q) (ix2 p (0 : Fin 1)) fun ax => ?_
  match ax with
  | ⟨0, _⟩ =>
    show p.val = if a = 1 then 0 else p.val
    split
    · have := p.isLt; omega
    · rfl
  | ⟨1, _⟩ => rfl

/-- The host's projection. -/
theorem host_proj_apply (prec : Option ContractPrecision) (sched : HostSchedule) (X : FVec Ideal ⟨2, ![A, K]⟩ .f32)
    (W : FVec Ideal ⟨2, ![K, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    addf (FloatOps.dotGeneral (DotDims.plain A K M) prec sched X W)
        (broadcastInDim ⟨2, ![A, M]⟩ ![0, 1] h2 (broadcastInDim ⟨2, ![1, M]⟩ ![1] h1 b)) (ix2 p q)
      = proj X W b p q :=
  Affine.host_apply prec sched X W b h1 h2 p q

/-- The host's gate from its projection `C`: the product with the transposed weight row, the bias lifted twice, the leaky
    rectifier with its constants broadcast from rank 0, the exponential. -/
theorem host_gate_apply (prec : Option ContractPrecision) (sched : HostSchedule) (C : FVec Ideal ⟨2, ![A, M]⟩ .f32)
    (w : FVec Ideal ⟨2, ![1, M]⟩ .f32) (β : FVec Ideal ⟨1, ![1]⟩ .f32)
    (ht : (⟨2, ![1, M]⟩ : Shape).Transposes [1, 0] ⟨2, ![M, 1]⟩)
    (h1 : (⟨1, ![1]⟩ : Shape).BroadcastsInDim ⟨2, ![1, 1]⟩ ![1])
    (h2 : (⟨2, ![1, 1]⟩ : Shape).BroadcastsInDim ⟨2, ![A, 1]⟩ ![0, 1])
    (h0 : (⟨0, ![]⟩ : Shape).BroadcastsInDim ⟨2, ![A, 1]⟩ ![]) (p : Fin A) (u : Fin 1) :
    Host.exp (select
        (cmpf .oge
          (addf (FloatOps.dotGeneral (DotDims.plain A M 1) prec sched C (transpose ⟨2, ![M, 1]⟩ [1, 0] w ht))
            (broadcastInDim ⟨2, ![A, 1]⟩ ![0, 1] h2 (broadcastInDim ⟨2, ![1, 1]⟩ ![1] h1 β)))
          (broadcastInDim ⟨2, ![A, 1]⟩ ![] h0 (constant (F := Ideal) ⟨0, ![]⟩ .f32 0x00000000#32)))
        (addf (FloatOps.dotGeneral (DotDims.plain A M 1) prec sched C (transpose ⟨2, ![M, 1]⟩ [1, 0] w ht))
            (broadcastInDim ⟨2, ![A, 1]⟩ ![0, 1] h2 (broadcastInDim ⟨2, ![1, 1]⟩ ![1] h1 β)))
        (mulf (broadcastInDim ⟨2, ![A, 1]⟩ ![] h0 (constant (F := Ideal) ⟨0, ![]⟩ .f32 0x3C23D70A#32))
          (addf (FloatOps.dotGeneral (DotDims.plain A M 1) prec sched C (transpose ⟨2, ![M, 1]⟩ [1, 0] w ht))
            (broadcastInDim ⟨2, ![A, 1]⟩ ![0, 1] h2 (broadcastInDim ⟨2, ![1, 1]⟩ ![1] h1 β))))) (ix2 p u)
      = Ideal.exp (leak ((∑ j : Fin M, C (ix2 p j) * w (ix2 (0 : Fin 1) j)) + β (ix1 (0 : Fin 1)))) := by
  have hu : u = 0 := Subsingleton.elim _ _
  subst hu
  have hs : addf (FloatOps.dotGeneral (DotDims.plain A M 1) prec sched C (transpose ⟨2, ![M, 1]⟩ [1, 0] w ht))
            (broadcastInDim ⟨2, ![A, 1]⟩ ![0, 1] h2 (broadcastInDim ⟨2, ![1, 1]⟩ ![1] h1 β)) (ix2 p (0 : Fin 1))
      = (∑ j : Fin M, C (ix2 p j) * w (ix2 (0 : Fin 1) j)) + β (ix1 (0 : Fin 1)) := by
    refine (Affine.host_apply prec sched C _ β h1 h2 p (0 : Fin 1)).trans ?_
    refine congrArg (· + β (ix1 (0 : Fin 1))) (Finset.sum_congr rfl fun j _ => ?_)
    exact congrArg (C (ix2 p j) * ·) (RowReduce.transpose_10_apply w ht j (0 : Fin 1))
  show Ideal.exp (Scalar.select (Ideal.cmp .oge _ (broadcastInDim ⟨2, ![A, 1]⟩ ![] h0 (constant (F := Ideal) ⟨0, ![]⟩ .f32 0x00000000#32) (ix2 p (0 : Fin 1)))) _
      (broadcastInDim ⟨2, ![A, 1]⟩ ![] h0 (constant (F := Ideal) ⟨0, ![]⟩ .f32 0x3C23D70A#32) (ix2 p (0 : Fin 1)) * _)) = _
  rw [hs, bcast0_apply, bcast0_apply]
  rfl

/-- The host's gated rows. -/
theorem host_gated_apply (G : FVec Ideal ⟨2, ![A, 1]⟩ .f32) (C : FVec Ideal ⟨2, ![A, M]⟩ .f32)
    (h : (⟨2, ![A, 1]⟩ : Shape).BroadcastsInDim ⟨2, ![A, M]⟩ ![0, 1]) (p : Fin A) (q : Fin M) :
    mulf (broadcastInDim ⟨2, ![A, M]⟩ ![0, 1] h G) C (ix2 p q) = G (ix2 p (0 : Fin 1)) * C (ix2 p q) :=
  (mulf_apply _ _ _).trans (congrArg (· * C (ix2 p q)) (bcastCol_apply h G p q))

/-! ## The three as whole arrays -/

/-- The projected rows as an array. -/
noncomputable def projArr {φx φw : FTy} (X : FVec Ideal ⟨2, ![A, K]⟩ φx) (W : FVec Ideal ⟨2, ![K, M]⟩ φw) (b : FVec Ideal ⟨1, ![M]⟩ .f32) :
    FVec Ideal ⟨2, ![A, M]⟩ .f32 :=
  fun i => proj X W b ⟨(i 0).val, idx2_lt0 i⟩ ⟨(i 1).val, idx2_lt1 i⟩

/-- The gates as a column. -/
noncomputable def gateArr {φx φw : FTy} (X : FVec Ideal ⟨2, ![A, K]⟩ φx) (W : FVec Ideal ⟨2, ![K, M]⟩ φw) (b : FVec Ideal ⟨1, ![M]⟩ .f32)
    (w : FVec Ideal ⟨2, ![1, M]⟩ .f32) (β : FVec Ideal ⟨1, ![1]⟩ .f32) : FVec Ideal ⟨2, ![A, 1]⟩ .f32 :=
  fun i => gate X W b w β ⟨(i 0).val, idx2_lt0 i⟩

/-- The gated rows as an array. -/
noncomputable def gatedArr {φx φw : FTy} (X : FVec Ideal ⟨2, ![A, K]⟩ φx) (W : FVec Ideal ⟨2, ![K, M]⟩ φw) (b : FVec Ideal ⟨1, ![M]⟩ .f32)
    (w : FVec Ideal ⟨2, ![1, M]⟩ .f32) (β : FVec Ideal ⟨1, ![1]⟩ .f32) : FVec Ideal ⟨2, ![A, M]⟩ .f32 :=
  fun i => gated X W b w β ⟨(i 0).val, idx2_lt0 i⟩ ⟨(i 1).val, idx2_lt1 i⟩

theorem projArr_ix2 {φx φw : FTy} (X : FVec Ideal ⟨2, ![A, K]⟩ φx) (W : FVec Ideal ⟨2, ![K, M]⟩ φw) (b : FVec Ideal ⟨1, ![M]⟩ .f32)
    (p : Fin A) (q : Fin M) : projArr X W b (ix2 p q) = proj X W b p q := rfl

theorem gateArr_ix2 {φx φw : FTy} (X : FVec Ideal ⟨2, ![A, K]⟩ φx) (W : FVec Ideal ⟨2, ![K, M]⟩ φw) (b : FVec Ideal ⟨1, ![M]⟩ .f32)
    (w : FVec Ideal ⟨2, ![1, M]⟩ .f32) (β : FVec Ideal ⟨1, ![1]⟩ .f32) (p : Fin A) (u : Fin 1) :
    gateArr X W b w β (ix2 p u) = gate X W b w β p := rfl

theorem gatedArr_ix2 {φx φw : FTy} (X : FVec Ideal ⟨2, ![A, K]⟩ φx) (W : FVec Ideal ⟨2, ![K, M]⟩ φw) (b : FVec Ideal ⟨1, ![M]⟩ .f32)
    (w : FVec Ideal ⟨2, ![1, M]⟩ .f32) (β : FVec Ideal ⟨1, ![1]⟩ .f32) (p : Fin A) (q : Fin M) :
    gatedArr X W b w β (ix2 p q) = gated X W b w β p q := rfl

/-- The arrays depend on the two matrices through their entries only, whatever formats they are kept in. -/
theorem proj_congr2 {φx φx' φw φw' : FTy} (X : FVec Ideal ⟨2, ![A, K]⟩ φx) (X' : FVec Ideal ⟨2, ![A, K]⟩ φx')
    (W : FVec Ideal ⟨2, ![K, M]⟩ φw) (W' : FVec Ideal ⟨2, ![K, M]⟩ φw') (b : FVec Ideal ⟨1, ![M]⟩ .f32)
    (hX : ∀ i, X i = X' i) (hW : ∀ i, W i = W' i) (p : Fin A) (q : Fin M) : proj X W b p q = proj X' W' b p q := by
  unfold proj
  exact congrArg (· + b (ix1 q)) (Finset.sum_congr rfl fun k _ => by rw [hX, hW])

theorem gateArr_congr {φx φx' φw φw' : FTy} (X : FVec Ideal ⟨2, ![A, K]⟩ φx) (X' : FVec Ideal ⟨2, ![A, K]⟩ φx')
    (W : FVec Ideal ⟨2, ![K, M]⟩ φw) (W' : FVec Ideal ⟨2, ![K, M]⟩ φw') (b : FVec Ideal ⟨1, ![M]⟩ .f32)
    (w : FVec Ideal ⟨2, ![1, M]⟩ .f32) (β : FVec Ideal ⟨1, ![1]⟩ .f32)
    (hX : ∀ i, X i = X' i) (hW : ∀ i, W i = W' i) : gateArr X W b w β = gateArr X' W' b w β := by
  funext i
  unfold gateArr gate
  exact congrArg (fun s => Ideal.exp (leak (s + β (ix1 (0 : Fin 1)))))
    (Finset.sum_congr rfl fun j _ => congrArg (· * w (ix2 (0 : Fin 1) j)) (proj_congr2 X X' W W' b hX hW _ j))

theorem gatedArr_congr {φx φx' φw φw' : FTy} (X : FVec Ideal ⟨2, ![A, K]⟩ φx) (X' : FVec Ideal ⟨2, ![A, K]⟩ φx')
    (W : FVec Ideal ⟨2, ![K, M]⟩ φw) (W' : FVec Ideal ⟨2, ![K, M]⟩ φw') (b : FVec Ideal ⟨1, ![M]⟩ .f32)
    (w : FVec Ideal ⟨2, ![1, M]⟩ .f32) (β : FVec Ideal ⟨1, ![1]⟩ .f32)
    (hX : ∀ i, X i = X' i) (hW : ∀ i, W i = W' i) : gatedArr X W b w β = gatedArr X' W' b w β := by
  funext i
  unfold gatedArr gated
  rw [show gate X W b w β ⟨(i 0).val, idx2_lt0 i⟩ = gate X' W' b w β ⟨(i 0).val, idx2_lt0 i⟩ from
      congrFun (gateArr_congr X X' W W' b w β hX hW) (ix2 ⟨(i 0).val, idx2_lt0 i⟩ (0 : Fin 1)),
    proj_congr2 X X' W W' b hX hW]

/-- The host's projection is the projected rows. -/
theorem host_proj_eq (prec : Option ContractPrecision) (sched : HostSchedule) (X : FVec Ideal ⟨2, ![A, K]⟩ .f32)
    (W : FVec Ideal ⟨2, ![K, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![A, M]⟩ ![0, 1]) :
    addf (FloatOps.dotGeneral (DotDims.plain A K M) prec sched X W)
        (broadcastInDim ⟨2, ![A, M]⟩ ![0, 1] h2 (broadcastInDim ⟨2, ![1, M]⟩ ![1] h1 b)) = projArr X W b := by
  funext i
  obtain ⟨p, q, rfl⟩ : ∃ (p : Fin A) (q : Fin M), i = ix2 p q := ⟨i 0, i 1, eq_ix2 i⟩
  exact host_proj_apply prec sched X W b h1 h2 p q

/-- The host's gate column computed from the projected rows is the gates. -/
theorem host_gate_eq {φx φw : FTy} (prec : Option ContractPrecision) (sched : HostSchedule)
    (X : FVec Ideal ⟨2, ![A, K]⟩ φx) (W : FVec Ideal ⟨2, ![K, M]⟩ φw) (b : FVec Ideal ⟨1, ![M]⟩ .f32)
    (w : FVec Ideal ⟨2, ![1, M]⟩ .f32) (β : FVec Ideal ⟨1, ![1]⟩ .f32)
    (ht : (⟨2, ![1, M]⟩ : Shape).Transposes [1, 0] ⟨2, ![M, 1]⟩)
    (h1 : (⟨1, ![1]⟩ : Shape).BroadcastsInDim ⟨2, ![1, 1]⟩ ![1])
    (h2 : (⟨2, ![1, 1]⟩ : Shape).BroadcastsInDim ⟨2, ![A, 1]⟩ ![0, 1])
    (h0 : (⟨0, ![]⟩ : Shape).BroadcastsInDim ⟨2, ![A, 1]⟩ ![]) :
    Host.exp (select
        (cmpf .oge
          (addf (FloatOps.dotGeneral (DotDims.plain A M 1) prec sched (projArr X W b) (transpose ⟨2, ![M, 1]⟩ [1, 0] w ht))
            (broadcastInDim ⟨2, ![A, 1]⟩ ![0, 1] h2 (broadcastInDim ⟨2, ![1, 1]⟩ ![1] h1 β)))
          (broadcastInDim ⟨2, ![A, 1]⟩ ![] h0 (constant (F := Ideal) ⟨0, ![]⟩ .f32 0x00000000#32)))
        (addf (FloatOps.dotGeneral (DotDims.plain A M 1) prec sched (projArr X W b) (transpose ⟨2, ![M, 1]⟩ [1, 0] w ht))
            (broadcastInDim ⟨2, ![A, 1]⟩ ![0, 1] h2 (broadcastInDim ⟨2, ![1, 1]⟩ ![1] h1 β)))
        (mulf (broadcastInDim ⟨2, ![A, 1]⟩ ![] h0 (constant (F := Ideal) ⟨0, ![]⟩ .f32 0x3C23D70A#32))
          (addf (FloatOps.dotGeneral (DotDims.plain A M 1) prec sched (projArr X W b) (transpose ⟨2, ![M, 1]⟩ [1, 0] w ht))
            (broadcastInDim ⟨2, ![A, 1]⟩ ![0, 1] h2 (broadcastInDim ⟨2, ![1, 1]⟩ ![1] h1 β)))))
      = gateArr X W b w β := by
  funext i
  obtain ⟨p, u, rfl⟩ : ∃ (p : Fin A) (u : Fin 1), i = ix2 p u := ⟨i 0, i 1, eq_ix2 i⟩
  exact host_gate_apply prec sched (projArr X W b) w β ht h1 h2 h0 p u

/-- The host's gated rows from the gate column and the projected rows. -/
theorem host_gated_eq {φx φw : FTy} (X : FVec Ideal ⟨2, ![A, K]⟩ φx) (W : FVec Ideal ⟨2, ![K, M]⟩ φw) (b : FVec Ideal ⟨1, ![M]⟩ .f32)
    (w : FVec Ideal ⟨2, ![1, M]⟩ .f32) (β : FVec Ideal ⟨1, ![1]⟩ .f32)
    (h : (⟨2, ![A, 1]⟩ : Shape).BroadcastsInDim ⟨2, ![A, M]⟩ ![0, 1]) :
    mulf (broadcastInDim ⟨2, ![A, M]⟩ ![0, 1] h (gateArr X W b w β)) (projArr X W b) = gatedArr X W b w β := by
  funext i
  obtain ⟨p, q, rfl⟩ : ∃ (p : Fin A) (q : Fin M), i = ix2 p q := ⟨i 0, i 1, eq_ix2 i⟩
  exact host_gated_apply (gateArr X W b w β) (projArr X W b) h p q

end Idealize.ShloMosaic.GatedRows
-- ==== Proof.BlockPayload.lean ====
/-
  One grid point of the edge kernel, read entry by entry over the extended reals. From a block `x0` of 3200 concatenated edge
  feature rows, the weights `x1` (384 × 128), the bias `x2`, the scoring row `x3` and its bias `x4`, the body forms the projected
  rows `c = x0·x1 + x2`, each row's attention weight `g = exp (leaky (c·x3ᵀ + x4))` and the weighted rows `g·c`; the first is an
  intermediate, the second and third are what the body stores. Each is the corresponding function of `GatedRows`.
-/
import proofs.«177955_j49082886259211_2_alg».proof.Proof.Gen.KernelIdeal.Skeleton
import proofs.«177955_j49082886259211_2_alg».proof.Proof.LibGatedRows

noncomputable section

namespace Cert.KernelIdeal.BlockPayload

open Idealize.ShloMosaic Idealize.ShloMosaic.ValueIdx Cert.KernelIdeal Cert.KernelIdeal.Gen

variable [Cert.KernelIdeal.Facts]

/-- The projected rows of the block. -/
theorem proj_apply (x0 : FVec Ideal S3200x384 .bf16) (x1 : FVec Ideal S384x128 .bf16) (x2 : FVec Ideal S128 .f32)
    (p : Fin 3200) (q : Fin 128) :
    k0_pay1 (F := Ideal) x0 x1 x2 (ix2 p q) = GatedRows.proj x0 x1 x2 p q :=
  GatedRows.body_proj_apply (A := 3200) (K := 384) (M := 128) none x0 x1 x2 _ _ _ _ p q

/-- The attention weight of row `p` of the block (a column: one entry per row). -/
theorem gate_apply (x0 : FVec Ideal S3200x384 .bf16) (x1 : FVec Ideal S384x128 .bf16) (x2 : FVec Ideal S128 .f32)
    (x3 : FVec Ideal S1x128 .f32) (x4 : FVec Ideal S1 .f32) (p : Fin 3200) (u : Fin 1) :
    k0_pay2 (F := Ideal) x0 x1 x2 x3 x4 (ix2 p u) = GatedRows.gate x0 x1 x2 x3 x4 p := by
  refine (GatedRows.body_gate_apply (A := 3200) (M := 128) (k0_pay1 (F := Ideal) x0 x1 x2) x3 x4 _ _ _ _ _ _ _ p u).trans ?_
  unfold GatedRows.gate
  exact congrArg (fun s => Ideal.exp (GatedRows.leak (s + x4 (ix1 (0 : Fin 1)))))
    (Finset.sum_congr rfl fun j _ => congrArg (· * x3 (ix2 (0 : Fin 1) j)) (proj_apply x0 x1 x2 p j))

/-- The weighted rows of the block. -/
theorem gated_apply (x0 : FVec Ideal S3200x384 .bf16) (x1 : FVec Ideal S384x128 .bf16) (x2 : FVec Ideal S128 .f32)
    (x3 : FVec Ideal S1x128 .f32) (x4 : FVec Ideal S1 .f32) (p : Fin 3200) (q : Fin 128) :
    k0_pay3 (F := Ideal) x0 x1 x2 x3 x4 (ix2 p q) = GatedRows.gated x0 x1 x2 x3 x4 p q := by
  refine (GatedRows.body_gated_apply (A := 3200) (M := 128) (k0_pay2 (F := Ideal) x0 x1 x2 x3 x4) (k0_pay1 (F := Ideal) x0 x1 x2) _ p q).trans ?_
  unfold GatedRows.gated
  rw [gate_apply x0 x1 x2 x3 x4 p (0 : Fin 1), proj_apply x0 x1 x2 p q]

end Cert.KernelIdeal.BlockPayload

end
-- ==== Proof.KernelArrays.lean ====
/-
  The two arrays the edge kernel's region leaves, as whole-array functions of the arrays the region finds. Grid point `t`
  handles the 3200 edges `3200·t … 3200·t + 3199`: it reads those rows of the concatenated edge features and the whole of the
  weights, bias, scoring row and its bias, and writes back those rows of the weighted projections (window 5) and of the edge
  weights (window 6). Every entry of a row depends on that row of the features only, so block `t` of what the region writes is
  block `t` of the gated rows, resp. the gates, of the WHOLE feature matrix; the 125 blocks tile the 400000 rows.
-/
import proofs.«177955_j49082886259211_2_alg».proof.Proof.KFrame
import proofs.«177955_j49082886259211_2_alg».proof.Proof.BlockPayload
import Idealize.ShloMosaic.Lib.Pipeline.Value

set_option maxRecDepth 16384

noncomputable section

namespace Cert.KernelIdeal.Arrays

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenH

variable (m : (ℓ : Loc nD τ sig) → Buf (Elt Ideal) ℓ)

theorem hz2 : (![0, 0] : Fin 2 → Nat) = fun _ => 0 := funext fun a => by fin_cases a <;> rfl
theorem hz1 : (![0] : Fin 1 → Nat) = fun _ => 0 := funext fun a => by fin_cases a <;> rfl

/-- The block index maps over the grid: the row-tiled windows (features, both outputs) are at block `t` of the rows, the
    others at their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## The input blocks at a point -/

/-- Row `p` of the feature block at point `t` is row `3200·t + p` of the feature matrix. -/
theorem blk0 (c : Dev nD) (t : Fin cfg0.N) (p : Fin 3200) (k : Fin 384) (P : Fin 400000) (hP : P.val = 3200 * t.val + p.val) :
    iblk m c 0 t (ix2 p k) = V m c main_v29 (ix2 P k) := by
  show V m c main_v29 (((cfg0.win 0).blk t).view.emb (ix2 p k)) = V m c main_v29 (ix2 P k)
  refine congrArg (V m c main_v29) (funext fun a => Fin.ext ?_)
  obtain ⟨e0, e1, -⟩ := idx_facts t
  match a with
  | ⟨0, _⟩ => show win0_0.index t (0 : Fin 2) * 3200 + 1 * p.val = P.val; omega
  | ⟨1, _⟩ => show win0_0.index t (1 : Fin 2) * 384 + 1 * k.val = k.val; omega

/-- The weights' block is the whole weight matrix at every point. -/
theorem blk1 (c : Dev nD) (t : Fin cfg0.N) : iblk m c 1 t = V m c main_v31 := by
  funext y
  show V m c main_v31 (((cfg0.win 1).blk t).view.emb y) = V m c main_v31 y
  refine congrArg (V m c main_v31) (funext fun a => Fin.ext ?_)
  obtain ⟨-, -, e2, e3, -⟩ := idx_facts t
  match a with
  | ⟨0, _⟩ => show win0_1.index t (0 : Fin 2) * 384 + 1 * (y 0).val = (y 0).val; omega
  | ⟨1, _⟩ => show win0_1.index t (1 : Fin 2) * 128 + 1 * (y 1).val = (y 1).val; omega

/-- The bias's block is the whole bias. -/
theorem blk2 (c : Dev nD) (t : Fin cfg0.N) : iblk m c 2 t = V m c main_arg4 := by
  funext y
  show V m c main_arg4 (((cfg0.win 2).blk t).view.emb y) = V m c main_arg4 y
  refine congrArg (V m c main_arg4) (funext fun a => Fin.ext ?_)
  obtain ⟨-, -, -, -, e4, -⟩ := idx_facts t
  match a with
  | ⟨0, _⟩ => show win0_2.index t (0 : Fin 1) * 128 + 1 * (y 0).val = (y 0).val; omega

/-- The scoring row's block is the whole row. -/
theorem blk3 (c : Dev nD) (t : Fin cfg0.N) : iblk m c 3 t = V m c main_arg5 := by
  funext y
  show V m c main_arg5 (((cfg0.win 3).blk t).view.emb y) = V m c main_arg5 y
  refine congrArg (V m c main_arg5) (funext fun a => Fin.ext ?_)
  obtain ⟨-, -, -, -, -, e5, e6, -⟩ := idx_facts t
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- The scoring bias's block is the whole one-entry array. -/
theorem blk4 (c : Dev nD) (t : Fin cfg0.N) : iblk m c 4 t = V m c main_arg6 := by
  funext y
  show V m c main_arg6 (((cfg0.win 4).blk t).view.emb y) = V m c main_arg6 y
  refine congrArg (V m c main_arg6) (funext fun a => Fin.ext ?_)
  obtain ⟨-, -, -, -, -, -, -, e7, -⟩ := idx_facts t
  match a with
  | ⟨0, _⟩ => show win0_4.index t (0 : Fin 1) * 1 + 1 * (y 0).val = (y 0).val; omega

/-! ## One point's stores as blocks of whole-array functions -/

/-- The weighted rows stored at a point whose feature block's row `p` is row `P` of a matrix `H`: entry `(p, q)` is entry
    `(P, q)` of the gated rows of `H`. -/
theorem point_gated (H : FVec Ideal S400000x384 .bf16) (W : FVec Ideal S384x128 .bf16) (b : FVec Ideal S128 .f32)
    (w : FVec Ideal S1x128 .f32) (β : FVec Ideal S1 .f32)
    (x0 : FVec Ideal S3200x384 .bf16) (x1 : FVec Ideal S384x128 .bf16) (x2 : FVec Ideal S128 .f32)
    (x3 : FVec Ideal S1x128 .f32) (x4 : FVec Ideal S1 .f32) (p : Fin 3200) (q : Fin 128) (P : Fin 400000)
    (h0 : ∀ k : Fin 384, x0 (ix2 p k) = H (ix2 P k)) (h1 : x1 = W) (h2 : x2 = b) (h3 : x3 = w) (h4 : x4 = β) :
    k0_pay3 (F := Ideal) x0 x1 x2 x3 x4 (ix2 p q) = GatedRows.gatedArr H W b w β (ix2 P q) := by
  subst h1 h2 h3 h4
  exact (BlockPayload.gated_apply x0 x1 x2 x3 x4 p q).trans (GatedRows.gated_congr x0 H x1 x2 x3 x4 p P h0 q)

/-- The edge weights stored at that point: entry `p` is the gate of row `P` of `H`. -/
theorem point_gate (H : FVec Ideal S400000x384 .bf16) (W : FVec Ideal S384x128 .bf16) (b : FVec Ideal S128 .f32)
    (w : FVec Ideal S1x128 .f32) (β : FVec Ideal S1 .f32)
    (x0 : FVec Ideal S3200x384 .bf16) (x1 : FVec Ideal S384x128 .bf16) (x2 : FVec Ideal S128 .f32)
    (x3 : FVec Ideal S1x128 .f32) (x4 : FVec Ideal S1 .f32) (p : Fin 3200) (u : Fin 1) (P : Fin 400000)
    (h0 : ∀ k : Fin 384, x0 (ix2 p k) = H (ix2 P k)) (h1 : x1 = W) (h2 : x2 = b) (h3 : x3 = w) (h4 : x4 = β) :
    k0_pay2 (F := Ideal) x0 x1 x2 x3 x4 (ix2 p u) = GatedRows.gateArr H W b w β (ix2 P u) := by
  subst h1 h2 h3 h4
  exact (BlockPayload.gate_apply x0 x1 x2 x3 x4 p u).trans (GatedRows.gate_congr x0 H x1 x2 x3 x4 p P h0)

/-! ## What each point writes back -/

set_option maxHeartbeats 2000000 in
/-- Point `t` writes back block `t` of the gated rows of the arrays the region found. -/
theorem flushed5_eq (c : Dev nD) (t : Fin cfg0.N) :
    (dats m 0 c).flushed 5 t = ((cfg0.win 5).blk t).view.read (Elt Ideal)
      (GatedRows.gatedArr (φx := .bf16) (φw := .bf16) (V m c main_v29) (V m c main_v31) (V m c main_arg4) (V m c main_arg5) (V m c main_arg6)) := by
  show (cfg0.win 5).cut (grid0.coords t) ((dats m 0 c).after 5 t) = _
  rw [after0_5]
  unfold out0_5
  rw [View.canon_unit_zero hz2]
  simp only [View.ld_unit_zero (S := S3200x384) hz2, View.ld_unit_zero (S := S384x128) hz2, View.ld_unit_zero (S := S128) hz1,
    View.ld_unit_zero (S := S1x128) hz2, View.ld_unit_zero (S := S1) hz1]
  funext j
  obtain ⟨p, q, rfl⟩ : ∃ (p : Fin 3200) (q : Fin 128), j = ix2 p q := ⟨j 0, j 1, eq_ix2 j⟩
  have hN : grid0.N = 125 := N_0
  have ht : t.val < grid0.N := t.isLt
  have hP : 3200 * t.val + p.val < 400000 := by have := p.isLt; omega
  show k0_pay3 (F := Ideal) (iblk m c 0 t) (iblk m c 1 t) (iblk m c 2 t) (iblk m c 3 t) (iblk m c 4 t) (ix2 p q)
    = GatedRows.gatedArr (φx := .bf16) (φw := .bf16) (V m c main_v29) (V m c main_v31) (V m c main_arg4) (V m c main_arg5) (V m c main_arg6)
        (((cfg0.win 5).blk t).view.emb (ix2 p q))
  have hemb : ((cfg0.win 5).blk t).view.emb (ix2 p q) = ix2 (⟨3200 * t.val + p.val, hP⟩ : Fin 400000) q := by
    funext a; apply Fin.ext
    obtain ⟨-, -, -, -, -, -, -, -, e8, e9, -⟩ := idx_facts t
    match a with
    | ⟨0, _⟩ => show win0_5.index t (0 : Fin 2) * 3200 + 1 * p.val = 3200 * t.val + p.val; omega
    | ⟨1, _⟩ => show win0_5.index t (1 : Fin 2) * 128 + 1 * q.val = q.val; omega
  rw [hemb]
  exact point_gated _ _ _ _ _ (iblk m c 0 t) (iblk m c 1 t) (iblk m c 2 t) (iblk m c 3 t) (iblk m c 4 t) p q ⟨_, hP⟩
    (fun k => blk0 m c t p k ⟨_, hP⟩ rfl) (blk1 m c t) (blk2 m c t) (blk3 m c t) (blk4 m c t)

set_option maxHeartbeats 2000000 in
/-- Point `t` writes back block `t` of the gates. -/
theorem flushed6_eq (c : Dev nD) (t : Fin cfg0.N) :
    (dats m 0 c).flushed 6 t = ((cfg0.win 6).blk t).view.read (Elt Ideal)
      (GatedRows.gateArr (φx := .bf16) (φw := .bf16) (V m c main_v29) (V m c main_v31) (V m c main_arg4) (V m c main_arg5) (V m c main_arg6)) := by
  show (cfg0.win 6).cut (grid0.coords t) ((dats m 0 c).after 6 t) = _
  rw [after0_6]
  unfold out0_6
  rw [View.canon_unit_zero hz2]
  simp only [View.ld_unit_zero (S := S3200x384) hz2, View.ld_unit_zero (S := S384x128) hz2, View.ld_unit_zero (S := S128) hz1,
    View.ld_unit_zero (S := S1x128) hz2, View.ld_unit_zero (S := S1) hz1]
  funext j
  obtain ⟨p, u, rfl⟩ : ∃ (p : Fin 3200) (u : Fin 1), j = ix2 p u := ⟨j 0, j 1, eq_ix2 j⟩
  have hN : grid0.N = 125 := N_0
  have ht : t.val < grid0.N := t.isLt
  have hP : 3200 * t.val + p.val < 400000 := by have := p.isLt; omega
  show k0_pay2 (F := Ideal) (iblk m c 0 t) (iblk m c 1 t) (iblk m c 2 t) (iblk m c 3 t) (iblk m c 4 t) (ix2 p u)
    = GatedRows.gateArr (φx := .bf16) (φw := .bf16) (V m c main_v29) (V m c main_v31) (V m c main_arg4) (V m c main_arg5) (V m c main_arg6)
        (((cfg0.win 6).blk t).view.emb (ix2 p u))
  have hemb : ((cfg0.win 6).blk t).view.emb (ix2 p u) = ix2 (⟨3200 * t.val + p.val, hP⟩ : Fin 400000) u := by
    funext a; apply Fin.ext
    obtain ⟨-, -, -, -, -, -, -, -, -, -, e10, e11⟩ := idx_facts t
    match a with
    | ⟨0, _⟩ => show win0_6.index t (0 : Fin 2) * 3200 + 1 * p.val = 3200 * t.val + p.val; omega
    | ⟨1, _⟩ => show win0_6.index t (1 : Fin 2) * 1 + 1 * u.val = u.val; omega
  rw [hemb]
  exact point_gate _ _ _ _ _ (iblk m c 0 t) (iblk m c 1 t) (iblk m c 2 t) (iblk m c 3 t) (iblk m c 4 t) p u ⟨_, hP⟩
    (fun k => blk0 m c t p k ⟨_, hP⟩ rfl) (blk1 m c t) (blk2 m c t) (blk3 m c t) (blk4 m c t)

/-! ## The blocks tile the rows -/

theorem mem_blk5 (t : Fin cfg0.N) (i : S400000x128.Idx) :
    i ∈ ((cfg0.win 5).blk t).view.set ↔ ∀ a : Fin 2, win0_5.index t a * S3200x128.size a ≤ (i a).val ∧ (i a).val < win0_5.index t a * S3200x128.size a + S3200x128.size a := by
  show i ∈ ((View.whole main_v32_0).slice (win0_5.rect t)).set ↔ _
  rw [View.set_slice_whole, Rect.mem_set_unit]
  exact Iff.rfl

theorem mem_blk6 (t : Fin cfg0.N) (i : S400000x1.Idx) :
    i ∈ ((cfg0.win 6).blk t).view.set ↔ ∀ a : Fin 2, win0_6.index t a * S3200x1.size a ≤ (i a).val ∧ (i a).val < win0_6.index t a * S3200x1.size a + S3200x1.size a := by
  show i ∈ ((View.whole main_v32_1).slice (win0_6.rect t)).set ↔ _
  rw [View.set_slice_whole, Rect.mem_set_unit]
  exact Iff.rfl

/-- Row `r` lies in the block of point `r / 3200`. -/
theorem cover5 (i : S400000x128.Idx) : ∃ t : Fin cfg0.N, (cfg0.win 5).flush t = true ∧ i ∈ ((cfg0.win 5).blk t).view.set := by
  have hi0 : (i 0).val < 400000 := (i 0).isLt
  have hi1 : (i 1).val < 128 := (i 1).isLt
  have hN : grid0.N = 125 := N_0
  obtain ⟨t, ht⟩ : ∃ t : Fin cfg0.N, t.val = (i 0).val / 3200 := ⟨⟨(i 0).val / 3200, by show _ < grid0.N; omega⟩, rfl⟩
  refine ⟨t, flush0_5 t, ?_⟩
  rw [mem_blk5]
  obtain ⟨-, -, -, -, -, -, -, -, e8, e9, -⟩ := idx_facts t
  intro a
  match a with
  | ⟨0, _⟩ => show win0_5.index t (0 : Fin 2) * 3200 ≤ (i 0).val ∧ (i 0).val < win0_5.index t (0 : Fin 2) * 3200 + 3200; omega
  | ⟨1, _⟩ => show win0_5.index t (1 : Fin 2) * 128 ≤ (i 1).val ∧ (i 1).val < win0_5.index t (1 : Fin 2) * 128 + 128; omega

theorem cover6 (i : S400000x1.Idx) : ∃ t : Fin cfg0.N, (cfg0.win 6).flush t = true ∧ i ∈ ((cfg0.win 6).blk t).view.set := by
  have hi0 : (i 0).val < 400000 := (i 0).isLt
  have hi1 : (i 1).val < 1 := (i 1).isLt
  have hN : grid0.N = 125 := N_0
  obtain ⟨t, ht⟩ : ∃ t : Fin cfg0.N, t.val = (i 0).val / 3200 := ⟨⟨(i 0).val / 3200, by show _ < grid0.N; omega⟩, rfl⟩
  refine ⟨t, flush0_6 t, ?_⟩
  rw [mem_blk6]
  obtain ⟨-, -, -, -, -, -, -, -, -, -, e10, e11⟩ := idx_facts t
  intro a
  match a with
  | ⟨0, _⟩ => show win0_6.index t (0 : Fin 2) * 3200 ≤ (i 0).val ∧ (i 0).val < win0_6.index t (0 : Fin 2) * 3200 + 3200; omega
  | ⟨1, _⟩ => show win0_6.index t (1 : Fin 2) * 1 ≤ (i 1).val ∧ (i 1).val < win0_6.index t (1 : Fin 2) * 1 + 1; omega

/-! ## The two arrays after the region -/

/-- The weighted projections after the region: the gated rows of the arrays the region found. -/
theorem final5 (c : Dev nD) : (dats m 0 c).arrAt 5 cfg0.N
    = GatedRows.gatedArr (φx := .bf16) (φw := .bf16) (V m c main_v29) (V m c main_v31) (V m c main_arg4) (V m c main_arg5) (V m c main_arg6) :=
  (dats m 0 c).arrAt_eq_of_cover 5 _ (fun t _ => flushed5_eq m c t) cover5

/-- The edge weights after the region: the gates. -/
theorem final6 (c : Dev nD) : (dats m 0 c).arrAt 6 cfg0.N
    = GatedRows.gateArr (φx := .bf16) (φw := .bf16) (V m c main_v29) (V m c main_v31) (V m c main_arg4) (V m c main_arg5) (V m c main_arg6) :=
  (dats m 0 c).arrAt_eq_of_cover 6 _ (fun t _ => flushed6_eq m c t) cover6

end Cert.KernelIdeal.Arrays

end
-- ==== Proof.KernelTail.lean ====
import proofs.«177955_j49082886259211_2_alg».proof.Proof.KFrame
import Idealize.ShloMosaic.Lib.StableHlo.Run
import Idealize.ShloMosaic.PureOps.Ideal
set_option maxRecDepth 16384

noncomputable section

namespace Cert.KernelIdeal.Tail

open Cert.KernelIdeal.Gen
open Idealize.ShloMosaic Idealize.ShloMosaic.TcCoe
open Idealize.SL Idealize.SL.Sem
open Idealize.ShloMosaic.Pipeline (Dat Cfg Window)

/-!
# The two results as functions of the region's outputs

After the region the entry function computes its two results by host operations alone: two segment sums over the
source index and a division for the first, a segment sum, a segment count and a division for the second, each followed
by the exponential linear unit. This module names those two compositions and reads the results off the run.
-/

/-- The first result from the per-edge weights `eb`, the weighted per-edge messages `tmp` and the source indices `src`:
    `s = Σ_{src} eb` and `t = Σ_{src} tmp` per node; the divisor is `s` with its exact zeros replaced by a small positive
    constant; the quotient `t / divisor`, row by row; then `x ↦ x` where `x > 0` and `1 · (exp x' − 1)` elsewhere, `x'` being `x`
    with its positive entries zeroed. -/
def tailEntK (eb : FVec Ideal S400000x1 .f32) (tmp : FVec Ideal S400000x128 .f32) (src : IVec S400000 32) :
    FVec Ideal S100000x128 .f32 :=
  let s : FVec Ideal S100000x1 .f32 := Host.scatterAdd (F := Ideal) scatter_S100000x1_S400000x1_S400000x1_1_0_0_1
    (broadcastInDim S100000x1 ![] bcast_S_S100000x1 (constant (F := Ideal) S_ .f32 0x00000000#32))
    (broadcastInDim S400000x1 ![0] bcast_S400000_S400000x1_0 src) eb
  let t : FVec Ideal S100000x128 .f32 := Host.scatterAdd (F := Ideal) scatter_S100000x128_S400000x1_S400000x128_1_0_0_1
    (broadcastInDim S100000x128 ![] bcast_S_S100000x128 (constant (F := Ideal) S_ .f32 0x00000000#32))
    (broadcastInDim S400000x1 ![0] bcast_S400000_S400000x1_0 src) tmp
  let d : FVec Ideal S100000x1 .f32 := select
    (cmpf .oeq s (broadcastInDim S100000x1 ![] bcast_S_S100000x1 (constant (F := Ideal) S_ .f32 0x00000000#32)))
    (broadcastInDim S100000x1 ![] bcast_S_S100000x1 (constant (F := Ideal) S_ .f32 0x2B8CBCCC#32)) s
  let x : FVec Ideal S100000x128 .f32 := Host.divf (F := Ideal) t (broadcastInDim S100000x128 ![0, 1] bcast_S100000x1_S100000x128_0_1 d)
  select (cmpf .ogt x (broadcastInDim S100000x128 ![] bcast_S_S100000x128 (constant (F := Ideal) S_ .f32 0x00000000#32))) x
    (mulf (broadcastInDim S100000x128 ![] bcast_S_S100000x128 (constant (F := Ideal) S_ .f32 0x3F800000#32))
      (Host.expm1 (F := Ideal) (select (cmpf .ogt x (broadcastInDim S100000x128 ![] bcast_S_S100000x128 (constant (F := Ideal) S_ .f32 0x00000000#32)))
        (broadcastInDim S100000x128 ![] bcast_S_S100000x128 (constant (F := Ideal) S_ .f32 0x00000000#32)) x)))

/-- The second result from the weighted per-edge messages `tmp` and the relation indices `rel`: `t = Σ_{rel} tmp` and the
    count `n = Σ_{rel} 1` per relation; the quotient `t / max n 1`, row by row; then the same unit as above. -/
def tailRelK (tmp : FVec Ideal S400000x128 .f32) (rel : IVec S400000 32) : FVec Ideal S237x128 .f32 :=
  let t : FVec Ideal S237x128 .f32 := Host.scatterAdd (F := Ideal) scatter_S237x128_S400000x1_S400000x128_1_0_0_1
    (broadcastInDim S237x128 ![] bcast_S_S237x128 (constant (F := Ideal) S_ .f32 0x00000000#32))
    (broadcastInDim S400000x1 ![0] bcast_S400000_S400000x1_0 rel) tmp
  let n : FVec Ideal S237x1 .f32 := Host.scatterAdd (F := Ideal) scatter_S237x1_S400000x1_S400000x1_1_0_0_1
    (broadcastInDim S237x1 ![] bcast_S_S237x1 (constant (F := Ideal) S_ .f32 0x00000000#32))
    (broadcastInDim S400000x1 ![0] bcast_S400000_S400000x1_0 rel)
    (broadcastInDim S400000x1 ![] bcast_S_S400000x1 (constant (F := Ideal) S_ .f32 0x3F800000#32))
  let d : FVec Ideal S237x1 .f32 := maximumf n (broadcastInDim S237x1 ![] bcast_S_S237x1 (constant (F := Ideal) S_ .f32 0x3F800000#32))
  let x : FVec Ideal S237x128 .f32 := Host.divf (F := Ideal) t (broadcastInDim S237x128 ![0, 1] bcast_S237x1_S237x128_0_1 d)
  select (cmpf .ogt x (broadcastInDim S237x128 ![] bcast_S_S237x128 (constant (F := Ideal) S_ .f32 0x00000000#32))) x
    (mulf (broadcastInDim S237x128 ![] bcast_S_S237x128 (constant (F := Ideal) S_ .f32 0x3F800000#32))
      (Host.expm1 (F := Ideal) (select (cmpf .ogt x (broadcastInDim S237x128 ![] bcast_S_S237x128 (constant (F := Ideal) S_ .f32 0x00000000#32)))
        (broadcastInDim S237x128 ![] bcast_S_S237x128 (constant (F := Ideal) S_ .f32 0x00000000#32)) x)))

attribute [local irreducible] Host.scatterAdd Host.divf Host.expm1 broadcastInDim select cmpf mulf maximumf constant in
set_option maxHeartbeats 4000000 in
/-- After the later host operations the first result's buffer holds `tailEntK` of output array 6, output array 5 (both
    as they stand after the last grid point) and the source indices as the region found them: the operations compose to
    that function, reading the two arrays where the region left them and the index buffer where no window touches it. -/
theorem tail55 (m : (ℓ : Loc nD τ sig) → Buf (Elt Ideal) ℓ) (c : Dev nD) :
    Pipeline.afterTail₀ cfgs (GenH.dats m) 0 (GenH.V0 m) [hostOps1, hostOps1_1, hostOps1_2, hostOps1_3, hostOps1_4] c main_v55
      = tailEntK ((GenH.dats m 0 c).arrAt 6 cfg0.N) ((GenH.dats m 0 c).arrAt 5 cfg0.N) (GenH.V m c main_v1) := by
  unfold Pipeline.afterTail₀
  simp only [hostOps1, hostOps1_1, hostOps1_2, hostOps1_3, hostOps1_4, List.flatten_cons, List.flatten_nil, List.append_nil, List.cons_append, List.nil_append]
  after_results_simp
  have e0 : Pipeline.withArrays (cfgs 0).spec c (GenH.V0 m c) (fun w => (GenH.dats m 0 c).arrAt w (cfgs 0).N) (Proc.devRef .tc main_v32_0) = (GenH.dats m 0 c).arrAt 5 cfg0.N :=
    Pipeline.withArrays_arr (cfgs 0).spec launch0.win.arr_inj c _ _ 5
  have e1 : Pipeline.withArrays (cfgs 0).spec c (GenH.V0 m c) (fun w => (GenH.dats m 0 c).arrAt w (cfgs 0).N) (Proc.devRef .tc main_v32_1) = (GenH.dats m 0 c).arrAt 6 cfg0.N :=
    Pipeline.withArrays_arr (cfgs 0).spec launch0.win.arr_inj c _ _ 6
  have e2 : Pipeline.withArrays (cfgs 0).spec c (GenH.V0 m c) (fun w => (GenH.dats m 0 c).arrAt w (cfgs 0).N) (Proc.devRef .tc main_v1) = GenH.V m c main_v1 :=
    Pipeline.withArrays_of_ne (cfgs 0).spec c _ _ main_v1 (by decide)
  rw [e0, e1, e2]
  generalize (GenH.dats m 0 c).arrAt 5 cfg0.N = a0
  generalize (GenH.dats m 0 c).arrAt 6 cfg0.N = a1
  generalize GenH.V m c main_v1 = a2
  rfl

attribute [local irreducible] Host.scatterAdd Host.divf Host.expm1 broadcastInDim select cmpf mulf maximumf constant in
set_option maxHeartbeats 4000000 in
/-- Likewise the second result's buffer holds `tailRelK` of output array 5 and the relation indices. -/
theorem tail56 (m : (ℓ : Loc nD τ sig) → Buf (Elt Ideal) ℓ) (c : Dev nD) :
    Pipeline.afterTail₀ cfgs (GenH.dats m) 0 (GenH.V0 m) [hostOps1, hostOps1_1, hostOps1_2, hostOps1_3, hostOps1_4] c main_v56
      = tailRelK ((GenH.dats m 0 c).arrAt 5 cfg0.N) (GenH.V m c main_v5) := by
  unfold Pipeline.afterTail₀
  simp only [hostOps1, hostOps1_1, hostOps1_2, hostOps1_3, hostOps1_4, List.flatten_cons, List.flatten_nil, List.append_nil, List.cons_append, List.nil_append]
  after_results_simp
  have e0 : Pipeline.withArrays (cfgs 0).spec c (GenH.V0 m c) (fun w => (GenH.dats m 0 c).arrAt w (cfgs 0).N) (Proc.devRef .tc main_v32_0) = (GenH.dats m 0 c).arrAt 5 cfg0.N :=
    Pipeline.withArrays_arr (cfgs 0).spec launch0.win.arr_inj c _ _ 5
  have e1 : Pipeline.withArrays (cfgs 0).spec c (GenH.V0 m c) (fun w => (GenH.dats m 0 c).arrAt w (cfgs 0).N) (Proc.devRef .tc main_v5) = GenH.V m c main_v5 :=
    Pipeline.withArrays_of_ne (cfgs 0).spec c _ _ main_v5 (by decide)
  rw [e0, e1]
  generalize (GenH.dats m 0 c).arrAt 5 cfg0.N = a0
  generalize GenH.V m c main_v5 = a1
  rfl

/-- The program's run at the ideal instance: it terminates without fault; the two results are `tailEntK` and `tailRelK`
    of the output arrays as the last grid point leaves them and of the index buffers as the region found them; the seven
    argument arrays are unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v55) = tailEntK ((GenH.dats m 0 c).arrAt 6 cfg0.N) ((GenH.dats m 0 c).arrAt 5 cfg0.N) (GenH.V m c main_v1)
      ∧ r.2.mem ((c.tc : Thread nD τ).loc main_v56) = tailRelK ((GenH.dats m 0 c).arrAt 5 cfg0.N) (GenH.V m c main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
      ((h c).2 main_v55 (Pipeline.mem_restRefs_of main_v55 (by decide) (by decide))).trans (tail55 m c),
      ((h c).2 main_v56 (Pipeline.mem_restRefs_of main_v56 (by decide) (by decide))).trans (tail56 m c),
      ((h c).2 main_arg0 (Pipeline.mem_restRefs_of main_arg0 (by decide) (by decide))).trans (GenH.W_main_arg0 m (GenH.dats m) c),
      ((h c).2 main_arg1 (Pipeline.mem_restRefs_of main_arg1 (by decide) (by decide))).trans (GenH.W_main_arg1 m (GenH.dats m) c),
      ((h c).2 main_arg2 (Pipeline.mem_restRefs_of main_arg2 (by decide) (by decide))).trans (GenH.W_main_arg2 m (GenH.dats m) c),
      ((h c).2 main_arg3 (Pipeline.mem_restRefs_of main_arg3 (by decide) (by decide))).trans (GenH.W_main_arg3 m (GenH.dats m) c),
      ((h c).1 2).trans (GenH.W_main_arg4 m (GenH.dats m) (GenH.A_eq m) c),
      ((h c).1 3).trans (GenH.W_main_arg5 m (GenH.dats m) (GenH.A_eq m) c),
      ((h c).1 4).trans (GenH.W_main_arg6 m (GenH.dats m) (GenH.A_eq m) c)⟩) (GenH.run_main m ρ)

end Cert.KernelIdeal.Tail

end
-- ==== Proof.LibNary3.lean ====
/-
  A host operation with THREE operands given as a literal family of references (a concatenate of three arrays) : its result
  buffer holds its function of the three operands' contents, each read at its own reference, so that the contents of the
  operands can in turn be rewritten to the operations that produced them.
-/
import Idealize.ShloMosaic.Lib.StableHlo.Run

namespace Idealize.ShloMosaic.StableHlo

variable {τ : Topo} {sig : RefSig} {Val : EltTy → Type}
variable {x a b y : Ref sig .tc}

/-- The result of a three-operand operation, operand by operand. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, in the form a single simplification pass uses. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- What a buffer holds after a line of operations, operation by operation, three-operand operations included. -/
macro "after_results3" : tactic =>
  `(tactic| (simp (disch := decide) only [after_cons, after_nil,
      nullary_result', unary_result', binary_result', ternary_result', quaternary_result', reshape_result', nary3_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo
-- ==== Proof.RefRun.lean ====
/- The reference program's @main as a list of its 116 host operations — its module-local functions' bodies
   listed at their call sites over each call's own buffers — and its run read back: every weakly fair execution
   terminates with each result buffer at the operations' composed pure term of the arguments' launch contents,
   the arguments unchanged. The composed term is stated through named stages, each the printed composition of the
   operations between two values of the program. -/
import proofs.«177955_j49082886259211_2_alg».proof.Proof.Gen.ReferenceIdeal
import Idealize.ShloMosaic.Lib.StableHlo.Run
import proofs.«177955_j49082886259211_2_alg».proof.Proof.LibNary3

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- @main's 116 operations, in order, the calls unfolded: @leaky_relu's seven (its @_where's select the last) into
    `main_call0`'s buffers, @_where_0's three into `main_call1`'s, @elu's fifteen into `main_call2`'s and @elu_3's
    fifteen into `main_call3`'s (each: two comparisons with zero, @_where_1's / @_where_4's three, the
    exponential-minus-one, the product with one, @_where_2's / @_where_5's select). -/
abbrev ops : List (HloOp τ sig (Elt F)) :=
  [ StableHlo.unary main_arg0 main_v0 ((extractStridedSlice S400000x1 ![0, 0] · slices_S400000x3_S400000x1_0_0) : (⟨S400000x3, .i32⟩ : BufTy).Contents (Elt F) → (⟨S400000x1, .i32⟩ : BufTy).Contents (Elt F)),
    StableHlo.reshape main_v0 main_v1 rfl shapeCasts_S400000x1_S400000,
    StableHlo.unary main_arg0 main_v2 ((extractStridedSlice S400000x1 ![0, 1] · slices_S400000x3_S400000x1_0_1) : (⟨S400000x3, .i32⟩ : BufTy).Contents (Elt F) → (⟨S400000x1, .i32⟩ : BufTy).Contents (Elt F)),
    StableHlo.reshape main_v2 main_v3 rfl shapeCasts_S400000x1_S400000,
    StableHlo.unary main_arg0 main_v4 ((extractStridedSlice S400000x1 ![0, 2] · slices_S400000x3_S400000x1_0_2) : (⟨S400000x3, .i32⟩ : BufTy).Contents (Elt F) → (⟨S400000x1, .i32⟩ : BufTy).Contents (Elt F)),
    StableHlo.reshape main_v4 main_v5 rfl shapeCasts_S400000x1_S400000,
    StableHlo.nullary main_c (constantI S_ 32 0#32),
    StableHlo.unary main_c main_v6 (broadcastInDim S400000 ![] bcast_S_S400000 : (⟨S_, .i32⟩ : BufTy).Contents (Elt F) → (⟨S400000, .i32⟩ : BufTy).Contents (Elt F)),
    StableHlo.binary main_v1 main_v6 main_v7 (cmpi .slt : (⟨S400000, .i32⟩ : BufTy).Contents (Elt F) → (⟨S400000, .i32⟩ : BufTy).Contents (Elt F) → (⟨S400000, .i1⟩ : BufTy).Contents (Elt F)),
    StableHlo.nullary main_c_0 (constantI S_ 32 100000#32),
    StableHlo.unary main_c_0 main_v8 (broadcastInDim S400000 ![] bcast_S_S400000 : (⟨S_, .i32⟩ : BufTy).Contents (Elt F) → (⟨S400000, .i32⟩ : BufTy).Contents (Elt F)),
    StableHlo.binary main_v1 main_v8 main_v9 (addi : (⟨S400000, .i32⟩ : BufTy).Contents (Elt F) → (⟨S400000, .i32⟩ : BufTy).Contents (Elt F) → (⟨S400000, .i32⟩ : BufTy).Contents (Elt F)),
    StableHlo.ternary main_v7 main_v9 main_v1 main_v10 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v10 main_v11 (broadcastInDim S400000x1 ![0] bcast_S400000_S400000x1_0 : (⟨S400000, .i32⟩ : BufTy).Contents (Elt F) → (⟨S400000x1, .i32⟩ : BufTy).Contents (Elt F)),
    StableHlo.binary main_arg1 main_v11 main_v12 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F)),
    StableHlo.nullary main_c_1 (constantI S_ 32 0#32),
    StableHlo.unary main_c_1 main_v13 (broadcastInDim S400000 ![] bcast_S_S400000 : (⟨S_, .i32⟩ : BufTy).Contents (Elt F) → (⟨S400000, .i32⟩ : BufTy).Contents (Elt F)),
    StableHlo.binary main_v5 main_v13 main_v14 (cmpi .slt : (⟨S400000, .i32⟩ : BufTy).Contents (Elt F) → (⟨S400000, .i32⟩ : BufTy).Contents (Elt F) → (⟨S400000, .i1⟩ : BufTy).Contents (Elt F)),
    StableHlo.nullary main_c_2 (constantI S_ 32 237#32),
    StableHlo.unary main_c_2 main_v15 (broadcastInDim S400000 ![] bcast_S_S400000 : (⟨S_, .i32⟩ : BufTy).Contents (Elt F) → (⟨S400000, .i32⟩ : BufTy).Contents (Elt F)),
    StableHlo.binary main_v5 main_v15 main_v16 (addi : (⟨S400000, .i32⟩ : BufTy).Contents (Elt F) → (⟨S400000, .i32⟩ : BufTy).Contents (Elt F) → (⟨S400000, .i32⟩ : BufTy).Contents (Elt F)),
    StableHlo.ternary main_v14 main_v16 main_v5 main_v17 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v17 main_v18 (broadcastInDim S400000x1 ![0] bcast_S400000_S400000x1_0 : (⟨S400000, .i32⟩ : BufTy).Contents (Elt F) → (⟨S400000x1, .i32⟩ : BufTy).Contents (Elt F)),
    StableHlo.binary main_arg2 main_v18 main_v19 ((fun x i => Host.gather gather_S237x128_S400000x1_S400000x128_1_0_n_n_0_1_1128 x i) : (⟨S237x128, .f32⟩ : BufTy).Contents (Elt F) → (⟨S400000x1, .i32⟩ : BufTy).Contents (Elt F) → (⟨S400000x128, .f32⟩ : BufTy).Contents (Elt F)),
    StableHlo.nullary main_c_3 (constantI S_ 32 0#32),
    StableHlo.unary main_c_3 main_v20 (broadcastInDim S400000 ![] bcast_S_S400000 : (⟨S_, .i32⟩ : BufTy).Contents (Elt F) → (⟨S400000, .i32⟩ : BufTy).Contents (Elt F)),
    StableHlo.binary main_v3 main_v20 main_v21 (cmpi .slt : (⟨S400000, .i32⟩ : BufTy).Contents (Elt F) → (⟨S400000, .i32⟩ : BufTy).Contents (Elt F) → (⟨S400000, .i1⟩ : BufTy).Contents (Elt F)),
    StableHlo.nullary main_c_4 (constantI S_ 32 100000#32),
    StableHlo.unary main_c_4 main_v22 (broadcastInDim S400000 ![] bcast_S_S400000 : (⟨S_, .i32⟩ : BufTy).Contents (Elt F) → (⟨S400000, .i32⟩ : BufTy).Contents (Elt F)),
    StableHlo.binary main_v3 main_v22 main_v23 (addi : (⟨S400000, .i32⟩ : BufTy).Contents (Elt F) → (⟨S400000, .i32⟩ : BufTy).Contents (Elt F) → (⟨S400000, .i32⟩ : BufTy).Contents (Elt F)),
    StableHlo.ternary main_v21 main_v23 main_v3 main_v24 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v24 main_v25 (broadcastInDim S400000x1 ![0] bcast_S400000_S400000x1_0 : (⟨S400000, .i32⟩ : BufTy).Contents (Elt F) → (⟨S400000x1, .i32⟩ : BufTy).Contents (Elt F)),
    StableHlo.binary main_arg1 main_v25 main_v26 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F)),
    StableHlo.nary ![main_v12, main_v19, main_v26] main_v27 (fun u => concatenate S400000x384 1 [⟨S400000x128, u 0⟩, ⟨S400000x128, u 1⟩, ⟨S400000x128, u 2⟩] concatenates_S400000x128_S400000x128_S400000x128_S400000x384_d1),
    StableHlo.unary main_arg3 main_v28 ((transpose S384x128 [1, 0] · transposes_S128x384_S384x128_1_0) : (⟨S128x384, .f32⟩ : BufTy).Contents (Elt F) → (⟨S384x128, .f32⟩ : BufTy).Contents (Elt F)),
    StableHlo.binary main_v27 main_v28 main_v29 ((fun l r => Host.dotGeneral dot_S400000x384_S384x128_S400000x128_1_0_0_1_n_n none l r) : (⟨S400000x384, .f32⟩ : BufTy).Contents (Elt F) → (⟨S384x128, .f32⟩ : BufTy).Contents (Elt F) → (⟨S400000x128, .f32⟩ : BufTy).Contents (Elt F)),
    StableHlo.unary main_arg4 main_v30 (broadcastInDim S1x128 ![1] bcast_S128_S1x128_1 : (⟨S128, .f32⟩ : BufTy).Contents (Elt F) → (⟨S1x128, .f32⟩ : BufTy).Contents (Elt F)),
    StableHlo.unary main_v30 main_v31 (broadcastInDim S400000x128 ![0, 1] bcast_S1x128_S400000x128_0_1 : (⟨S1x128, .f32⟩ : BufTy).Contents (Elt F) → (⟨S400000x128, .f32⟩ : BufTy).Contents (Elt F)),
    StableHlo.binary main_v29 main_v31 main_v32 (addf : (⟨S400000x128, .f32⟩ : BufTy).Contents (Elt F) → (⟨S400000x128, .f32⟩ : BufTy).Contents (Elt F) → (⟨S400000x128, .f32⟩ : BufTy).Contents (Elt F)),
    StableHlo.unary main_arg5 main_v33 ((transpose S128x1 [1, 0] · transposes_S1x128_S128x1_1_0) : (⟨S1x128, .f32⟩ : BufTy).Contents (Elt F) → (⟨S128x1, .f32⟩ : BufTy).Contents (Elt F)),
    StableHlo.binary main_v32 main_v33 main_v34 ((fun l r => Host.dotGeneral dot_S400000x128_S128x1_S400000x1_1_0_0_1_n_n none l r) : (⟨S400000x128, .f32⟩ : BufTy).Contents (Elt F) → (⟨S128x1, .f32⟩ : BufTy).Contents (Elt F) → (⟨S400000x1, .f32⟩ : BufTy).Contents (Elt F)),
    StableHlo.unary main_arg6 main_v35 (broadcastInDim S1x1 ![1] bcast_S1_S1x1_1 : (⟨S1, .f32⟩ : BufTy).Contents (Elt F) → (⟨S1x1, .f32⟩ : BufTy).Contents (Elt F)),
    StableHlo.unary main_v35 main_v36 (broadcastInDim S400000x1 ![0, 1] bcast_S1x1_S400000x1_0_1 : (⟨S1x1, .f32⟩ : BufTy).Contents (Elt F) → (⟨S400000x1, .f32⟩ : BufTy).Contents (Elt F)),
    StableHlo.binary main_v34 main_v36 main_v37 (addf : (⟨S400000x1, .f32⟩ : BufTy).Contents (Elt F) → (⟨S400000x1, .f32⟩ : BufTy).Contents (Elt F) → (⟨S400000x1, .f32⟩ : BufTy).Contents (Elt F)),
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S400000x1, .f32⟩) (broadcastInDim S400000x1 ![] bcast_S_S400000x1),
    StableHlo.TRef.binary (.of main_v37 : StableHlo.TRef sig ⟨S400000x1, .f32⟩) (.of main_call0_v0 : StableHlo.TRef sig ⟨S400000x1, .f32⟩) (.of main_call0_v1 : StableHlo.TRef sig ⟨S400000x1, .i1⟩) (cmpf .oge),
    StableHlo.TRef.nullary (.of main_call0_cst_0 : StableHlo.TRef sig ⟨S_, .f32⟩) (constant S_ .f32 0x3C23D70A#32),
    StableHlo.TRef.unary (.of main_call0_cst_0 : StableHlo.TRef sig ⟨S_, .f32⟩) (.of main_call0_v2 : StableHlo.TRef sig ⟨S400000x1, .f32⟩) (broadcastInDim S400000x1 ![] bcast_S_S400000x1),
    StableHlo.TRef.binary (.of main_call0_v2 : StableHlo.TRef sig ⟨S400000x1, .f32⟩) (.of main_v37 : StableHlo.TRef sig ⟨S400000x1, .f32⟩) (.of main_call0_v3 : StableHlo.TRef sig ⟨S400000x1, .f32⟩) mulf,
    StableHlo.TRef.ternary (.of main_call0_v1 : StableHlo.TRef sig ⟨S400000x1, .i1⟩) (.of main_v37 : StableHlo.TRef sig ⟨S400000x1, .f32⟩) (.of main_call0_v3 : StableHlo.TRef sig ⟨S400000x1, .f32⟩) (.of main_v38 : StableHlo.TRef sig ⟨S400000x1, .f32⟩) select,
    StableHlo.unary main_v38 main_v39 (Host.exp : (⟨S400000x1, .f32⟩ : BufTy).Contents (Elt F) → (⟨S400000x1, .f32⟩ : BufTy).Contents (Elt F)),
    StableHlo.nullary main_cst (constant S_ .f32 0x00000000#32),
    StableHlo.unary main_cst main_v40 (broadcastInDim S100000x1 ![] bcast_S_S100000x1 : (⟨S_, .f32⟩ : BufTy).Contents (Elt F) → (⟨S100000x1, .f32⟩ : BufTy).Contents (Elt F)),
    StableHlo.unary main_v1 main_v41 (broadcastInDim S400000x1 ![0] bcast_S400000_S400000x1_0 : (⟨S400000, .i32⟩ : BufTy).Contents (Elt F) → (⟨S400000x1, .i32⟩ : BufTy).Contents (Elt F)),
    StableHlo.ternary main_v40 main_v41 main_v39 main_v42 ((fun x i u => Host.scatterAdd scatter_S100000x1_S400000x1_S400000x1_1_0_0_1 x i u) : (⟨S100000x1, .f32⟩ : BufTy).Contents (Elt F) → (⟨S400000x1, .i32⟩ : BufTy).Contents (Elt F) → (⟨S400000x1, .f32⟩ : BufTy).Contents (Elt F) → (⟨S100000x1, .f32⟩ : BufTy).Contents (Elt F)),
    StableHlo.unary main_v39 main_v43 (broadcastInDim S400000x128 ![0, 1] bcast_S400000x1_S400000x128_0_1 : (⟨S400000x1, .f32⟩ : BufTy).Contents (Elt F) → (⟨S400000x128, .f32⟩ : BufTy).Contents (Elt F)),
    StableHlo.binary main_v43 main_v32 main_v44 (mulf : (⟨S400000x128, .f32⟩ : BufTy).Contents (Elt F) → (⟨S400000x128, .f32⟩ : BufTy).Contents (Elt F) → (⟨S400000x128, .f32⟩ : BufTy).Contents (Elt F)),
    StableHlo.nullary main_cst_5 (constant S_ .f32 0x00000000#32),
    StableHlo.unary main_cst_5 main_v45 (broadcastInDim S100000x128 ![] bcast_S_S100000x128 : (⟨S_, .f32⟩ : BufTy).Contents (Elt F) → (⟨S100000x128, .f32⟩ : BufTy).Contents (Elt F)),
    StableHlo.unary main_v1 main_v46 (broadcastInDim S400000x1 ![0] bcast_S400000_S400000x1_0 : (⟨S400000, .i32⟩ : BufTy).Contents (Elt F) → (⟨S400000x1, .i32⟩ : BufTy).Contents (Elt F)),
    StableHlo.ternary main_v45 main_v46 main_v44 main_v47 ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F)),
    StableHlo.nullary main_cst_6 (constant S_ .f32 0x00000000#32),
    StableHlo.unary main_cst_6 main_v48 (broadcastInDim S100000x1 ![] bcast_S_S100000x1 : (⟨S_, .f32⟩ : BufTy).Contents (Elt F) → (⟨S100000x1, .f32⟩ : BufTy).Contents (Elt F)),
    StableHlo.binary main_v42 main_v48 main_v49 (cmpf .oeq : (⟨S100000x1, .f32⟩ : BufTy).Contents (Elt F) → (⟨S100000x1, .f32⟩ : BufTy).Contents (Elt F) → (⟨S100000x1, .i1⟩ : BufTy).Contents (Elt F)),
    StableHlo.nullary main_cst_7 (constant S_ .f32 0x2B8CBCCC#32),
    StableHlo.TRef.unary (.of main_cst_7 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S100000x1, .f32⟩) (broadcastInDim S100000x1 ![] bcast_S_S100000x1),
    StableHlo.TRef.ternary (.of main_v49 : StableHlo.TRef sig ⟨S100000x1, .i1⟩) (.of main_call1_v1 : StableHlo.TRef sig ⟨S100000x1, .f32⟩) (.of main_v42 : StableHlo.TRef sig ⟨S100000x1, .f32⟩) (.of main_v50 : StableHlo.TRef sig ⟨S100000x1, .f32⟩) select,
    StableHlo.unary main_v50 main_v51 (broadcastInDim S100000x128 ![0, 1] bcast_S100000x1_S100000x128_0_1 : (⟨S100000x1, .f32⟩ : BufTy).Contents (Elt F) → (⟨S100000x128, .f32⟩ : BufTy).Contents (Elt F)),
    StableHlo.binary main_v47 main_v51 main_v52 (Host.divf : (⟨S100000x128, .f32⟩ : BufTy).Contents (Elt F) → (⟨S100000x128, .f32⟩ : BufTy).Contents (Elt F) → (⟨S100000x128, .f32⟩ : BufTy).Contents (Elt F)),
    StableHlo.nullary main_cst_8 (constant S_ .f32 0x00000000#32),
    StableHlo.unary main_cst_8 main_v53 (broadcastInDim S237x128 ![] bcast_S_S237x128 : (⟨S_, .f32⟩ : BufTy).Contents (Elt F) → (⟨S237x128, .f32⟩ : BufTy).Contents (Elt F)),
    StableHlo.unary main_v5 main_v54 (broadcastInDim S400000x1 ![0] bcast_S400000_S400000x1_0 : (⟨S400000, .i32⟩ : BufTy).Contents (Elt F) → (⟨S400000x1, .i32⟩ : BufTy).Contents (Elt F)),
    StableHlo.ternary main_v53 main_v54 main_v44 main_v55 ((fun x i u => Host.scatterAdd scatter_S237x128_S400000x1_S400000x128_1_0_0_1 x i u) : (⟨S237x128, .f32⟩ : BufTy).Contents (Elt F) → (⟨S400000x1, .i32⟩ : BufTy).Contents (Elt F) → (⟨S400000x128, .f32⟩ : BufTy).Contents (Elt F) → (⟨S237x128, .f32⟩ : BufTy).Contents (Elt F)),
    StableHlo.nullary main_cst_9 (constant S_ .f32 0x3F800000#32),
    StableHlo.unary main_cst_9 main_v56 (broadcastInDim S400000x1 ![] bcast_S_S400000x1 : (⟨S_, .f32⟩ : BufTy).Contents (Elt F) → (⟨S400000x1, .f32⟩ : BufTy).Contents (Elt F)),
    StableHlo.nullary main_cst_10 (constant S_ .f32 0x00000000#32),
    StableHlo.unary main_cst_10 main_v57 (broadcastInDim S237x1 ![] bcast_S_S237x1 : (⟨S_, .f32⟩ : BufTy).Contents (Elt F) → (⟨S237x1, .f32⟩ : BufTy).Contents (Elt F)),
    StableHlo.unary main_v5 main_v58 (broadcastInDim S400000x1 ![0] bcast_S400000_S400000x1_0 : (⟨S400000, .i32⟩ : BufTy).Contents (Elt F) → (⟨S400000x1, .i32⟩ : BufTy).Contents (Elt F)),
    StableHlo.ternary main_v57 main_v58 main_v56 main_v59 ((fun x i u => Host.scatterAdd scatter_S237x1_S400000x1_S400000x1_1_0_0_1 x i u) : (⟨S237x1, .f32⟩ : BufTy).Contents (Elt F) → (⟨S400000x1, .i32⟩ : BufTy).Contents (Elt F) → (⟨S400000x1, .f32⟩ : BufTy).Contents (Elt F) → (⟨S237x1, .f32⟩ : BufTy).Contents (Elt F)),
    StableHlo.nullary main_cst_11 (constant S_ .f32 0x3F800000#32),
    StableHlo.unary main_cst_11 main_v60 (broadcastInDim S237x1 ![] bcast_S_S237x1 : (⟨S_, .f32⟩ : BufTy).Contents (Elt F) → (⟨S237x1, .f32⟩ : BufTy).Contents (Elt F)),
    StableHlo.binary main_v59 main_v60 main_v61 (maximumf : (⟨S237x1, .f32⟩ : BufTy).Contents (Elt F) → (⟨S237x1, .f32⟩ : BufTy).Contents (Elt F) → (⟨S237x1, .f32⟩ : BufTy).Contents (Elt F)),
    StableHlo.unary main_v61 main_v62 (broadcastInDim S237x128 ![0, 1] bcast_S237x1_S237x128_0_1 : (⟨S237x1, .f32⟩ : BufTy).Contents (Elt F) → (⟨S237x128, .f32⟩ : BufTy).Contents (Elt F)),
    StableHlo.binary main_v55 main_v62 main_v63 (Host.divf : (⟨S237x128, .f32⟩ : BufTy).Contents (Elt F) → (⟨S237x128, .f32⟩ : BufTy).Contents (Elt F) → (⟨S237x128, .f32⟩ : BufTy).Contents (Elt F)),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S100000x128, .f32⟩) (broadcastInDim S100000x128 ![] bcast_S_S100000x128),
    StableHlo.TRef.binary (.of main_v52 : StableHlo.TRef sig ⟨S100000x128, .f32⟩) (.of main_call2_v0 : StableHlo.TRef sig ⟨S100000x128, .f32⟩) (.of main_call2_v1 : StableHlo.TRef sig ⟨S100000x128, .i1⟩) (cmpf .ogt),
    StableHlo.TRef.nullary (.of main_call2_cst_0 : StableHlo.TRef sig ⟨S_, .f32⟩) (constant S_ .f32 0x00000000#32),
    StableHlo.TRef.unary (.of main_call2_cst_0 : StableHlo.TRef sig ⟨S_, .f32⟩) (.of main_call2_v2 : StableHlo.TRef sig ⟨S100000x128, .f32⟩) (broadcastInDim S100000x128 ![] bcast_S_S100000x128),
    StableHlo.TRef.binary (.of main_v52 : StableHlo.TRef sig ⟨S100000x128, .f32⟩) (.of main_call2_v2 : StableHlo.TRef sig ⟨S100000x128, .f32⟩) (.of main_call2_v3 : StableHlo.TRef sig ⟨S100000x128, .i1⟩) (cmpf .ogt),
    StableHlo.TRef.nullary (.of main_call2_cst_1 : StableHlo.TRef sig ⟨S_, .f32⟩) (constant S_ .f32 0x00000000#32),
    StableHlo.TRef.unary (.of main_call2_cst_1 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S100000x128, .f32⟩) (broadcastInDim S100000x128 ![] bcast_S_S100000x128),
    StableHlo.TRef.ternary (.of main_call2_v3 : StableHlo.TRef sig ⟨S100000x128, .i1⟩) (.of main_call2_call0_v1 : StableHlo.TRef sig ⟨S100000x128, .f32⟩) (.of main_v52 : StableHlo.TRef sig ⟨S100000x128, .f32⟩) (.of main_call2_v4 : StableHlo.TRef sig ⟨S100000x128, .f32⟩) select,
    StableHlo.TRef.unary (.of main_call2_v4 : StableHlo.TRef sig ⟨S100000x128, .f32⟩) (.of main_call2_v5 : StableHlo.TRef sig ⟨S100000x128, .f32⟩) Host.expm1,
    StableHlo.TRef.nullary (.of main_call2_cst_2 : StableHlo.TRef sig ⟨S_, .f32⟩) (constant S_ .f32 0x3F800000#32),
    StableHlo.TRef.unary (.of main_call2_cst_2 : StableHlo.TRef sig ⟨S_, .f32⟩) (.of main_call2_v6 : StableHlo.TRef sig ⟨S100000x128, .f32⟩) (broadcastInDim S100000x128 ![] bcast_S_S100000x128),
    StableHlo.TRef.binary (.of main_call2_v6 : StableHlo.TRef sig ⟨S100000x128, .f32⟩) (.of main_call2_v5 : StableHlo.TRef sig ⟨S100000x128, .f32⟩) (.of main_call2_v7 : StableHlo.TRef sig ⟨S100000x128, .f32⟩) mulf,
    StableHlo.TRef.ternary (.of main_call2_v1 : StableHlo.TRef sig ⟨S100000x128, .i1⟩) (.of main_v52 : StableHlo.TRef sig ⟨S100000x128, .f32⟩) (.of main_call2_v7 : StableHlo.TRef sig ⟨S100000x128, .f32⟩) (.of main_v64 : StableHlo.TRef sig ⟨S100000x128, .f32⟩) select,
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S237x128, .f32⟩) (broadcastInDim S237x128 ![] bcast_S_S237x128),
    StableHlo.TRef.binary (.of main_v63 : StableHlo.TRef sig ⟨S237x128, .f32⟩) (.of main_call3_v0 : StableHlo.TRef sig ⟨S237x128, .f32⟩) (.of main_call3_v1 : StableHlo.TRef sig ⟨S237x128, .i1⟩) (cmpf .ogt),
    StableHlo.TRef.nullary (.of main_call3_cst_0 : StableHlo.TRef sig ⟨S_, .f32⟩) (constant S_ .f32 0x00000000#32),
    StableHlo.TRef.unary (.of main_call3_cst_0 : StableHlo.TRef sig ⟨S_, .f32⟩) (.of main_call3_v2 : StableHlo.TRef sig ⟨S237x128, .f32⟩) (broadcastInDim S237x128 ![] bcast_S_S237x128),
    StableHlo.TRef.binary (.of main_v63 : StableHlo.TRef sig ⟨S237x128, .f32⟩) (.of main_call3_v2 : StableHlo.TRef sig ⟨S237x128, .f32⟩) (.of main_call3_v3 : StableHlo.TRef sig ⟨S237x128, .i1⟩) (cmpf .ogt),
    StableHlo.TRef.nullary (.of main_call3_cst_1 : StableHlo.TRef sig ⟨S_, .f32⟩) (constant S_ .f32 0x00000000#32),
    StableHlo.TRef.unary (.of main_call3_cst_1 : StableHlo.TRef sig ⟨S_, .f32⟩) (.of main_call3_call0_v0 : StableHlo.TRef sig ⟨S_, .f32⟩) id,
    StableHlo.TRef.unary (.of main_call3_call0_v0 : StableHlo.TRef sig ⟨S_, .f32⟩) (.of main_call3_call0_v1 : StableHlo.TRef sig ⟨S237x128, .f32⟩) (broadcastInDim S237x128 ![] bcast_S_S237x128),
    StableHlo.TRef.ternary (.of main_call3_v3 : StableHlo.TRef sig ⟨S237x128, .i1⟩) (.of main_call3_call0_v1 : StableHlo.TRef sig ⟨S237x128, .f32⟩) (.of main_v63 : StableHlo.TRef sig ⟨S237x128, .f32⟩) (.of main_call3_v4 : StableHlo.TRef sig ⟨S237x128, .f32⟩) select,
    StableHlo.TRef.unary (.of main_call3_v4 : StableHlo.TRef sig ⟨S237x128, .f32⟩) (.of main_call3_v5 : StableHlo.TRef sig ⟨S237x128, .f32⟩) Host.expm1,
    StableHlo.TRef.nullary (.of main_call3_cst_2 : StableHlo.TRef sig ⟨S_, .f32⟩) (constant S_ .f32 0x3F800000#32),
    StableHlo.TRef.unary (.of main_call3_cst_2 : StableHlo.TRef sig ⟨S_, .f32⟩) (.of main_call3_v6 : StableHlo.TRef sig ⟨S237x128, .f32⟩) (broadcastInDim S237x128 ![] bcast_S_S237x128),
    StableHlo.TRef.binary (.of main_call3_v6 : StableHlo.TRef sig ⟨S237x128, .f32⟩) (.of main_call3_v5 : StableHlo.TRef sig ⟨S237x128, .f32⟩) (.of main_call3_v7 : StableHlo.TRef sig ⟨S237x128, .f32⟩) mulf,
    StableHlo.TRef.ternary (.of main_call3_v1 : StableHlo.TRef sig ⟨S237x128, .i1⟩) (.of main_v63 : StableHlo.TRef sig ⟨S237x128, .f32⟩) (.of main_call3_v7 : StableHlo.TRef sig ⟨S237x128, .f32⟩) (.of main_v65 : StableHlo.TRef sig ⟨S237x128, .f32⟩) select ]

-- 116 binds re-associated: the rewrite under the chain recurses once per statement
set_option maxRecDepth 8192 in
set_option maxHeartbeats 4000000 in
/-- @main is that straight line: the two windows in order, the functions' definitions unfolded at their calls and
    the records at their fields; both sides are one chain of `hlo` steps once sequencing is reassociated. -/
theorem main_eq (c : Dev nD) : main (F := F) c = seq ops := by
  simp only [main, main_part0, main_part1, fn_leaky_relu.body, fn_where.body, fn_where_0.body, fn_elu.body, fn_where_1.body,
    fn_where_2.body, fn_elu_3.body, fn_where_4.body, fn_where_5.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., unary_bufs_sub .., binary_bufs_sub .., unary_bufs_sub .., unary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., unary_bufs_sub .., ternary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

/-- From any memory with zero counters: every weakly fair execution of @main terminates, and every final state has
    each buffer at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The stages

Each is the printed composition of the operations between two values of the program, as a function of the arrays it
reads. -/

/-- `main_v1`: column 0 of the index table (the triples' first entries), as a vector. -/
def srcIdx (a0 : IVec S400000x3 32) : IVec S400000 32 :=
  shapeCast S400000 (extractStridedSlice S400000x1 ![0, 0] a0 slices_S400000x3_S400000x1_0_0) shapeCasts_S400000x1_S400000

/-- `main_v3`: column 1 of the index table (the triples' second entries), as a vector. -/
def dstIdx (a0 : IVec S400000x3 32) : IVec S400000 32 :=
  shapeCast S400000 (extractStridedSlice S400000x1 ![0, 1] a0 slices_S400000x3_S400000x1_0_1) shapeCasts_S400000x1_S400000

/-- `main_v5`: column 2 of the index table (the triples' third entries), as a vector. -/
def relIdx (a0 : IVec S400000x3 32) : IVec S400000 32 :=
  shapeCast S400000 (extractStridedSlice S400000x1 ![0, 2] a0 slices_S400000x3_S400000x1_0_2) shapeCasts_S400000x1_S400000

/-- A gather's start indices from an index vector: an index below zero is taken from the end of an axis of `n` rows
    (`select (idx < 0) (idx + n) idx`), the vector then read as a one-column table. -/
def wrapIdx (n : BitVec 32) (idx : IVec S400000 32) : IVec S400000x1 32 :=
  broadcastInDim S400000x1 ![0] bcast_S400000_S400000x1_0
    (select (cmpi .slt idx (broadcastInDim S400000 ![] bcast_S_S400000 (constantI S_ 32 0#32)))
      (addi idx (broadcastInDim S400000 ![] bcast_S_S400000 (constantI S_ 32 n)))
      idx)

/-- `main_v27`: per triple, the rows of `a1` at its first entry, of `a2` at its third and of `a1` at its second, side by
    side (400000 × 384). -/
def Hcat (a0 : IVec S400000x3 32) (a1 : FVec F S100000x128 .f32) (a2 : FVec F S237x128 .f32) : FVec F S400000x384 .f32 :=
  concatenate S400000x384 1
    [⟨S400000x128, Host.gather gather_S100000x128_S400000x1_S400000x128_1_0_n_n_0_1_1128 a1 (wrapIdx 100000#32 (srcIdx a0))⟩,
     ⟨S400000x128, Host.gather gather_S237x128_S400000x1_S400000x128_1_0_n_n_0_1_1128 a2 (wrapIdx 237#32 (relIdx a0))⟩,
     ⟨S400000x128, Host.gather gather_S100000x128_S400000x1_S400000x128_1_0_n_n_0_1_1128 a1 (wrapIdx 100000#32 (dstIdx a0))⟩]
    concatenates_S400000x128_S400000x128_S400000x128_S400000x384_d1

/-- `main_v32`: `H · a3ᵀ + a4`, the bias broadcast over the rows. -/
def cArr (H : FVec F S400000x384 .f32) (a3 : FVec F S128x384 .f32) (a4 : FVec F S128 .f32) : FVec F S400000x128 .f32 :=
  addf
    (Host.dotGeneral (F := F) dot_S400000x384_S384x128_S400000x128_1_0_0_1_n_n none H
      (transpose S384x128 [1, 0] a3 transposes_S128x384_S384x128_1_0))
    (broadcastInDim S400000x128 ![0, 1] bcast_S1x128_S400000x128_0_1 (broadcastInDim S1x128 ![1] bcast_S128_S1x128_1 a4))

/-- @leaky_relu: `select (x ≥ 0) x (0.01 · x)`. -/
def leakyRelu (x : FVec F S400000x1 .f32) : FVec F S400000x1 .f32 :=
  select (cmpf .oge x (broadcastInDim S400000x1 ![] bcast_S_S400000x1 (constant (F := F) S_ .f32 0x00000000#32)))
    x
    (mulf (broadcastInDim S400000x1 ![] bcast_S_S400000x1 (constant (F := F) S_ .f32 0x3C23D70A#32)) x)

/-- `main_v39`: `exp (leaky_relu (cc · a5ᵀ + a6))`, one value per triple. -/
def ebArr (cc : FVec F S400000x128 .f32) (a5 : FVec F S1x128 .f32) (a6 : FVec F S1 .f32) : FVec F S400000x1 .f32 :=
  Host.exp (F := F)
    (leakyRelu
      (addf
        (Host.dotGeneral (F := F) dot_S400000x128_S128x1_S400000x1_1_0_0_1_n_n none cc
          (transpose S128x1 [1, 0] a5 transposes_S1x128_S128x1_1_0))
        (broadcastInDim S400000x1 ![0, 1] bcast_S1x1_S400000x1_0_1 (broadcastInDim S1x1 ![1] bcast_S1_S1x1_1 a6))))

/-- `main_v44`: each triple's row of `cc` scaled by its value of `eb`. -/
def tempArr (eb : FVec F S400000x1 .f32) (cc : FVec F S400000x128 .f32) : FVec F S400000x128 .f32 :=
  mulf (broadcastInDim S400000x128 ![0, 1] bcast_S400000x1_S400000x128_0_1 eb) cc

/-- `main_v42`: per row of the first table, the sum of `eb` over the triples whose first entry is that row. -/
def entDenom (eb : FVec F S400000x1 .f32) (src : IVec S400000 32) : FVec F S100000x1 .f32 :=
  Host.scatterAdd (F := F) scatter_S100000x1_S400000x1_S400000x1_1_0_0_1
    (broadcastInDim S100000x1 ![] bcast_S_S100000x1 (constant (F := F) S_ .f32 0x00000000#32))
    (broadcastInDim S400000x1 ![0] bcast_S400000_S400000x1_0 src) eb

/-- `main_v50` (@_where_0): a sum that is zero replaced by `1e-12`. -/
def safeDenom (d : FVec F S100000x1 .f32) : FVec F S100000x1 .f32 :=
  select (cmpf .oeq d (broadcastInDim S100000x1 ![] bcast_S_S100000x1 (constant (F := F) S_ .f32 0x00000000#32)))
    (broadcastInDim S100000x1 ![] bcast_S_S100000x1 (id (constant (F := F) S_ .f32 0x2B8CBCCC#32)))
    d

/-- @elu: `select (x > 0) x (1 · expm1 (select (x > 0) 0 x))`. -/
def eluEnt (x : FVec F S100000x128 .f32) : FVec F S100000x128 .f32 :=
  select (cmpf .ogt x (broadcastInDim S100000x128 ![] bcast_S_S100000x128 (constant (F := F) S_ .f32 0x00000000#32)))
    x
    (mulf (broadcastInDim S100000x128 ![] bcast_S_S100000x128 (constant (F := F) S_ .f32 0x3F800000#32))
      (Host.expm1 (F := F)
        (select (cmpf .ogt x (broadcastInDim S100000x128 ![] bcast_S_S100000x128 (constant (F := F) S_ .f32 0x00000000#32)))
          (broadcastInDim S100000x128 ![] bcast_S_S100000x128 (id (constant (F := F) S_ .f32 0x00000000#32)))
          x)))

/-- @elu_3: the same at 237 × 128. -/
def eluRel (x : FVec F S237x128 .f32) : FVec F S237x128 .f32 :=
  select (cmpf .ogt x (broadcastInDim S237x128 ![] bcast_S_S237x128 (constant (F := F) S_ .f32 0x00000000#32)))
    x
    (mulf (broadcastInDim S237x128 ![] bcast_S_S237x128 (constant (F := F) S_ .f32 0x3F800000#32))
      (Host.expm1 (F := F)
        (select (cmpf .ogt x (broadcastInDim S237x128 ![] bcast_S_S237x128 (constant (F := F) S_ .f32 0x00000000#32)))
          (broadcastInDim S237x128 ![] bcast_S_S237x128 (id (constant (F := F) S_ .f32 0x00000000#32)))
          x)))

/-- `main_v52`: per row of the first table, the sum of the triples' rows of `tmp` over the triples whose first entry is that
    row, divided by the sum of their values of `eb` (a zero sum read as `1e-12`). -/
def entPre (eb : FVec F S400000x1 .f32) (tmp : FVec F S400000x128 .f32) (src : IVec S400000 32) : FVec F S100000x128 .f32 :=
  Host.divf (F := F)
    (Host.scatterAdd (F := F) scatter_S100000x128_S400000x1_S400000x128_1_0_0_1
      (broadcastInDim S100000x128 ![] bcast_S_S100000x128 (constant (F := F) S_ .f32 0x00000000#32))
      (broadcastInDim S400000x1 ![0] bcast_S400000_S400000x1_0 src) tmp)
    (broadcastInDim S100000x128 ![0, 1] bcast_S100000x1_S100000x128_0_1 (safeDenom (entDenom eb src)))

/-- `main_v64`: that quotient through @elu. -/
def tailEnt (eb : FVec F S400000x1 .f32) (tmp : FVec F S400000x128 .f32) (src : IVec S400000 32) : FVec F S100000x128 .f32 :=
  eluEnt (entPre eb tmp src)

/-- `main_v63`: per row of the second table, the sum of the triples' rows of `tmp` over the triples whose third entry is that
    row, divided by their number (at least one). -/
def relPre (tmp : FVec F S400000x128 .f32) (rel : IVec S400000 32) : FVec F S237x128 .f32 :=
  Host.divf (F := F)
    (Host.scatterAdd (F := F) scatter_S237x128_S400000x1_S400000x128_1_0_0_1
      (broadcastInDim S237x128 ![] bcast_S_S237x128 (constant (F := F) S_ .f32 0x00000000#32))
      (broadcastInDim S400000x1 ![0] bcast_S400000_S400000x1_0 rel) tmp)
    (broadcastInDim S237x128 ![0, 1] bcast_S237x1_S237x128_0_1
      (maximumf
        (Host.scatterAdd (F := F) scatter_S237x1_S400000x1_S400000x1_1_0_0_1
          (broadcastInDim S237x1 ![] bcast_S_S237x1 (constant (F := F) S_ .f32 0x00000000#32))
          (broadcastInDim S400000x1 ![0] bcast_S400000_S400000x1_0 rel)
          (broadcastInDim S400000x1 ![] bcast_S_S400000x1 (constant (F := F) S_ .f32 0x3F800000#32)))
        (broadcastInDim S237x1 ![] bcast_S_S237x1 (constant (F := F) S_ .f32 0x3F800000#32))))

/-- `main_v65`: that quotient through @elu_3. -/
def tailRel (tmp : FVec F S400000x128 .f32) (rel : IVec S400000 32) : FVec F S237x128 .f32 :=
  eluRel (relPre tmp rel)

/-- The first result as a function of the seven arguments. -/
def outEnt (a0 : IVec S400000x3 32) (a1 : FVec F S100000x128 .f32) (a2 : FVec F S237x128 .f32) (a3 : FVec F S128x384 .f32)
    (a4 : FVec F S128 .f32) (a5 : FVec F S1x128 .f32) (a6 : FVec F S1 .f32) : FVec F S100000x128 .f32 :=
  tailEnt (ebArr (cArr (Hcat a0 a1 a2) a3 a4) a5 a6)
    (tempArr (ebArr (cArr (Hcat a0 a1 a2) a3 a4) a5 a6) (cArr (Hcat a0 a1 a2) a3 a4)) (srcIdx a0)

/-- The second result as a function of the seven arguments. -/
def outRel (a0 : IVec S400000x3 32) (a1 : FVec F S100000x128 .f32) (a2 : FVec F S237x128 .f32) (a3 : FVec F S128x384 .f32)
    (a4 : FVec F S128 .f32) (a5 : FVec F S1x128 .f32) (a6 : FVec F S1 .f32) : FVec F S237x128 .f32 :=
  tailRel (tempArr (ebArr (cArr (Hcat a0 a1 a2) a3 a4) a5 a6) (cArr (Hcat a0 a1 a2) a3 a4)) (relIdx a0)

/-! ## The run in ten windows

The operations in ten consecutive windows, each ending at a value a stage is named for; after each window, what the
buffers still read later hold, as stage terms of the arguments' contents. -/

/-- The fold of two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Operations 1 … 6. -/
abbrev opsA : List (HloOp τ sig (Elt F)) :=
  [ StableHlo.unary main_arg0 main_v0 ((extractStridedSlice S400000x1 ![0, 0] · slices_S400000x3_S400000x1_0_0) : (⟨S400000x3, .i32⟩ : BufTy).Contents (Elt F) → (⟨S400000x1, .i32⟩ : BufTy).Contents (Elt F)),
    StableHlo.reshape main_v0 main_v1 rfl shapeCasts_S400000x1_S400000,
    StableHlo.unary main_arg0 main_v2 ((extractStridedSlice S400000x1 ![0, 1] · slices_S400000x3_S400000x1_0_1) : (⟨S400000x3, .i32⟩ : BufTy).Contents (Elt F) → (⟨S400000x1, .i32⟩ : BufTy).Contents (Elt F)),
    StableHlo.reshape main_v2 main_v3 rfl shapeCasts_S400000x1_S400000,
    StableHlo.unary main_arg0 main_v4 ((extractStridedSlice S400000x1 ![0, 2] · slices_S400000x3_S400000x1_0_2) : (⟨S400000x3, .i32⟩ : BufTy).Contents (Elt F) → (⟨S400000x1, .i32⟩ : BufTy).Contents (Elt F)),
    StableHlo.reshape main_v4 main_v5 rfl shapeCasts_S400000x1_S400000 ]
/-- The buffers they write. -/
abbrev opsA_W : List (Ref sig .tc) := [main_v0, main_v1, main_v2, main_v3, main_v4, main_v5]
theorem opsA_writes : (opsA : List (HloOp τ sig (Elt F))).Forall fun op => op.writes ⊆ (opsA_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers' contents after the first 1 window. -/
def val1 (V : Valuation τ sig (Elt F)) : Valuation τ sig (Elt F) := after opsA V
/-- A buffer the window does not write keeps its contents through it. -/
theorem val1_keep (V : Valuation τ sig (Elt F)) (r : Ref sig .tc) (h : r ∉ opsA_W) :
    val1 V (Proc.devRef .tc r) = V (Proc.devRef .tc r) :=
  after_of_writes_sub opsA _ opsA_writes h
set_option maxRecDepth 16384 in
set_option maxHeartbeats 4000000 in
theorem val1_main_v1 (V : Valuation τ sig (Elt F)) : val1 V (no_index (Proc.devRef .tc main_v1)) = (srcIdx (V (main_arg0 : DevRef τ sig))) := by
  unfold val1
  simp only [opsA]
  (after_results3) <;> (try rfl)
set_option maxRecDepth 16384 in
set_option maxHeartbeats 4000000 in
theorem val1_main_v3 (V : Valuation τ sig (Elt F)) : val1 V (no_index (Proc.devRef .tc main_v3)) = (dstIdx (V (main_arg0 : DevRef τ sig))) := by
  unfold val1
  simp only [opsA]
  (after_results3) <;> (try rfl)
set_option maxRecDepth 16384 in
set_option maxHeartbeats 4000000 in
theorem val1_main_v5 (V : Valuation τ sig (Elt F)) : val1 V (no_index (Proc.devRef .tc main_v5)) = (relIdx (V (main_arg0 : DevRef τ sig))) := by
  unfold val1
  simp only [opsA]
  (after_results3) <;> (try rfl)
theorem val1_main_arg0 (V : Valuation τ sig (Elt F)) : val1 V (no_index (Proc.devRef .tc main_arg0)) = (V (main_arg0 : DevRef τ sig)) :=
  val1_keep V main_arg0 (by decide)
theorem val1_main_arg1 (V : Valuation τ sig (Elt F)) : val1 V (no_index (Proc.devRef .tc main_arg1)) = (V (main_arg1 : DevRef τ sig)) :=
  val1_keep V main_arg1 (by decide)
theorem val1_main_arg2 (V : Valuation τ sig (Elt F)) : val1 V (no_index (Proc.devRef .tc main_arg2)) = (V (main_arg2 : DevRef τ sig)) :=
  val1_keep V main_arg2 (by decide)
theorem val1_main_arg3 (V : Valuation τ sig (Elt F)) : val1 V (no_index (Proc.devRef .tc main_arg3)) = (V (main_arg3 : DevRef τ sig)) :=
  val1_keep V main_arg3 (by decide)
theorem val1_main_arg4 (V : Valuation τ sig (Elt F)) : val1 V (no_index (Proc.devRef .tc main_arg4)) = (V (main_arg4 : DevRef τ sig)) :=
  val1_keep V main_arg4 (by decide)
theorem val1_main_arg5 (V : Valuation τ sig (Elt F)) : val1 V (no_index (Proc.devRef .tc main_arg5)) = (V (main_arg5 : DevRef τ sig)) :=
  val1_keep V main_arg5 (by decide)
theorem val1_main_arg6 (V : Valuation τ sig (Elt F)) : val1 V (no_index (Proc.devRef .tc main_arg6)) = (V (main_arg6 : DevRef τ sig)) :=
  val1_keep V main_arg6 (by decide)

/-- Operations 7 … 34. -/
abbrev opsB : List (HloOp τ sig (Elt F)) :=
  [ StableHlo.nullary main_c (constantI S_ 32 0#32),
    StableHlo.unary main_c main_v6 (broadcastInDim S400000 ![] bcast_S_S400000 : (⟨S_, .i32⟩ : BufTy).Contents (Elt F) → (⟨S400000, .i32⟩ : BufTy).Contents (Elt F)),
    StableHlo.binary main_v1 main_v6 main_v7 (cmpi .slt : (⟨S400000, .i32⟩ : BufTy).Contents (Elt F) → (⟨S400000, .i32⟩ : BufTy).Contents (Elt F) → (⟨S400000, .i1⟩ : BufTy).Contents (Elt F)),
    StableHlo.nullary main_c_0 (constantI S_ 32 100000#32),
    StableHlo.unary main_c_0 main_v8 (broadcastInDim S400000 ![] bcast_S_S400000 : (⟨S_, .i32⟩ : BufTy).Contents (Elt F) → (⟨S400000, .i32⟩ : BufTy).Contents (Elt F)),
    StableHlo.binary main_v1 main_v8 main_v9 (addi : (⟨S400000, .i32⟩ : BufTy).Contents (Elt F) → (⟨S400000, .i32⟩ : BufTy).Contents (Elt F) → (⟨S400000, .i32⟩ : BufTy).Contents (Elt F)),
    StableHlo.ternary main_v7 main_v9 main_v1 main_v10 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v10 main_v11 (broadcastInDim S400000x1 ![0] bcast_S400000_S400000x1_0 : (⟨S400000, .i32⟩ : BufTy).Contents (Elt F) → (⟨S400000x1, .i32⟩ : BufTy).Contents (Elt F)),
    StableHlo.binary main_arg1 main_v11 main_v12 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F)),
    StableHlo.nullary main_c_1 (constantI S_ 32 0#32),
    StableHlo.unary main_c_1 main_v13 (broadcastInDim S400000 ![] bcast_S_S400000 : (⟨S_, .i32⟩ : BufTy).Contents (Elt F) → (⟨S400000, .i32⟩ : BufTy).Contents (Elt F)),
    StableHlo.binary main_v5 main_v13 main_v14 (cmpi .slt : (⟨S400000, .i32⟩ : BufTy).Contents (Elt F) → (⟨S400000, .i32⟩ : BufTy).Contents (Elt F) → (⟨S400000, .i1⟩ : BufTy).Contents (Elt F)),
    StableHlo.nullary main_c_2 (constantI S_ 32 237#32),
    StableHlo.unary main_c_2 main_v15 (broadcastInDim S400000 ![] bcast_S_S400000 : (⟨S_, .i32⟩ : BufTy).Contents (Elt F) → (⟨S400000, .i32⟩ : BufTy).Contents (Elt F)),
    StableHlo.binary main_v5 main_v15 main_v16 (addi : (⟨S400000, .i32⟩ : BufTy).Contents (Elt F) → (⟨S400000, .i32⟩ : BufTy).Contents (Elt F) → (⟨S400000, .i32⟩ : BufTy).Contents (Elt F)),
    StableHlo.ternary main_v14 main_v16 main_v5 main_v17 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v17 main_v18 (broadcastInDim S400000x1 ![0] bcast_S400000_S400000x1_0 : (⟨S400000, .i32⟩ : BufTy).Contents (Elt F) → (⟨S400000x1, .i32⟩ : BufTy).Contents (Elt F)),
    StableHlo.binary main_arg2 main_v18 main_v19 ((fun x i => Host.gather gather_S237x128_S400000x1_S400000x128_1_0_n_n_0_1_1128 x i) : (⟨S237x128, .f32⟩ : BufTy).Contents (Elt F) → (⟨S400000x1, .i32⟩ : BufTy).Contents (Elt F) → (⟨S400000x128, .f32⟩ : BufTy).Contents (Elt F)),
    StableHlo.nullary main_c_3 (constantI S_ 32 0#32),
    StableHlo.unary main_c_3 main_v20 (broadcastInDim S400000 ![] bcast_S_S400000 : (⟨S_, .i32⟩ : BufTy).Contents (Elt F) → (⟨S400000, .i32⟩ : BufTy).Contents (Elt F)),
    StableHlo.binary main_v3 main_v20 main_v21 (cmpi .slt : (⟨S400000, .i32⟩ : BufTy).Contents (Elt F) → (⟨S400000, .i32⟩ : BufTy).Contents (Elt F) → (⟨S400000, .i1⟩ : BufTy).Contents (Elt F)),
    StableHlo.nullary main_c_4 (constantI S_ 32 100000#32),
    StableHlo.unary main_c_4 main_v22 (broadcastInDim S400000 ![] bcast_S_S400000 : (⟨S_, .i32⟩ : BufTy).Contents (Elt F) → (⟨S400000, .i32⟩ : BufTy).Contents (Elt F)),
    StableHlo.binary main_v3 main_v22 main_v23 (addi : (⟨S400000, .i32⟩ : BufTy).Contents (Elt F) → (⟨S400000, .i32⟩ : BufTy).Contents (Elt F) → (⟨S400000, .i32⟩ : BufTy).Contents (Elt F)),
    StableHlo.ternary main_v21 main_v23 main_v3 main_v24 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v24 main_v25 (broadcastInDim S400000x1 ![0] bcast_S400000_S400000x1_0 : (⟨S400000, .i32⟩ : BufTy).Contents (Elt F) → (⟨S400000x1, .i32⟩ : BufTy).Contents (Elt F)),
    StableHlo.binary main_arg1 main_v25 main_v26 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F)),
    StableHlo.nary ![main_v12, main_v19, main_v26] main_v27 (fun u => concatenate S400000x384 1 [⟨S400000x128, u 0⟩, ⟨S400000x128, u 1⟩, ⟨S400000x128, u 2⟩] concatenates_S400000x128_S400000x128_S400000x128_S400000x384_d1) ]
/-- The buffers they write. -/
abbrev opsB_W : List (Ref sig .tc) := [main_c, main_v6, main_v7, main_c_0, main_v8, main_v9, main_v10, main_v11, main_v12, main_c_1, main_v13, main_v14, main_c_2, main_v15, main_v16, main_v17, main_v18, main_v19, main_c_3, main_v20, main_v21, main_c_4, main_v22, main_v23, main_v24, main_v25, main_v26, main_v27]
theorem opsB_writes : (opsB : List (HloOp τ sig (Elt F))).Forall fun op => op.writes ⊆ (opsB_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers' contents after the first 2 windows. -/
def val2 (V : Valuation τ sig (Elt F)) : Valuation τ sig (Elt F) := after opsB (val1 V)
/-- A buffer the window does not write keeps its contents through it. -/
theorem val2_keep (V : Valuation τ sig (Elt F)) (r : Ref sig .tc) (h : r ∉ opsB_W) :
    val2 V (Proc.devRef .tc r) = (val1 V) (Proc.devRef .tc r) :=
  after_of_writes_sub opsB _ opsB_writes h
set_option maxRecDepth 16384 in
set_option maxHeartbeats 4000000 in
theorem val2_main_v27 (V : Valuation τ sig (Elt F)) : val2 V (no_index (Proc.devRef .tc main_v27)) = (Hcat (V (main_arg0 : DevRef τ sig)) (V (main_arg1 : DevRef τ sig)) (V (main_arg2 : DevRef τ sig))) := by
  unfold val2
  simp only [opsB]
  (after_results3) <;> (try simp only [val1_main_v1, val1_main_v3, val1_main_v5, val1_main_arg1, val1_main_arg2]) <;> (try rfl)
theorem val2_main_v1 (V : Valuation τ sig (Elt F)) : val2 V (no_index (Proc.devRef .tc main_v1)) = (srcIdx (V (main_arg0 : DevRef τ sig))) :=
  (val2_keep V main_v1 (by decide)).trans (val1_main_v1 V)
theorem val2_main_v5 (V : Valuation τ sig (Elt F)) : val2 V (no_index (Proc.devRef .tc main_v5)) = (relIdx (V (main_arg0 : DevRef τ sig))) :=
  (val2_keep V main_v5 (by decide)).trans (val1_main_v5 V)
theorem val2_main_arg0 (V : Valuation τ sig (Elt F)) : val2 V (no_index (Proc.devRef .tc main_arg0)) = (V (main_arg0 : DevRef τ sig)) :=
  (val2_keep V main_arg0 (by decide)).trans (val1_main_arg0 V)
theorem val2_main_arg1 (V : Valuation τ sig (Elt F)) : val2 V (no_index (Proc.devRef .tc main_arg1)) = (V (main_arg1 : DevRef τ sig)) :=
  (val2_keep V main_arg1 (by decide)).trans (val1_main_arg1 V)
theorem val2_main_arg2 (V : Valuation τ sig (Elt F)) : val2 V (no_index (Proc.devRef .tc main_arg2)) = (V (main_arg2 : DevRef τ sig)) :=
  (val2_keep V main_arg2 (by decide)).trans (val1_main_arg2 V)
theorem val2_main_arg3 (V : Valuation τ sig (Elt F)) : val2 V (no_index (Proc.devRef .tc main_arg3)) = (V (main_arg3 : DevRef τ sig)) :=
  (val2_keep V main_arg3 (by decide)).trans (val1_main_arg3 V)
theorem val2_main_arg4 (V : Valuation τ sig (Elt F)) : val2 V (no_index (Proc.devRef .tc main_arg4)) = (V (main_arg4 : DevRef τ sig)) :=
  (val2_keep V main_arg4 (by decide)).trans (val1_main_arg4 V)
theorem val2_main_arg5 (V : Valuation τ sig (Elt F)) : val2 V (no_index (Proc.devRef .tc main_arg5)) = (V (main_arg5 : DevRef τ sig)) :=
  (val2_keep V main_arg5 (by decide)).trans (val1_main_arg5 V)
theorem val2_main_arg6 (V : Valuation τ sig (Elt F)) : val2 V (no_index (Proc.devRef .tc main_arg6)) = (V (main_arg6 : DevRef τ sig)) :=
  (val2_keep V main_arg6 (by decide)).trans (val1_main_arg6 V)

/-- Operations 35 … 39. -/
abbrev opsC : List (HloOp τ sig (Elt F)) :=
  [ StableHlo.unary main_arg3 main_v28 ((transpose S384x128 [1, 0] · transposes_S128x384_S384x128_1_0) : (⟨S128x384, .f32⟩ : BufTy).Contents (Elt F) → (⟨S384x128, .f32⟩ : BufTy).Contents (Elt F)),
    StableHlo.binary main_v27 main_v28 main_v29 ((fun l r => Host.dotGeneral dot_S400000x384_S384x128_S400000x128_1_0_0_1_n_n none l r) : (⟨S400000x384, .f32⟩ : BufTy).Contents (Elt F) → (⟨S384x128, .f32⟩ : BufTy).Contents (Elt F) → (⟨S400000x128, .f32⟩ : BufTy).Contents (Elt F)),
    StableHlo.unary main_arg4 main_v30 (broadcastInDim S1x128 ![1] bcast_S128_S1x128_1 : (⟨S128, .f32⟩ : BufTy).Contents (Elt F) → (⟨S1x128, .f32⟩ : BufTy).Contents (Elt F)),
    StableHlo.unary main_v30 main_v31 (broadcastInDim S400000x128 ![0, 1] bcast_S1x128_S400000x128_0_1 : (⟨S1x128, .f32⟩ : BufTy).Contents (Elt F) → (⟨S400000x128, .f32⟩ : BufTy).Contents (Elt F)),
    StableHlo.binary main_v29 main_v31 main_v32 (addf : (⟨S400000x128, .f32⟩ : BufTy).Contents (Elt F) → (⟨S400000x128, .f32⟩ : BufTy).Contents (Elt F) → (⟨S400000x128, .f32⟩ : BufTy).Contents (Elt F)) ]
/-- The buffers they write. -/
abbrev opsC_W : List (Ref sig .tc) := [main_v28, main_v29, main_v30, main_v31, main_v32]
theorem opsC_writes : (opsC : List (HloOp τ sig (Elt F))).Forall fun op => op.writes ⊆ (opsC_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers' contents after the first 3 windows. -/
def val3 (V : Valuation τ sig (Elt F)) : Valuation τ sig (Elt F) := after opsC (val2 V)
/-- A buffer the window does not write keeps its contents through it. -/
theorem val3_keep (V : Valuation τ sig (Elt F)) (r : Ref sig .tc) (h : r ∉ opsC_W) :
    val3 V (Proc.devRef .tc r) = (val2 V) (Proc.devRef .tc r) :=
  after_of_writes_sub opsC _ opsC_writes h
set_option maxRecDepth 16384 in
set_option maxHeartbeats 4000000 in
theorem val3_main_v32 (V : Valuation τ sig (Elt F)) : val3 V (no_index (Proc.devRef .tc main_v32)) = (cArr (Hcat (V (main_arg0 : DevRef τ sig)) (V (main_arg1 : DevRef τ sig)) (V (main_arg2 : DevRef τ sig))) (V (main_arg3 : DevRef τ sig)) (V (main_arg4 : DevRef τ sig))) := by
  unfold val3
  simp only [opsC]
  (after_results3) <;> (try simp only [val2_main_v27, val2_main_arg3, val2_main_arg4]) <;> (try rfl)
theorem val3_main_v1 (V : Valuation τ sig (Elt F)) : val3 V (no_index (Proc.devRef .tc main_v1)) = (srcIdx (V (main_arg0 : DevRef τ sig))) :=
  (val3_keep V main_v1 (by decide)).trans (val2_main_v1 V)
theorem val3_main_v5 (V : Valuation τ sig (Elt F)) : val3 V (no_index (Proc.devRef .tc main_v5)) = (relIdx (V (main_arg0 : DevRef τ sig))) :=
  (val3_keep V main_v5 (by decide)).trans (val2_main_v5 V)
theorem val3_main_arg0 (V : Valuation τ sig (Elt F)) : val3 V (no_index (Proc.devRef .tc main_arg0)) = (V (main_arg0 : DevRef τ sig)) :=
  (val3_keep V main_arg0 (by decide)).trans (val2_main_arg0 V)
theorem val3_main_arg1 (V : Valuation τ sig (Elt F)) : val3 V (no_index (Proc.devRef .tc main_arg1)) = (V (main_arg1 : DevRef τ sig)) :=
  (val3_keep V main_arg1 (by decide)).trans (val2_main_arg1 V)
theorem val3_main_arg2 (V : Valuation τ sig (Elt F)) : val3 V (no_index (Proc.devRef .tc main_arg2)) = (V (main_arg2 : DevRef τ sig)) :=
  (val3_keep V main_arg2 (by decide)).trans (val2_main_arg2 V)
theorem val3_main_arg3 (V : Valuation τ sig (Elt F)) : val3 V (no_index (Proc.devRef .tc main_arg3)) = (V (main_arg3 : DevRef τ sig)) :=
  (val3_keep V main_arg3 (by decide)).trans (val2_main_arg3 V)
theorem val3_main_arg4 (V : Valuation τ sig (Elt F)) : val3 V (no_index (Proc.devRef .tc main_arg4)) = (V (main_arg4 : DevRef τ sig)) :=
  (val3_keep V main_arg4 (by decide)).trans (val2_main_arg4 V)
theorem val3_main_arg5 (V : Valuation τ sig (Elt F)) : val3 V (no_index (Proc.devRef .tc main_arg5)) = (V (main_arg5 : DevRef τ sig)) :=
  (val3_keep V main_arg5 (by decide)).trans (val2_main_arg5 V)
theorem val3_main_arg6 (V : Valuation τ sig (Elt F)) : val3 V (no_index (Proc.devRef .tc main_arg6)) = (V (main_arg6 : DevRef τ sig)) :=
  (val3_keep V main_arg6 (by decide)).trans (val2_main_arg6 V)

/-- Operations 40 … 52. -/
abbrev opsD : List (HloOp τ sig (Elt F)) :=
  [ StableHlo.unary main_arg5 main_v33 ((transpose S128x1 [1, 0] · transposes_S1x128_S128x1_1_0) : (⟨S1x128, .f32⟩ : BufTy).Contents (Elt F) → (⟨S128x1, .f32⟩ : BufTy).Contents (Elt F)),
    StableHlo.binary main_v32 main_v33 main_v34 ((fun l r => Host.dotGeneral dot_S400000x128_S128x1_S400000x1_1_0_0_1_n_n none l r) : (⟨S400000x128, .f32⟩ : BufTy).Contents (Elt F) → (⟨S128x1, .f32⟩ : BufTy).Contents (Elt F) → (⟨S400000x1, .f32⟩ : BufTy).Contents (Elt F)),
    StableHlo.unary main_arg6 main_v35 (broadcastInDim S1x1 ![1] bcast_S1_S1x1_1 : (⟨S1, .f32⟩ : BufTy).Contents (Elt F) → (⟨S1x1, .f32⟩ : BufTy).Contents (Elt F)),
    StableHlo.unary main_v35 main_v36 (broadcastInDim S400000x1 ![0, 1] bcast_S1x1_S400000x1_0_1 : (⟨S1x1, .f32⟩ : BufTy).Contents (Elt F) → (⟨S400000x1, .f32⟩ : BufTy).Contents (Elt F)),
    StableHlo.binary main_v34 main_v36 main_v37 (addf : (⟨S400000x1, .f32⟩ : BufTy).Contents (Elt F) → (⟨S400000x1, .f32⟩ : BufTy).Contents (Elt F) → (⟨S400000x1, .f32⟩ : BufTy).Contents (Elt F)),
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S400000x1, .f32⟩) (broadcastInDim S400000x1 ![] bcast_S_S400000x1),
    StableHlo.TRef.binary (.of main_v37 : StableHlo.TRef sig ⟨S400000x1, .f32⟩) (.of main_call0_v0 : StableHlo.TRef sig ⟨S400000x1, .f32⟩) (.of main_call0_v1 : StableHlo.TRef sig ⟨S400000x1, .i1⟩) (cmpf .oge),
    StableHlo.TRef.nullary (.of main_call0_cst_0 : StableHlo.TRef sig ⟨S_, .f32⟩) (constant S_ .f32 0x3C23D70A#32),
    StableHlo.TRef.unary (.of main_call0_cst_0 : StableHlo.TRef sig ⟨S_, .f32⟩) (.of main_call0_v2 : StableHlo.TRef sig ⟨S400000x1, .f32⟩) (broadcastInDim S400000x1 ![] bcast_S_S400000x1),
    StableHlo.TRef.binary (.of main_call0_v2 : StableHlo.TRef sig ⟨S400000x1, .f32⟩) (.of main_v37 : StableHlo.TRef sig ⟨S400000x1, .f32⟩) (.of main_call0_v3 : StableHlo.TRef sig ⟨S400000x1, .f32⟩) mulf,
    StableHlo.TRef.ternary (.of main_call0_v1 : StableHlo.TRef sig ⟨S400000x1, .i1⟩) (.of main_v37 : StableHlo.TRef sig ⟨S400000x1, .f32⟩) (.of main_call0_v3 : StableHlo.TRef sig ⟨S400000x1, .f32⟩) (.of main_v38 : StableHlo.TRef sig ⟨S400000x1, .f32⟩) select,
    StableHlo.unary main_v38 main_v39 (Host.exp : (⟨S400000x1, .f32⟩ : BufTy).Contents (Elt F) → (⟨S400000x1, .f32⟩ : BufTy).Contents (Elt F)) ]
/-- The buffers they write. -/
abbrev opsD_W : List (Ref sig .tc) := [main_v33, main_v34, main_v35, main_v36, main_v37, main_call0_cst, main_call0_v0, main_call0_v1, main_call0_cst_0, main_call0_v2, main_call0_v3, main_v38, main_v39]
theorem opsD_writes : (opsD : List (HloOp τ sig (Elt F))).Forall fun op => op.writes ⊆ (opsD_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers' contents after the first 4 windows. -/
def val4 (V : Valuation τ sig (Elt F)) : Valuation τ sig (Elt F) := after opsD (val3 V)
/-- A buffer the window does not write keeps its contents through it. -/
theorem val4_keep (V : Valuation τ sig (Elt F)) (r : Ref sig .tc) (h : r ∉ opsD_W) :
    val4 V (Proc.devRef .tc r) = (val3 V) (Proc.devRef .tc r) :=
  after_of_writes_sub opsD _ opsD_writes h
set_option maxRecDepth 16384 in
set_option maxHeartbeats 4000000 in
theorem val4_main_v39 (V : Valuation τ sig (Elt F)) : val4 V (no_index (Proc.devRef .tc main_v39)) = (ebArr (cArr (Hcat (V (main_arg0 : DevRef τ sig)) (V (main_arg1 : DevRef τ sig)) (V (main_arg2 : DevRef τ sig))) (V (main_arg3 : DevRef τ sig)) (V (main_arg4 : DevRef τ sig))) (V (main_arg5 : DevRef τ sig)) (V (main_arg6 : DevRef τ sig))) := by
  unfold val4
  simp only [opsD]
  (after_results3) <;> (try simp only [val3_main_v32, val3_main_arg5, val3_main_arg6]) <;> (try rfl)
theorem val4_main_v32 (V : Valuation τ sig (Elt F)) : val4 V (no_index (Proc.devRef .tc main_v32)) = (cArr (Hcat (V (main_arg0 : DevRef τ sig)) (V (main_arg1 : DevRef τ sig)) (V (main_arg2 : DevRef τ sig))) (V (main_arg3 : DevRef τ sig)) (V (main_arg4 : DevRef τ sig))) :=
  (val4_keep V main_v32 (by decide)).trans (val3_main_v32 V)
theorem val4_main_v1 (V : Valuation τ sig (Elt F)) : val4 V (no_index (Proc.devRef .tc main_v1)) = (srcIdx (V (main_arg0 : DevRef τ sig))) :=
  (val4_keep V main_v1 (by decide)).trans (val3_main_v1 V)
theorem val4_main_v5 (V : Valuation τ sig (Elt F)) : val4 V (no_index (Proc.devRef .tc main_v5)) = (relIdx (V (main_arg0 : DevRef τ sig))) :=
  (val4_keep V main_v5 (by decide)).trans (val3_main_v5 V)
theorem val4_main_arg0 (V : Valuation τ sig (Elt F)) : val4 V (no_index (Proc.devRef .tc main_arg0)) = (V (main_arg0 : DevRef τ sig)) :=
  (val4_keep V main_arg0 (by decide)).trans (val3_main_arg0 V)
theorem val4_main_arg1 (V : Valuation τ sig (Elt F)) : val4 V (no_index (Proc.devRef .tc main_arg1)) = (V (main_arg1 : DevRef τ sig)) :=
  (val4_keep V main_arg1 (by decide)).trans (val3_main_arg1 V)
theorem val4_main_arg2 (V : Valuation τ sig (Elt F)) : val4 V (no_index (Proc.devRef .tc main_arg2)) = (V (main_arg2 : DevRef τ sig)) :=
  (val4_keep V main_arg2 (by decide)).trans (val3_main_arg2 V)
theorem val4_main_arg3 (V : Valuation τ sig (Elt F)) : val4 V (no_index (Proc.devRef .tc main_arg3)) = (V (main_arg3 : DevRef τ sig)) :=
  (val4_keep V main_arg3 (by decide)).trans (val3_main_arg3 V)
theorem val4_main_arg4 (V : Valuation τ sig (Elt F)) : val4 V (no_index (Proc.devRef .tc main_arg4)) = (V (main_arg4 : DevRef τ sig)) :=
  (val4_keep V main_arg4 (by decide)).trans (val3_main_arg4 V)
theorem val4_main_arg5 (V : Valuation τ sig (Elt F)) : val4 V (no_index (Proc.devRef .tc main_arg5)) = (V (main_arg5 : DevRef τ sig)) :=
  (val4_keep V main_arg5 (by decide)).trans (val3_main_arg5 V)
theorem val4_main_arg6 (V : Valuation τ sig (Elt F)) : val4 V (no_index (Proc.devRef .tc main_arg6)) = (V (main_arg6 : DevRef τ sig)) :=
  (val4_keep V main_arg6 (by decide)).trans (val3_main_arg6 V)

/-- Operations 53 … 56. -/
abbrev opsE1 : List (HloOp τ sig (Elt F)) :=
  [ StableHlo.nullary main_cst (constant S_ .f32 0x00000000#32),
    StableHlo.unary main_cst main_v40 (broadcastInDim S100000x1 ![] bcast_S_S100000x1 : (⟨S_, .f32⟩ : BufTy).Contents (Elt F) → (⟨S100000x1, .f32⟩ : BufTy).Contents (Elt F)),
    StableHlo.unary main_v1 main_v41 (broadcastInDim S400000x1 ![0] bcast_S400000_S400000x1_0 : (⟨S400000, .i32⟩ : BufTy).Contents (Elt F) → (⟨S400000x1, .i32⟩ : BufTy).Contents (Elt F)),
    StableHlo.ternary main_v40 main_v41 main_v39 main_v42 ((fun x i u => Host.scatterAdd scatter_S100000x1_S400000x1_S400000x1_1_0_0_1 x i u) : (⟨S100000x1, .f32⟩ : BufTy).Contents (Elt F) → (⟨S400000x1, .i32⟩ : BufTy).Contents (Elt F) → (⟨S400000x1, .f32⟩ : BufTy).Contents (Elt F) → (⟨S100000x1, .f32⟩ : BufTy).Contents (Elt F)) ]
/-- The buffers they write. -/
abbrev opsE1_W : List (Ref sig .tc) := [main_cst, main_v40, main_v41, main_v42]
theorem opsE1_writes : (opsE1 : List (HloOp τ sig (Elt F))).Forall fun op => op.writes ⊆ (opsE1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers' contents after the first 5 windows. -/
def val5 (V : Valuation τ sig (Elt F)) : Valuation τ sig (Elt F) := after opsE1 (val4 V)
/-- A buffer the window does not write keeps its contents through it. -/
theorem val5_keep (V : Valuation τ sig (Elt F)) (r : Ref sig .tc) (h : r ∉ opsE1_W) :
    val5 V (Proc.devRef .tc r) = (val4 V) (Proc.devRef .tc r) :=
  after_of_writes_sub opsE1 _ opsE1_writes h
set_option maxRecDepth 16384 in
set_option maxHeartbeats 4000000 in
theorem val5_main_v42 (V : Valuation τ sig (Elt F)) : val5 V (no_index (Proc.devRef .tc main_v42)) = (entDenom (ebArr (cArr (Hcat (V (main_arg0 : DevRef τ sig)) (V (main_arg1 : DevRef τ sig)) (V (main_arg2 : DevRef τ sig))) (V (main_arg3 : DevRef τ sig)) (V (main_arg4 : DevRef τ sig))) (V (main_arg5 : DevRef τ sig)) (V (main_arg6 : DevRef τ sig))) (srcIdx (V (main_arg0 : DevRef τ sig)))) := by
  unfold val5
  simp only [opsE1]
  (after_results3) <;> (try simp only [val4_main_v39, val4_main_v1]) <;> (try rfl)
theorem val5_main_v39 (V : Valuation τ sig (Elt F)) : val5 V (no_index (Proc.devRef .tc main_v39)) = (ebArr (cArr (Hcat (V (main_arg0 : DevRef τ sig)) (V (main_arg1 : DevRef τ sig)) (V (main_arg2 : DevRef τ sig))) (V (main_arg3 : DevRef τ sig)) (V (main_arg4 : DevRef τ sig))) (V (main_arg5 : DevRef τ sig)) (V (main_arg6 : DevRef τ sig))) :=
  (val5_keep V main_v39 (by decide)).trans (val4_main_v39 V)
theorem val5_main_v32 (V : Valuation τ sig (Elt F)) : val5 V (no_index (Proc.devRef .tc main_v32)) = (cArr (Hcat (V (main_arg0 : DevRef τ sig)) (V (main_arg1 : DevRef τ sig)) (V (main_arg2 : DevRef τ sig))) (V (main_arg3 : DevRef τ sig)) (V (main_arg4 : DevRef τ sig))) :=
  (val5_keep V main_v32 (by decide)).trans (val4_main_v32 V)
theorem val5_main_v1 (V : Valuation τ sig (Elt F)) : val5 V (no_index (Proc.devRef .tc main_v1)) = (srcIdx (V (main_arg0 : DevRef τ sig))) :=
  (val5_keep V main_v1 (by decide)).trans (val4_main_v1 V)
theorem val5_main_v5 (V : Valuation τ sig (Elt F)) : val5 V (no_index (Proc.devRef .tc main_v5)) = (relIdx (V (main_arg0 : DevRef τ sig))) :=
  (val5_keep V main_v5 (by decide)).trans (val4_main_v5 V)
theorem val5_main_arg0 (V : Valuation τ sig (Elt F)) : val5 V (no_index (Proc.devRef .tc main_arg0)) = (V (main_arg0 : DevRef τ sig)) :=
  (val5_keep V main_arg0 (by decide)).trans (val4_main_arg0 V)
theorem val5_main_arg1 (V : Valuation τ sig (Elt F)) : val5 V (no_index (Proc.devRef .tc main_arg1)) = (V (main_arg1 : DevRef τ sig)) :=
  (val5_keep V main_arg1 (by decide)).trans (val4_main_arg1 V)
theorem val5_main_arg2 (V : Valuation τ sig (Elt F)) : val5 V (no_index (Proc.devRef .tc main_arg2)) = (V (main_arg2 : DevRef τ sig)) :=
  (val5_keep V main_arg2 (by decide)).trans (val4_main_arg2 V)
theorem val5_main_arg3 (V : Valuation τ sig (Elt F)) : val5 V (no_index (Proc.devRef .tc main_arg3)) = (V (main_arg3 : DevRef τ sig)) :=
  (val5_keep V main_arg3 (by decide)).trans (val4_main_arg3 V)
theorem val5_main_arg4 (V : Valuation τ sig (Elt F)) : val5 V (no_index (Proc.devRef .tc main_arg4)) = (V (main_arg4 : DevRef τ sig)) :=
  (val5_keep V main_arg4 (by decide)).trans (val4_main_arg4 V)
theorem val5_main_arg5 (V : Valuation τ sig (Elt F)) : val5 V (no_index (Proc.devRef .tc main_arg5)) = (V (main_arg5 : DevRef τ sig)) :=
  (val5_keep V main_arg5 (by decide)).trans (val4_main_arg5 V)
theorem val5_main_arg6 (V : Valuation τ sig (Elt F)) : val5 V (no_index (Proc.devRef .tc main_arg6)) = (V (main_arg6 : DevRef τ sig)) :=
  (val5_keep V main_arg6 (by decide)).trans (val4_main_arg6 V)

/-- Operations 57 … 58. -/
abbrev opsE2 : List (HloOp τ sig (Elt F)) :=
  [ StableHlo.unary main_v39 main_v43 (broadcastInDim S400000x128 ![0, 1] bcast_S400000x1_S400000x128_0_1 : (⟨S400000x1, .f32⟩ : BufTy).Contents (Elt F) → (⟨S400000x128, .f32⟩ : BufTy).Contents (Elt F)),
    StableHlo.binary main_v43 main_v32 main_v44 (mulf : (⟨S400000x128, .f32⟩ : BufTy).Contents (Elt F) → (⟨S400000x128, .f32⟩ : BufTy).Contents (Elt F) → (⟨S400000x128, .f32⟩ : BufTy).Contents (Elt F)) ]
/-- The buffers they write. -/
abbrev opsE2_W : List (Ref sig .tc) := [main_v43, main_v44]
theorem opsE2_writes : (opsE2 : List (HloOp τ sig (Elt F))).Forall fun op => op.writes ⊆ (opsE2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers' contents after the first 6 windows. -/
def val6 (V : Valuation τ sig (Elt F)) : Valuation τ sig (Elt F) := after opsE2 (val5 V)
/-- A buffer the window does not write keeps its contents through it. -/
theorem val6_keep (V : Valuation τ sig (Elt F)) (r : Ref sig .tc) (h : r ∉ opsE2_W) :
    val6 V (Proc.devRef .tc r) = (val5 V) (Proc.devRef .tc r) :=
  after_of_writes_sub opsE2 _ opsE2_writes h
set_option maxRecDepth 16384 in
set_option maxHeartbeats 4000000 in
theorem val6_main_v44 (V : Valuation τ sig (Elt F)) : val6 V (no_index (Proc.devRef .tc main_v44)) = (tempArr (ebArr (cArr (Hcat (V (main_arg0 : DevRef τ sig)) (V (main_arg1 : DevRef τ sig)) (V (main_arg2 : DevRef τ sig))) (V (main_arg3 : DevRef τ sig)) (V (main_arg4 : DevRef τ sig))) (V (main_arg5 : DevRef τ sig)) (V (main_arg6 : DevRef τ sig))) (cArr (Hcat (V (main_arg0 : DevRef τ sig)) (V (main_arg1 : DevRef τ sig)) (V (main_arg2 : DevRef τ sig))) (V (main_arg3 : DevRef τ sig)) (V (main_arg4 : DevRef τ sig)))) := by
  unfold val6
  simp only [opsE2]
  (after_results3) <;> (try simp only [val5_main_v39, val5_main_v32]) <;> (try rfl)
theorem val6_main_v42 (V : Valuation τ sig (Elt F)) : val6 V (no_index (Proc.devRef .tc main_v42)) = (entDenom (ebArr (cArr (Hcat (V (main_arg0 : DevRef τ sig)) (V (main_arg1 : DevRef τ sig)) (V (main_arg2 : DevRef τ sig))) (V (main_arg3 : DevRef τ sig)) (V (main_arg4 : DevRef τ sig))) (V (main_arg5 : DevRef τ sig)) (V (main_arg6 : DevRef τ sig))) (srcIdx (V (main_arg0 : DevRef τ sig)))) :=
  (val6_keep V main_v42 (by decide)).trans (val5_main_v42 V)
theorem val6_main_v1 (V : Valuation τ sig (Elt F)) : val6 V (no_index (Proc.devRef .tc main_v1)) = (srcIdx (V (main_arg0 : DevRef τ sig))) :=
  (val6_keep V main_v1 (by decide)).trans (val5_main_v1 V)
theorem val6_main_v5 (V : Valuation τ sig (Elt F)) : val6 V (no_index (Proc.devRef .tc main_v5)) = (relIdx (V (main_arg0 : DevRef τ sig))) :=
  (val6_keep V main_v5 (by decide)).trans (val5_main_v5 V)
theorem val6_main_arg0 (V : Valuation τ sig (Elt F)) : val6 V (no_index (Proc.devRef .tc main_arg0)) = (V (main_arg0 : DevRef τ sig)) :=
  (val6_keep V main_arg0 (by decide)).trans (val5_main_arg0 V)
theorem val6_main_arg1 (V : Valuation τ sig (Elt F)) : val6 V (no_index (Proc.devRef .tc main_arg1)) = (V (main_arg1 : DevRef τ sig)) :=
  (val6_keep V main_arg1 (by decide)).trans (val5_main_arg1 V)
theorem val6_main_arg2 (V : Valuation τ sig (Elt F)) : val6 V (no_index (Proc.devRef .tc main_arg2)) = (V (main_arg2 : DevRef τ sig)) :=
  (val6_keep V main_arg2 (by decide)).trans (val5_main_arg2 V)
theorem val6_main_arg3 (V : Valuation τ sig (Elt F)) : val6 V (no_index (Proc.devRef .tc main_arg3)) = (V (main_arg3 : DevRef τ sig)) :=
  (val6_keep V main_arg3 (by decide)).trans (val5_main_arg3 V)
theorem val6_main_arg4 (V : Valuation τ sig (Elt F)) : val6 V (no_index (Proc.devRef .tc main_arg4)) = (V (main_arg4 : DevRef τ sig)) :=
  (val6_keep V main_arg4 (by decide)).trans (val5_main_arg4 V)
theorem val6_main_arg5 (V : Valuation τ sig (Elt F)) : val6 V (no_index (Proc.devRef .tc main_arg5)) = (V (main_arg5 : DevRef τ sig)) :=
  (val6_keep V main_arg5 (by decide)).trans (val5_main_arg5 V)
theorem val6_main_arg6 (V : Valuation τ sig (Elt F)) : val6 V (no_index (Proc.devRef .tc main_arg6)) = (V (main_arg6 : DevRef τ sig)) :=
  (val6_keep V main_arg6 (by decide)).trans (val5_main_arg6 V)

/-- Operations 59 … 71. -/
abbrev opsE3 : List (HloOp τ sig (Elt F)) :=
  [ StableHlo.nullary main_cst_5 (constant S_ .f32 0x00000000#32),
    StableHlo.unary main_cst_5 main_v45 (broadcastInDim S100000x128 ![] bcast_S_S100000x128 : (⟨S_, .f32⟩ : BufTy).Contents (Elt F) → (⟨S100000x128, .f32⟩ : BufTy).Contents (Elt F)),
    StableHlo.unary main_v1 main_v46 (broadcastInDim S400000x1 ![0] bcast_S400000_S400000x1_0 : (⟨S400000, .i32⟩ : BufTy).Contents (Elt F) → (⟨S400000x1, .i32⟩ : BufTy).Contents (Elt F)),
    StableHlo.ternary main_v45 main_v46 main_v44 main_v47 ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F)),
    StableHlo.nullary main_cst_6 (constant S_ .f32 0x00000000#32),
    StableHlo.unary main_cst_6 main_v48 (broadcastInDim S100000x1 ![] bcast_S_S100000x1 : (⟨S_, .f32⟩ : BufTy).Contents (Elt F) → (⟨S100000x1, .f32⟩ : BufTy).Contents (Elt F)),
    StableHlo.binary main_v42 main_v48 main_v49 (cmpf .oeq : (⟨S100000x1, .f32⟩ : BufTy).Contents (Elt F) → (⟨S100000x1, .f32⟩ : BufTy).Contents (Elt F) → (⟨S100000x1, .i1⟩ : BufTy).Contents (Elt F)),
    StableHlo.nullary main_cst_7 (constant S_ .f32 0x2B8CBCCC#32),
    StableHlo.TRef.unary (.of main_cst_7 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S100000x1, .f32⟩) (broadcastInDim S100000x1 ![] bcast_S_S100000x1),
    StableHlo.TRef.ternary (.of main_v49 : StableHlo.TRef sig ⟨S100000x1, .i1⟩) (.of main_call1_v1 : StableHlo.TRef sig ⟨S100000x1, .f32⟩) (.of main_v42 : StableHlo.TRef sig ⟨S100000x1, .f32⟩) (.of main_v50 : StableHlo.TRef sig ⟨S100000x1, .f32⟩) select,
    StableHlo.unary main_v50 main_v51 (broadcastInDim S100000x128 ![0, 1] bcast_S100000x1_S100000x128_0_1 : (⟨S100000x1, .f32⟩ : BufTy).Contents (Elt F) → (⟨S100000x128, .f32⟩ : BufTy).Contents (Elt F)),
    StableHlo.binary main_v47 main_v51 main_v52 (Host.divf : (⟨S100000x128, .f32⟩ : BufTy).Contents (Elt F) → (⟨S100000x128, .f32⟩ : BufTy).Contents (Elt F) → (⟨S100000x128, .f32⟩ : BufTy).Contents (Elt F)) ]
/-- The buffers they write. -/
abbrev opsE3_W : List (Ref sig .tc) := [main_cst_5, main_v45, main_v46, main_v47, main_cst_6, main_v48, main_v49, main_cst_7, main_call1_v0, main_call1_v1, main_v50, main_v51, main_v52]
theorem opsE3_writes : (opsE3 : List (HloOp τ sig (Elt F))).Forall fun op => op.writes ⊆ (opsE3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers' contents after the first 7 windows. -/
def val7 (V : Valuation τ sig (Elt F)) : Valuation τ sig (Elt F) := after opsE3 (val6 V)
/-- A buffer the window does not write keeps its contents through it. -/
theorem val7_keep (V : Valuation τ sig (Elt F)) (r : Ref sig .tc) (h : r ∉ opsE3_W) :
    val7 V (Proc.devRef .tc r) = (val6 V) (Proc.devRef .tc r) :=
  after_of_writes_sub opsE3 _ opsE3_writes h
set_option maxRecDepth 16384 in
set_option maxHeartbeats 4000000 in
theorem val7_main_v52 (V : Valuation τ sig (Elt F)) : val7 V (no_index (Proc.devRef .tc main_v52)) = (entPre (ebArr (cArr (Hcat (V (main_arg0 : DevRef τ sig)) (V (main_arg1 : DevRef τ sig)) (V (main_arg2 : DevRef τ sig))) (V (main_arg3 : DevRef τ sig)) (V (main_arg4 : DevRef τ sig))) (V (main_arg5 : DevRef τ sig)) (V (main_arg6 : DevRef τ sig))) (tempArr (ebArr (cArr (Hcat (V (main_arg0 : DevRef τ sig)) (V (main_arg1 : DevRef τ sig)) (V (main_arg2 : DevRef τ sig))) (V (main_arg3 : DevRef τ sig)) (V (main_arg4 : DevRef τ sig))) (V (main_arg5 : DevRef τ sig)) (V (main_arg6 : DevRef τ sig))) (cArr (Hcat (V (main_arg0 : DevRef τ sig)) (V (main_arg1 : DevRef τ sig)) (V (main_arg2 : DevRef τ sig))) (V (main_arg3 : DevRef τ sig)) (V (main_arg4 : DevRef τ sig)))) (srcIdx (V (main_arg0 : DevRef τ sig)))) := by
  unfold val7
  simp only [opsE3]
  (after_results3) <;> (try simp only [val6_main_v44, val6_main_v1, val6_main_v42]) <;> (try rfl)
theorem val7_main_v44 (V : Valuation τ sig (Elt F)) : val7 V (no_index (Proc.devRef .tc main_v44)) = (tempArr (ebArr (cArr (Hcat (V (main_arg0 : DevRef τ sig)) (V (main_arg1 : DevRef τ sig)) (V (main_arg2 : DevRef τ sig))) (V (main_arg3 : DevRef τ sig)) (V (main_arg4 : DevRef τ sig))) (V (main_arg5 : DevRef τ sig)) (V (main_arg6 : DevRef τ sig))) (cArr (Hcat (V (main_arg0 : DevRef τ sig)) (V (main_arg1 : DevRef τ sig)) (V (main_arg2 : DevRef τ sig))) (V (main_arg3 : DevRef τ sig)) (V (main_arg4 : DevRef τ sig)))) :=
  (val7_keep V main_v44 (by decide)).trans (val6_main_v44 V)
theorem val7_main_v5 (V : Valuation τ sig (Elt F)) : val7 V (no_index (Proc.devRef .tc main_v5)) = (relIdx (V (main_arg0 : DevRef τ sig))) :=
  (val7_keep V main_v5 (by decide)).trans (val6_main_v5 V)
theorem val7_main_arg0 (V : Valuation τ sig (Elt F)) : val7 V (no_index (Proc.devRef .tc main_arg0)) = (V (main_arg0 : DevRef τ sig)) :=
  (val7_keep V main_arg0 (by decide)).trans (val6_main_arg0 V)
theorem val7_main_arg1 (V : Valuation τ sig (Elt F)) : val7 V (no_index (Proc.devRef .tc main_arg1)) = (V (main_arg1 : DevRef τ sig)) :=
  (val7_keep V main_arg1 (by decide)).trans (val6_main_arg1 V)
theorem val7_main_arg2 (V : Valuation τ sig (Elt F)) : val7 V (no_index (Proc.devRef .tc main_arg2)) = (V (main_arg2 : DevRef τ sig)) :=
  (val7_keep V main_arg2 (by decide)).trans (val6_main_arg2 V)
theorem val7_main_arg3 (V : Valuation τ sig (Elt F)) : val7 V (no_index (Proc.devRef .tc main_arg3)) = (V (main_arg3 : DevRef τ sig)) :=
  (val7_keep V main_arg3 (by decide)).trans (val6_main_arg3 V)
theorem val7_main_arg4 (V : Valuation τ sig (Elt F)) : val7 V (no_index (Proc.devRef .tc main_arg4)) = (V (main_arg4 : DevRef τ sig)) :=
  (val7_keep V main_arg4 (by decide)).trans (val6_main_arg4 V)
theorem val7_main_arg5 (V : Valuation τ sig (Elt F)) : val7 V (no_index (Proc.devRef .tc main_arg5)) = (V (main_arg5 : DevRef τ sig)) :=
  (val7_keep V main_arg5 (by decide)).trans (val6_main_arg5 V)
theorem val7_main_arg6 (V : Valuation τ sig (Elt F)) : val7 V (no_index (Proc.devRef .tc main_arg6)) = (V (main_arg6 : DevRef τ sig)) :=
  (val7_keep V main_arg6 (by decide)).trans (val6_main_arg6 V)

/-- Operations 72 … 86. -/
abbrev opsE4 : List (HloOp τ sig (Elt F)) :=
  [ StableHlo.nullary main_cst_8 (constant S_ .f32 0x00000000#32),
    StableHlo.unary main_cst_8 main_v53 (broadcastInDim S237x128 ![] bcast_S_S237x128 : (⟨S_, .f32⟩ : BufTy).Contents (Elt F) → (⟨S237x128, .f32⟩ : BufTy).Contents (Elt F)),
    StableHlo.unary main_v5 main_v54 (broadcastInDim S400000x1 ![0] bcast_S400000_S400000x1_0 : (⟨S400000, .i32⟩ : BufTy).Contents (Elt F) → (⟨S400000x1, .i32⟩ : BufTy).Contents (Elt F)),
    StableHlo.ternary main_v53 main_v54 main_v44 main_v55 ((fun x i u => Host.scatterAdd scatter_S237x128_S400000x1_S400000x128_1_0_0_1 x i u) : (⟨S237x128, .f32⟩ : BufTy).Contents (Elt F) → (⟨S400000x1, .i32⟩ : BufTy).Contents (Elt F) → (⟨S400000x128, .f32⟩ : BufTy).Contents (Elt F) → (⟨S237x128, .f32⟩ : BufTy).Contents (Elt F)),
    StableHlo.nullary main_cst_9 (constant S_ .f32 0x3F800000#32),
    StableHlo.unary main_cst_9 main_v56 (broadcastInDim S400000x1 ![] bcast_S_S400000x1 : (⟨S_, .f32⟩ : BufTy).Contents (Elt F) → (⟨S400000x1, .f32⟩ : BufTy).Contents (Elt F)),
    StableHlo.nullary main_cst_10 (constant S_ .f32 0x00000000#32),
    StableHlo.unary main_cst_10 main_v57 (broadcastInDim S237x1 ![] bcast_S_S237x1 : (⟨S_, .f32⟩ : BufTy).Contents (Elt F) → (⟨S237x1, .f32⟩ : BufTy).Contents (Elt F)),
    StableHlo.unary main_v5 main_v58 (broadcastInDim S400000x1 ![0] bcast_S400000_S400000x1_0 : (⟨S400000, .i32⟩ : BufTy).Contents (Elt F) → (⟨S400000x1, .i32⟩ : BufTy).Contents (Elt F)),
    StableHlo.ternary main_v57 main_v58 main_v56 main_v59 ((fun x i u => Host.scatterAdd scatter_S237x1_S400000x1_S400000x1_1_0_0_1 x i u) : (⟨S237x1, .f32⟩ : BufTy).Contents (Elt F) → (⟨S400000x1, .i32⟩ : BufTy).Contents (Elt F) → (⟨S400000x1, .f32⟩ : BufTy).Contents (Elt F) → (⟨S237x1, .f32⟩ : BufTy).Contents (Elt F)),
    StableHlo.nullary main_cst_11 (constant S_ .f32 0x3F800000#32),
    StableHlo.unary main_cst_11 main_v60 (broadcastInDim S237x1 ![] bcast_S_S237x1 : (⟨S_, .f32⟩ : BufTy).Contents (Elt F) → (⟨S237x1, .f32⟩ : BufTy).Contents (Elt F)),
    StableHlo.binary main_v59 main_v60 main_v61 (maximumf : (⟨S237x1, .f32⟩ : BufTy).Contents (Elt F) → (⟨S237x1, .f32⟩ : BufTy).Contents (Elt F) → (⟨S237x1, .f32⟩ : BufTy).Contents (Elt F)),
    StableHlo.unary main_v61 main_v62 (broadcastInDim S237x128 ![0, 1] bcast_S237x1_S237x128_0_1 : (⟨S237x1, .f32⟩ : BufTy).Contents (Elt F) → (⟨S237x128, .f32⟩ : BufTy).Contents (Elt F)),
    StableHlo.binary main_v55 main_v62 main_v63 (Host.divf : (⟨S237x128, .f32⟩ : BufTy).Contents (Elt F) → (⟨S237x128, .f32⟩ : BufTy).Contents (Elt F) → (⟨S237x128, .f32⟩ : BufTy).Contents (Elt F)) ]
/-- The buffers they write. -/
abbrev opsE4_W : List (Ref sig .tc) := [main_cst_8, main_v53, main_v54, main_v55, main_cst_9, main_v56, main_cst_10, main_v57, main_v58, main_v59, main_cst_11, main_v60, main_v61, main_v62, main_v63]
theorem opsE4_writes : (opsE4 : List (HloOp τ sig (Elt F))).Forall fun op => op.writes ⊆ (opsE4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers' contents after the first 8 windows. -/
def val8 (V : Valuation τ sig (Elt F)) : Valuation τ sig (Elt F) := after opsE4 (val7 V)
/-- A buffer the window does not write keeps its contents through it. -/
theorem val8_keep (V : Valuation τ sig (Elt F)) (r : Ref sig .tc) (h : r ∉ opsE4_W) :
    val8 V (Proc.devRef .tc r) = (val7 V) (Proc.devRef .tc r) :=
  after_of_writes_sub opsE4 _ opsE4_writes h
set_option maxRecDepth 16384 in
set_option maxHeartbeats 4000000 in
theorem val8_main_v63 (V : Valuation τ sig (Elt F)) : val8 V (no_index (Proc.devRef .tc main_v63)) = (relPre (tempArr (ebArr (cArr (Hcat (V (main_arg0 : DevRef τ sig)) (V (main_arg1 : DevRef τ sig)) (V (main_arg2 : DevRef τ sig))) (V (main_arg3 : DevRef τ sig)) (V (main_arg4 : DevRef τ sig))) (V (main_arg5 : DevRef τ sig)) (V (main_arg6 : DevRef τ sig))) (cArr (Hcat (V (main_arg0 : DevRef τ sig)) (V (main_arg1 : DevRef τ sig)) (V (main_arg2 : DevRef τ sig))) (V (main_arg3 : DevRef τ sig)) (V (main_arg4 : DevRef τ sig)))) (relIdx (V (main_arg0 : DevRef τ sig)))) := by
  unfold val8
  simp only [opsE4]
  (after_results3) <;> (try simp only [val7_main_v44, val7_main_v5]) <;> (try rfl)
theorem val8_main_v52 (V : Valuation τ sig (Elt F)) : val8 V (no_index (Proc.devRef .tc main_v52)) = (entPre (ebArr (cArr (Hcat (V (main_arg0 : DevRef τ sig)) (V (main_arg1 : DevRef τ sig)) (V (main_arg2 : DevRef τ sig))) (V (main_arg3 : DevRef τ sig)) (V (main_arg4 : DevRef τ sig))) (V (main_arg5 : DevRef τ sig)) (V (main_arg6 : DevRef τ sig))) (tempArr (ebArr (cArr (Hcat (V (main_arg0 : DevRef τ sig)) (V (main_arg1 : DevRef τ sig)) (V (main_arg2 : DevRef τ sig))) (V (main_arg3 : DevRef τ sig)) (V (main_arg4 : DevRef τ sig))) (V (main_arg5 : DevRef τ sig)) (V (main_arg6 : DevRef τ sig))) (cArr (Hcat (V (main_arg0 : DevRef τ sig)) (V (main_arg1 : DevRef τ sig)) (V (main_arg2 : DevRef τ sig))) (V (main_arg3 : DevRef τ sig)) (V (main_arg4 : DevRef τ sig)))) (srcIdx (V (main_arg0 : DevRef τ sig)))) :=
  (val8_keep V main_v52 (by decide)).trans (val7_main_v52 V)
theorem val8_main_arg0 (V : Valuation τ sig (Elt F)) : val8 V (no_index (Proc.devRef .tc main_arg0)) = (V (main_arg0 : DevRef τ sig)) :=
  (val8_keep V main_arg0 (by decide)).trans (val7_main_arg0 V)
theorem val8_main_arg1 (V : Valuation τ sig (Elt F)) : val8 V (no_index (Proc.devRef .tc main_arg1)) = (V (main_arg1 : DevRef τ sig)) :=
  (val8_keep V main_arg1 (by decide)).trans (val7_main_arg1 V)
theorem val8_main_arg2 (V : Valuation τ sig (Elt F)) : val8 V (no_index (Proc.devRef .tc main_arg2)) = (V (main_arg2 : DevRef τ sig)) :=
  (val8_keep V main_arg2 (by decide)).trans (val7_main_arg2 V)
theorem val8_main_arg3 (V : Valuation τ sig (Elt F)) : val8 V (no_index (Proc.devRef .tc main_arg3)) = (V (main_arg3 : DevRef τ sig)) :=
  (val8_keep V main_arg3 (by decide)).trans (val7_main_arg3 V)
theorem val8_main_arg4 (V : Valuation τ sig (Elt F)) : val8 V (no_index (Proc.devRef .tc main_arg4)) = (V (main_arg4 : DevRef τ sig)) :=
  (val8_keep V main_arg4 (by decide)).trans (val7_main_arg4 V)
theorem val8_main_arg5 (V : Valuation τ sig (Elt F)) : val8 V (no_index (Proc.devRef .tc main_arg5)) = (V (main_arg5 : DevRef τ sig)) :=
  (val8_keep V main_arg5 (by decide)).trans (val7_main_arg5 V)
theorem val8_main_arg6 (V : Valuation τ sig (Elt F)) : val8 V (no_index (Proc.devRef .tc main_arg6)) = (V (main_arg6 : DevRef τ sig)) :=
  (val8_keep V main_arg6 (by decide)).trans (val7_main_arg6 V)

/-- Operations 87 … 101. -/
abbrev opsE5 : List (HloOp τ sig (Elt F)) :=
  [ StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S100000x128, .f32⟩) (broadcastInDim S100000x128 ![] bcast_S_S100000x128),
    StableHlo.TRef.binary (.of main_v52 : StableHlo.TRef sig ⟨S100000x128, .f32⟩) (.of main_call2_v0 : StableHlo.TRef sig ⟨S100000x128, .f32⟩) (.of main_call2_v1 : StableHlo.TRef sig ⟨S100000x128, .i1⟩) (cmpf .ogt),
    StableHlo.TRef.nullary (.of main_call2_cst_0 : StableHlo.TRef sig ⟨S_, .f32⟩) (constant S_ .f32 0x00000000#32),
    StableHlo.TRef.unary (.of main_call2_cst_0 : StableHlo.TRef sig ⟨S_, .f32⟩) (.of main_call2_v2 : StableHlo.TRef sig ⟨S100000x128, .f32⟩) (broadcastInDim S100000x128 ![] bcast_S_S100000x128),
    StableHlo.TRef.binary (.of main_v52 : StableHlo.TRef sig ⟨S100000x128, .f32⟩) (.of main_call2_v2 : StableHlo.TRef sig ⟨S100000x128, .f32⟩) (.of main_call2_v3 : StableHlo.TRef sig ⟨S100000x128, .i1⟩) (cmpf .ogt),
    StableHlo.TRef.nullary (.of main_call2_cst_1 : StableHlo.TRef sig ⟨S_, .f32⟩) (constant S_ .f32 0x00000000#32),
    StableHlo.TRef.unary (.of main_call2_cst_1 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S100000x128, .f32⟩) (broadcastInDim S100000x128 ![] bcast_S_S100000x128),
    StableHlo.TRef.ternary (.of main_call2_v3 : StableHlo.TRef sig ⟨S100000x128, .i1⟩) (.of main_call2_call0_v1 : StableHlo.TRef sig ⟨S100000x128, .f32⟩) (.of main_v52 : StableHlo.TRef sig ⟨S100000x128, .f32⟩) (.of main_call2_v4 : StableHlo.TRef sig ⟨S100000x128, .f32⟩) select,
    StableHlo.TRef.unary (.of main_call2_v4 : StableHlo.TRef sig ⟨S100000x128, .f32⟩) (.of main_call2_v5 : StableHlo.TRef sig ⟨S100000x128, .f32⟩) Host.expm1,
    StableHlo.TRef.nullary (.of main_call2_cst_2 : StableHlo.TRef sig ⟨S_, .f32⟩) (constant S_ .f32 0x3F800000#32),
    StableHlo.TRef.unary (.of main_call2_cst_2 : StableHlo.TRef sig ⟨S_, .f32⟩) (.of main_call2_v6 : StableHlo.TRef sig ⟨S100000x128, .f32⟩) (broadcastInDim S100000x128 ![] bcast_S_S100000x128),
    StableHlo.TRef.binary (.of main_call2_v6 : StableHlo.TRef sig ⟨S100000x128, .f32⟩) (.of main_call2_v5 : StableHlo.TRef sig ⟨S100000x128, .f32⟩) (.of main_call2_v7 : StableHlo.TRef sig ⟨S100000x128, .f32⟩) mulf,
    StableHlo.TRef.ternary (.of main_call2_v1 : StableHlo.TRef sig ⟨S100000x128, .i1⟩) (.of main_v52 : StableHlo.TRef sig ⟨S100000x128, .f32⟩) (.of main_call2_v7 : StableHlo.TRef sig ⟨S100000x128, .f32⟩) (.of main_v64 : StableHlo.TRef sig ⟨S100000x128, .f32⟩) select ]
/-- The buffers they write. -/
abbrev opsE5_W : List (Ref sig .tc) := [main_call2_cst, main_call2_v0, main_call2_v1, main_call2_cst_0, main_call2_v2, main_call2_v3, main_call2_cst_1, main_call2_call0_v0, main_call2_call0_v1, main_call2_v4, main_call2_v5, main_call2_cst_2, main_call2_v6, main_call2_v7, main_v64]
theorem opsE5_writes : (opsE5 : List (HloOp τ sig (Elt F))).Forall fun op => op.writes ⊆ (opsE5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers' contents after the first 9 windows. -/
def val9 (V : Valuation τ sig (Elt F)) : Valuation τ sig (Elt F) := after opsE5 (val8 V)
/-- A buffer the window does not write keeps its contents through it. -/
theorem val9_keep (V : Valuation τ sig (Elt F)) (r : Ref sig .tc) (h : r ∉ opsE5_W) :
    val9 V (Proc.devRef .tc r) = (val8 V) (Proc.devRef .tc r) :=
  after_of_writes_sub opsE5 _ opsE5_writes h
set_option maxRecDepth 16384 in
set_option maxHeartbeats 4000000 in
theorem val9_main_v64 (V : Valuation τ sig (Elt F)) : val9 V (no_index (Proc.devRef .tc main_v64)) = (tailEnt (ebArr (cArr (Hcat (V (main_arg0 : DevRef τ sig)) (V (main_arg1 : DevRef τ sig)) (V (main_arg2 : DevRef τ sig))) (V (main_arg3 : DevRef τ sig)) (V (main_arg4 : DevRef τ sig))) (V (main_arg5 : DevRef τ sig)) (V (main_arg6 : DevRef τ sig))) (tempArr (ebArr (cArr (Hcat (V (main_arg0 : DevRef τ sig)) (V (main_arg1 : DevRef τ sig)) (V (main_arg2 : DevRef τ sig))) (V (main_arg3 : DevRef τ sig)) (V (main_arg4 : DevRef τ sig))) (V (main_arg5 : DevRef τ sig)) (V (main_arg6 : DevRef τ sig))) (cArr (Hcat (V (main_arg0 : DevRef τ sig)) (V (main_arg1 : DevRef τ sig)) (V (main_arg2 : DevRef τ sig))) (V (main_arg3 : DevRef τ sig)) (V (main_arg4 : DevRef τ sig)))) (srcIdx (V (main_arg0 : DevRef τ sig)))) := by
  unfold val9
  simp only [opsE5]
  (after_results3) <;> (try simp only [val8_main_v52]) <;> (try rfl)
theorem val9_main_v63 (V : Valuation τ sig (Elt F)) : val9 V (no_index (Proc.devRef .tc main_v63)) = (relPre (tempArr (ebArr (cArr (Hcat (V (main_arg0 : DevRef τ sig)) (V (main_arg1 : DevRef τ sig)) (V (main_arg2 : DevRef τ sig))) (V (main_arg3 : DevRef τ sig)) (V (main_arg4 : DevRef τ sig))) (V (main_arg5 : DevRef τ sig)) (V (main_arg6 : DevRef τ sig))) (cArr (Hcat (V (main_arg0 : DevRef τ sig)) (V (main_arg1 : DevRef τ sig)) (V (main_arg2 : DevRef τ sig))) (V (main_arg3 : DevRef τ sig)) (V (main_arg4 : DevRef τ sig)))) (relIdx (V (main_arg0 : DevRef τ sig)))) :=
  (val9_keep V main_v63 (by decide)).trans (val8_main_v63 V)
theorem val9_main_arg0 (V : Valuation τ sig (Elt F)) : val9 V (no_index (Proc.devRef .tc main_arg0)) = (V (main_arg0 : DevRef τ sig)) :=
  (val9_keep V main_arg0 (by decide)).trans (val8_main_arg0 V)
theorem val9_main_arg1 (V : Valuation τ sig (Elt F)) : val9 V (no_index (Proc.devRef .tc main_arg1)) = (V (main_arg1 : DevRef τ sig)) :=
  (val9_keep V main_arg1 (by decide)).trans (val8_main_arg1 V)
theorem val9_main_arg2 (V : Valuation τ sig (Elt F)) : val9 V (no_index (Proc.devRef .tc main_arg2)) = (V (main_arg2 : DevRef τ sig)) :=
  (val9_keep V main_arg2 (by decide)).trans (val8_main_arg2 V)
theorem val9_main_arg3 (V : Valuation τ sig (Elt F)) : val9 V (no_index (Proc.devRef .tc main_arg3)) = (V (main_arg3 : DevRef τ sig)) :=
  (val9_keep V main_arg3 (by decide)).trans (val8_main_arg3 V)
theorem val9_main_arg4 (V : Valuation τ sig (Elt F)) : val9 V (no_index (Proc.devRef .tc main_arg4)) = (V (main_arg4 : DevRef τ sig)) :=
  (val9_keep V main_arg4 (by decide)).trans (val8_main_arg4 V)
theorem val9_main_arg5 (V : Valuation τ sig (Elt F)) : val9 V (no_index (Proc.devRef .tc main_arg5)) = (V (main_arg5 : DevRef τ sig)) :=
  (val9_keep V main_arg5 (by decide)).trans (val8_main_arg5 V)
theorem val9_main_arg6 (V : Valuation τ sig (Elt F)) : val9 V (no_index (Proc.devRef .tc main_arg6)) = (V (main_arg6 : DevRef τ sig)) :=
  (val9_keep V main_arg6 (by decide)).trans (val8_main_arg6 V)

/-- Operations 102 … 116. -/
abbrev opsE6 : List (HloOp τ sig (Elt F)) :=
  [ StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S237x128, .f32⟩) (broadcastInDim S237x128 ![] bcast_S_S237x128),
    StableHlo.TRef.binary (.of main_v63 : StableHlo.TRef sig ⟨S237x128, .f32⟩) (.of main_call3_v0 : StableHlo.TRef sig ⟨S237x128, .f32⟩) (.of main_call3_v1 : StableHlo.TRef sig ⟨S237x128, .i1⟩) (cmpf .ogt),
    StableHlo.TRef.nullary (.of main_call3_cst_0 : StableHlo.TRef sig ⟨S_, .f32⟩) (constant S_ .f32 0x00000000#32),
    StableHlo.TRef.unary (.of main_call3_cst_0 : StableHlo.TRef sig ⟨S_, .f32⟩) (.of main_call3_v2 : StableHlo.TRef sig ⟨S237x128, .f32⟩) (broadcastInDim S237x128 ![] bcast_S_S237x128),
    StableHlo.TRef.binary (.of main_v63 : StableHlo.TRef sig ⟨S237x128, .f32⟩) (.of main_call3_v2 : StableHlo.TRef sig ⟨S237x128, .f32⟩) (.of main_call3_v3 : StableHlo.TRef sig ⟨S237x128, .i1⟩) (cmpf .ogt),
    StableHlo.TRef.nullary (.of main_call3_cst_1 : StableHlo.TRef sig ⟨S_, .f32⟩) (constant S_ .f32 0x00000000#32),
    StableHlo.TRef.unary (.of main_call3_cst_1 : StableHlo.TRef sig ⟨S_, .f32⟩) (.of main_call3_call0_v0 : StableHlo.TRef sig ⟨S_, .f32⟩) id,
    StableHlo.TRef.unary (.of main_call3_call0_v0 : StableHlo.TRef sig ⟨S_, .f32⟩) (.of main_call3_call0_v1 : StableHlo.TRef sig ⟨S237x128, .f32⟩) (broadcastInDim S237x128 ![] bcast_S_S237x128),
    StableHlo.TRef.ternary (.of main_call3_v3 : StableHlo.TRef sig ⟨S237x128, .i1⟩) (.of main_call3_call0_v1 : StableHlo.TRef sig ⟨S237x128, .f32⟩) (.of main_v63 : StableHlo.TRef sig ⟨S237x128, .f32⟩) (.of main_call3_v4 : StableHlo.TRef sig ⟨S237x128, .f32⟩) select,
    StableHlo.TRef.unary (.of main_call3_v4 : StableHlo.TRef sig ⟨S237x128, .f32⟩) (.of main_call3_v5 : StableHlo.TRef sig ⟨S237x128, .f32⟩) Host.expm1,
    StableHlo.TRef.nullary (.of main_call3_cst_2 : StableHlo.TRef sig ⟨S_, .f32⟩) (constant S_ .f32 0x3F800000#32),
    StableHlo.TRef.unary (.of main_call3_cst_2 : StableHlo.TRef sig ⟨S_, .f32⟩) (.of main_call3_v6 : StableHlo.TRef sig ⟨S237x128, .f32⟩) (broadcastInDim S237x128 ![] bcast_S_S237x128),
    StableHlo.TRef.binary (.of main_call3_v6 : StableHlo.TRef sig ⟨S237x128, .f32⟩) (.of main_call3_v5 : StableHlo.TRef sig ⟨S237x128, .f32⟩) (.of main_call3_v7 : StableHlo.TRef sig ⟨S237x128, .f32⟩) mulf,
    StableHlo.TRef.ternary (.of main_call3_v1 : StableHlo.TRef sig ⟨S237x128, .i1⟩) (.of main_v63 : StableHlo.TRef sig ⟨S237x128, .f32⟩) (.of main_call3_v7 : StableHlo.TRef sig ⟨S237x128, .f32⟩) (.of main_v65 : StableHlo.TRef sig ⟨S237x128, .f32⟩) select ]
/-- The buffers they write. -/
abbrev opsE6_W : List (Ref sig .tc) := [main_call3_cst, main_call3_v0, main_call3_v1, main_call3_cst_0, main_call3_v2, main_call3_v3, main_call3_cst_1, main_call3_call0_v0, main_call3_call0_v1, main_call3_v4, main_call3_v5, main_call3_cst_2, main_call3_v6, main_call3_v7, main_v65]
theorem opsE6_writes : (opsE6 : List (HloOp τ sig (Elt F))).Forall fun op => op.writes ⊆ (opsE6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers' contents after the first 10 windows. -/
def val10 (V : Valuation τ sig (Elt F)) : Valuation τ sig (Elt F) := after opsE6 (val9 V)
/-- A buffer the window does not write keeps its contents through it. -/
theorem val10_keep (V : Valuation τ sig (Elt F)) (r : Ref sig .tc) (h : r ∉ opsE6_W) :
    val10 V (Proc.devRef .tc r) = (val9 V) (Proc.devRef .tc r) :=
  after_of_writes_sub opsE6 _ opsE6_writes h
set_option maxRecDepth 16384 in
set_option maxHeartbeats 4000000 in
theorem val10_main_v65 (V : Valuation τ sig (Elt F)) : val10 V (no_index (Proc.devRef .tc main_v65)) = (tailRel (tempArr (ebArr (cArr (Hcat (V (main_arg0 : DevRef τ sig)) (V (main_arg1 : DevRef τ sig)) (V (main_arg2 : DevRef τ sig))) (V (main_arg3 : DevRef τ sig)) (V (main_arg4 : DevRef τ sig))) (V (main_arg5 : DevRef τ sig)) (V (main_arg6 : DevRef τ sig))) (cArr (Hcat (V (main_arg0 : DevRef τ sig)) (V (main_arg1 : DevRef τ sig)) (V (main_arg2 : DevRef τ sig))) (V (main_arg3 : DevRef τ sig)) (V (main_arg4 : DevRef τ sig)))) (relIdx (V (main_arg0 : DevRef τ sig)))) := by
  unfold val10
  simp only [opsE6]
  (after_results3) <;> (try simp only [val9_main_v63]) <;> (try rfl)
theorem val10_main_v64 (V : Valuation τ sig (Elt F)) : val10 V (no_index (Proc.devRef .tc main_v64)) = (tailEnt (ebArr (cArr (Hcat (V (main_arg0 : DevRef τ sig)) (V (main_arg1 : DevRef τ sig)) (V (main_arg2 : DevRef τ sig))) (V (main_arg3 : DevRef τ sig)) (V (main_arg4 : DevRef τ sig))) (V (main_arg5 : DevRef τ sig)) (V (main_arg6 : DevRef τ sig))) (tempArr (ebArr (cArr (Hcat (V (main_arg0 : DevRef τ sig)) (V (main_arg1 : DevRef τ sig)) (V (main_arg2 : DevRef τ sig))) (V (main_arg3 : DevRef τ sig)) (V (main_arg4 : DevRef τ sig))) (V (main_arg5 : DevRef τ sig)) (V (main_arg6 : DevRef τ sig))) (cArr (Hcat (V (main_arg0 : DevRef τ sig)) (V (main_arg1 : DevRef τ sig)) (V (main_arg2 : DevRef τ sig))) (V (main_arg3 : DevRef τ sig)) (V (main_arg4 : DevRef τ sig)))) (srcIdx (V (main_arg0 : DevRef τ sig)))) :=
  (val10_keep V main_v64 (by decide)).trans (val9_main_v64 V)
theorem val10_main_arg0 (V : Valuation τ sig (Elt F)) : val10 V (no_index (Proc.devRef .tc main_arg0)) = (V (main_arg0 : DevRef τ sig)) :=
  (val10_keep V main_arg0 (by decide)).trans (val9_main_arg0 V)
theorem val10_main_arg1 (V : Valuation τ sig (Elt F)) : val10 V (no_index (Proc.devRef .tc main_arg1)) = (V (main_arg1 : DevRef τ sig)) :=
  (val10_keep V main_arg1 (by decide)).trans (val9_main_arg1 V)
theorem val10_main_arg2 (V : Valuation τ sig (Elt F)) : val10 V (no_index (Proc.devRef .tc main_arg2)) = (V (main_arg2 : DevRef τ sig)) :=
  (val10_keep V main_arg2 (by decide)).trans (val9_main_arg2 V)
theorem val10_main_arg3 (V : Valuation τ sig (Elt F)) : val10 V (no_index (Proc.devRef .tc main_arg3)) = (V (main_arg3 : DevRef τ sig)) :=
  (val10_keep V main_arg3 (by decide)).trans (val9_main_arg3 V)
theorem val10_main_arg4 (V : Valuation τ sig (Elt F)) : val10 V (no_index (Proc.devRef .tc main_arg4)) = (V (main_arg4 : DevRef τ sig)) :=
  (val10_keep V main_arg4 (by decide)).trans (val9_main_arg4 V)
theorem val10_main_arg5 (V : Valuation τ sig (Elt F)) : val10 V (no_index (Proc.devRef .tc main_arg5)) = (V (main_arg5 : DevRef τ sig)) :=
  (val10_keep V main_arg5 (by decide)).trans (val9_main_arg5 V)
theorem val10_main_arg6 (V : Valuation τ sig (Elt F)) : val10 V (no_index (Proc.devRef .tc main_arg6)) = (V (main_arg6 : DevRef τ sig)) :=
  (val10_keep V main_arg6 (by decide)).trans (val9_main_arg6 V)

/-- The whole line is the ten windows in order. -/
theorem ops_eq : (ops : List (HloOp τ sig (Elt F))) = opsA ++ opsB ++ opsC ++ opsD ++ opsE1 ++ opsE2 ++ opsE3 ++ opsE4 ++ opsE5 ++ opsE6 := rfl

theorem after_ops (V : Valuation τ sig (Elt F)) : after ops V = val10 V := by
  rw [ops_eq]
  simp only [after_append]
  rfl

/-! ## Reading the results back -/

/-- The fold at the first result's buffer is `outEnt` of the arguments' contents. -/
theorem outEnt_eq (V : Valuation τ sig (Elt F)) :
    after ops V (main_v64 : DevRef τ sig) = outEnt (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) := by
  rw [after_ops]; exact val10_main_v64 V

/-- The fold at the second result's buffer is `outRel` of the arguments' contents. -/
theorem outRel_eq (V : Valuation τ sig (Elt F)) :
    after ops V (main_v65 : DevRef τ sig) = outRel (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) := by
  rw [after_ops]; exact val10_main_v65 V

/-- No operation writes argument 0. -/
theorem arg0_eq (V : Valuation τ sig (Elt F)) :
    after ops V (main_arg0 : DevRef τ sig) = V (main_arg0 : DevRef τ sig) := by
  rw [after_ops]; exact val10_main_arg0 V

/-- No operation writes argument 1. -/
theorem arg1_eq (V : Valuation τ sig (Elt F)) :
    after ops V (main_arg1 : DevRef τ sig) = V (main_arg1 : DevRef τ sig) := by
  rw [after_ops]; exact val10_main_arg1 V

/-- No operation writes argument 2. -/
theorem arg2_eq (V : Valuation τ sig (Elt F)) :
    after ops V (main_arg2 : DevRef τ sig) = V (main_arg2 : DevRef τ sig) := by
  rw [after_ops]; exact val10_main_arg2 V

/-- No operation writes argument 3. -/
theorem arg3_eq (V : Valuation τ sig (Elt F)) :
    after ops V (main_arg3 : DevRef τ sig) = V (main_arg3 : DevRef τ sig) := by
  rw [after_ops]; exact val10_main_arg3 V

/-- No operation writes argument 4. -/
theorem arg4_eq (V : Valuation τ sig (Elt F)) :
    after ops V (main_arg4 : DevRef τ sig) = V (main_arg4 : DevRef τ sig) := by
  rw [after_ops]; exact val10_main_arg4 V

/-- No operation writes argument 5. -/
theorem arg5_eq (V : Valuation τ sig (Elt F)) :
    after ops V (main_arg5 : DevRef τ sig) = V (main_arg5 : DevRef τ sig) := by
  rw [after_ops]; exact val10_main_arg5 V

/-- No operation writes argument 6. -/
theorem arg6_eq (V : Valuation τ sig (Elt F)) :
    after ops V (main_arg6 : DevRef τ sig) = V (main_arg6 : DevRef τ sig) := by
  rw [after_ops]; exact val10_main_arg6 V

/-! ## The run -/

/-- The first result as a function of the launch memory. -/
def out64 (m : (ℓ : Loc nD τ sig) → Buf (Elt F) ℓ) (c : Dev nD) : FVec F S100000x128 .f32 :=
  outEnt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

/-- The second result as a function of the launch memory. -/
def out65 (m : (ℓ : Loc nD τ sig) → Buf (Elt F) ℓ) (c : Dev nD) : FVec F S237x128 .f32 :=
  outRel (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

/-- On every device, for any float values, from any memory with zero counters: every weakly fair execution of @main
    terminates with each result at the stages' composed term of the arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v64) = out64 m c
      ∧ r.2.mem ((c.tc : Thread nD τ).loc main_v65) = out65 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c main_v64).trans (outEnt_eq _), (h c main_v65).trans (outRel_eq _),
      (h c main_arg0).trans (arg0_eq _), (h c main_arg1).trans (arg1_eq _), (h c main_arg2).trans (arg2_eq _), (h c main_arg3).trans (arg3_eq _), (h c main_arg4).trans (arg4_eq _), (h c main_arg5).trans (arg5_eq _), (h c main_arg6).trans (arg6_eq _)⟩)
    (run_all m ρ)

/-- The arguments are unchanged by @main. -/
theorem frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2.2) (run m ρ)

end Cert.ReferenceIdeal.RefRun

end
-- ==== Proof.RefStages.lean ====
/-
  The reference's dense stage, as whole arrays over the extended reals. With `H` the 400000 × 384 matrix of concatenated edge
  features, the reference projects `c = H·Waᵀ + ba` (a `dot_general` by the transposed weights, the bias lifted twice), scores each
  edge `e = exp (leaky_relu (c·Wa2ᵀ + ba2))` and weights the projected rows `e·c`. These three arrays are the projected rows, the
  gates and the gated rows of `GatedRows` at the weights `Waᵀ`.
-/
import proofs.«177955_j49082886259211_2_alg».proof.Proof.Gen.ReferenceIdeal
import proofs.«177955_j49082886259211_2_alg».proof.Proof.LibGatedRows

noncomputable section

namespace Cert.ReferenceIdeal.Stages

open Idealize.ShloMosaic Idealize.ShloMosaic.ValueIdx Cert.ReferenceIdeal

variable [Cert.ReferenceIdeal.Facts]
open Facts₀ Facts

/-- The weights as the products read them: `Wa` transposed, 384 × 128. -/
abbrev WaT (a3 : FVec Ideal S128x384 .f32) : FVec Ideal S384x128 .f32 :=
  transpose S384x128 [1, 0] a3 transposes_S128x384_S384x128_1_0

/-- The projected rows. -/
theorem proj_eq (H : FVec Ideal S400000x384 .f32) (a3 : FVec Ideal S128x384 .f32) (a4 : FVec Ideal S128 .f32) :
    addf (Host.dotGeneral dot_S400000x384_S384x128_S400000x128_1_0_0_1_n_n none H (WaT a3))
        (broadcastInDim S400000x128 ![0, 1] bcast_S1x128_S400000x128_0_1 (broadcastInDim S1x128 ![1] bcast_S128_S1x128_1 a4))
      = GatedRows.projArr H (WaT a3) a4 :=
  GatedRows.host_proj_eq (A := 400000) (K := 384) (M := 128) none .single H (WaT a3) a4 _ _

/-- The edge weights, computed from the projected rows. -/
theorem gate_eq (H : FVec Ideal S400000x384 .f32) (a3 : FVec Ideal S128x384 .f32) (a4 : FVec Ideal S128 .f32)
    (a5 : FVec Ideal S1x128 .f32) (a6 : FVec Ideal S1 .f32) :
    Host.exp (select
        (cmpf .oge
          (addf (Host.dotGeneral dot_S400000x128_S128x1_S400000x1_1_0_0_1_n_n none (GatedRows.projArr H (WaT a3) a4)
              (transpose S128x1 [1, 0] a5 transposes_S1x128_S128x1_1_0))
            (broadcastInDim S400000x1 ![0, 1] bcast_S1x1_S400000x1_0_1 (broadcastInDim S1x1 ![1] bcast_S1_S1x1_1 a6)))
          (broadcastInDim S400000x1 ![] bcast_S_S400000x1 (constant (F := Ideal) S_ .f32 0x00000000#32)))
        (addf (Host.dotGeneral dot_S400000x128_S128x1_S400000x1_1_0_0_1_n_n none (GatedRows.projArr H (WaT a3) a4)
              (transpose S128x1 [1, 0] a5 transposes_S1x128_S128x1_1_0))
            (broadcastInDim S400000x1 ![0, 1] bcast_S1x1_S400000x1_0_1 (broadcastInDim S1x1 ![1] bcast_S1_S1x1_1 a6)))
        (mulf (broadcastInDim S400000x1 ![] bcast_S_S400000x1 (constant (F := Ideal) S_ .f32 0x3C23D70A#32))
          (addf (Host.dotGeneral dot_S400000x128_S128x1_S400000x1_1_0_0_1_n_n none (GatedRows.projArr H (WaT a3) a4)
              (transpose S128x1 [1, 0] a5 transposes_S1x128_S128x1_1_0))
            (broadcastInDim S400000x1 ![0, 1] bcast_S1x1_S400000x1_0_1 (broadcastInDim S1x1 ![1] bcast_S1_S1x1_1 a6)))))
      = GatedRows.gateArr H (WaT a3) a4 a5 a6 :=
  GatedRows.host_gate_eq (A := 400000) (K := 384) (M := 128) none .single H (WaT a3) a4 a5 a6 _ _ _ _

/-- The weighted rows. -/
theorem gated_eq (H : FVec Ideal S400000x384 .f32) (a3 : FVec Ideal S128x384 .f32) (a4 : FVec Ideal S128 .f32)
    (a5 : FVec Ideal S1x128 .f32) (a6 : FVec Ideal S1 .f32) :
    mulf (broadcastInDim S400000x128 ![0, 1] bcast_S400000x1_S400000x128_0_1 (GatedRows.gateArr H (WaT a3) a4 a5 a6))
        (GatedRows.projArr H (WaT a3) a4)
      = GatedRows.gatedArr H (WaT a3) a4 a5 a6 :=
  GatedRows.host_gated_eq (A := 400000) (K := 384) (M := 128) H (WaT a3) a4 a5 a6 _

end Cert.ReferenceIdeal.Stages

end
-- ==== Proof.RefValue.lean ====
/-
  The reference's two results through the gated-row functions: its dense stage (projection, edge weights, weighted rows) is
  the projected rows, gates and gated rows of its feature matrix at the transposed weights, so each result is the
  reference's own aggregation tail applied to the gates and the gated rows.
-/
import proofs.«177955_j49082886259211_2_alg».proof.Proof.RefRun
import proofs.«177955_j49082886259211_2_alg».proof.Proof.RefStages

noncomputable section

namespace Cert.ReferenceIdeal.RefValue

open Idealize.ShloMosaic Idealize.ShloMosaic.ValueIdx Cert.ReferenceIdeal Cert.ReferenceIdeal.RefRun Cert.ReferenceIdeal.Stages

/-- The edge weights of the reference, from its feature matrix. -/
abbrev gates (a0 : IVec S400000x3 32) (a1 : FVec Ideal S100000x128 .f32) (a2 : FVec Ideal S237x128 .f32) (a3 : FVec Ideal S128x384 .f32)
    (a4 : FVec Ideal S128 .f32) (a5 : FVec Ideal S1x128 .f32) (a6 : FVec Ideal S1 .f32) : FVec Ideal S400000x1 .f32 :=
  GatedRows.gateArr (φx := .f32) (φw := .f32) (Hcat (F := Ideal) a0 a1 a2) (WaT a3) a4 a5 a6

/-- The weighted projections of the reference. -/
abbrev gatedRows (a0 : IVec S400000x3 32) (a1 : FVec Ideal S100000x128 .f32) (a2 : FVec Ideal S237x128 .f32) (a3 : FVec Ideal S128x384 .f32)
    (a4 : FVec Ideal S128 .f32) (a5 : FVec Ideal S1x128 .f32) (a6 : FVec Ideal S1 .f32) : FVec Ideal S400000x128 .f32 :=
  GatedRows.gatedArr (φx := .f32) (φw := .f32) (Hcat (F := Ideal) a0 a1 a2) (WaT a3) a4 a5 a6

/-- The weighted projections the reference forms are the gated rows. -/
theorem temp_eq (a0 : IVec S400000x3 32) (a1 : FVec Ideal S100000x128 .f32) (a2 : FVec Ideal S237x128 .f32) (a3 : FVec Ideal S128x384 .f32)
    (a4 : FVec Ideal S128 .f32) (a5 : FVec Ideal S1x128 .f32) (a6 : FVec Ideal S1 .f32) :
    tempArr (F := Ideal) (ebArr (cArr (Hcat a0 a1 a2) a3 a4) a5 a6) (cArr (Hcat a0 a1 a2) a3 a4) = gatedRows a0 a1 a2 a3 a4 a5 a6 := by
  unfold tempArr ebArr cArr leakyRelu
  rw [proj_eq, gate_eq, gated_eq]

/-- The edge weights the reference forms are the gates. -/
theorem eb_eq (a0 : IVec S400000x3 32) (a1 : FVec Ideal S100000x128 .f32) (a2 : FVec Ideal S237x128 .f32) (a3 : FVec Ideal S128x384 .f32)
    (a4 : FVec Ideal S128 .f32) (a5 : FVec Ideal S1x128 .f32) (a6 : FVec Ideal S1 .f32) :
    ebArr (F := Ideal) (cArr (Hcat a0 a1 a2) a3 a4) a5 a6 = gates a0 a1 a2 a3 a4 a5 a6 := by
  unfold ebArr cArr leakyRelu
  rw [proj_eq, gate_eq]

/-- The entity result: the aggregation over source entities of the gates and gated rows. -/
theorem outEnt_stages (a0 : IVec S400000x3 32) (a1 : FVec Ideal S100000x128 .f32) (a2 : FVec Ideal S237x128 .f32) (a3 : FVec Ideal S128x384 .f32)
    (a4 : FVec Ideal S128 .f32) (a5 : FVec Ideal S1x128 .f32) (a6 : FVec Ideal S1 .f32) :
    outEnt (F := Ideal) a0 a1 a2 a3 a4 a5 a6
      = tailEnt (gates a0 a1 a2 a3 a4 a5 a6) (gatedRows a0 a1 a2 a3 a4 a5 a6) (srcIdx a0) := by
  unfold outEnt
  rw [temp_eq, eb_eq]

/-- The relation result: the aggregation over relations of the gated rows. -/
theorem outRel_stages (a0 : IVec S400000x3 32) (a1 : FVec Ideal S100000x128 .f32) (a2 : FVec Ideal S237x128 .f32) (a3 : FVec Ideal S128x384 .f32)
    (a4 : FVec Ideal S128 .f32) (a5 : FVec Ideal S1x128 .f32) (a6 : FVec Ideal S1 .f32) :
    outRel (F := Ideal) a0 a1 a2 a3 a4 a5 a6 = tailRel (gatedRows a0 a1 a2 a3 a4 a5 a6) (relIdx a0) := by
  unfold outRel
  rw [temp_eq]

end Cert.ReferenceIdeal.RefValue

end
-- ==== Proof.KernelValue.lean ====
/-
  The edge kernel's whole run, read as values over the extended reals. Before the region the host gathers the source,
  relation and destination embeddings of every edge, lays them side by side (the feature matrix) and transposes the weights;
  the region leaves the weighted projections and the edge weights (the gated rows and the gates of the feature matrix); after
  it the host sums them per source entity and per relation, normalises and applies the exponential linear unit. The operations
  outside the region are the reference's own, applied to the same arrays — the rounding of the embedding tables and of the
  weights to bf16 being the identity here — so the two results are the reference's aggregation tails applied to the gates and
  gated rows of the reference's feature matrix.
-/
import proofs.«177955_j49082886259211_2_alg».proof.Proof.KernelArrays
import proofs.«177955_j49082886259211_2_alg».proof.Proof.KernelTail
import proofs.«177955_j49082886259211_2_alg».proof.Proof.RefValue
import proofs.«177955_j49082886259211_2_alg».proof.Proof.LibNary3

set_option maxRecDepth 16384

noncomputable section

namespace Cert.KernelIdeal.RunValue

open Idealize.ShloMosaic Idealize.ShloMosaic.TcCoe Idealize.ShloMosaic.ValueIdx Idealize.SL.Sem
open Idealize.ShloMosaic.Pipeline (Dat Cfg Window)
open Idealize.ShloMosaic.StableHlo
open Cert.KernelIdeal Cert.KernelIdeal.Gen Cert.KernelIdeal.GenH Cert.KernelIdeal.Arrays

variable (m : (ℓ : Loc nD τ sig) → Buf (Elt Ideal) ℓ)

/-- The fold of a line of operations at one buffer, operation by operation (a three-operand operation operand by operand). -/
local macro "results_of_line" : tactic =>
  `(tactic| (simp (disch := decide) only [after_cons, after_nil,
      nullary_result', unary_result', binary_result', ternary_result', reshape_result', nary3_result',
      nullary_result_ne', unary_result_ne', binary_result_ne', ternary_result_ne', reshape_result_ne', nary_result_ne']))

/-! ## What the region finds -/

/-- The source entity of every edge, as the region finds it: column 0 of the triplets. -/
theorem entry_src (c : Dev nD) :
    V m c main_v1 = Cert.ReferenceIdeal.RefRun.srcIdx (m ((c.tc : Thread nD τ).loc main_arg0)) := by
  show StableHlo.after hostOps0 (fun b => m (c, b)) (Proc.devRef .tc main_v1) = _
  results_of_line
  rfl

/-- The relation of every edge: column 2 of the triplets. -/
theorem entry_rel (c : Dev nD) :
    V m c main_v5 = Cert.ReferenceIdeal.RefRun.relIdx (m ((c.tc : Thread nD τ).loc main_arg0)) := by
  show StableHlo.after hostOps0 (fun b => m (c, b)) (Proc.devRef .tc main_v5) = _
  results_of_line
  rfl

set_option maxHeartbeats 8000000 in
/-- The feature matrix: the reference's, the rounding of the embedding tables to bf16 being the identity here. -/
theorem entry_H (c : Dev nD) (i : S400000x384.Idx) :
    V m c main_v29 i = Cert.ReferenceIdeal.RefRun.Hcat (F := Ideal) (m ((c.tc : Thread nD τ).loc main_arg0))
      (m ((c.tc : Thread nD τ).loc main_arg1)) (m ((c.tc : Thread nD τ).loc main_arg2)) i := by
  refine congrFun ?_ i
  show StableHlo.after hostOps0 (fun b => m (c, b)) (Proc.devRef .tc main_v29) = _
  results_of_line
  rfl

/-- The weights as the region finds them: the transposed weight matrix. -/
theorem entry_W (c : Dev nD) (i : S384x128.Idx) :
    V m c main_v31 i = Cert.ReferenceIdeal.Stages.WaT (m ((c.tc : Thread nD τ).loc main_arg3)) i := by
  refine congrFun ?_ i
  show StableHlo.after hostOps0 (fun b => m (c, b)) (Proc.devRef .tc main_v31) = _
  results_of_line
  rfl

/-! ## What the region leaves, in the reference's terms -/

/-- The edge weights after the region are the reference's. -/
theorem gates_eq (c : Dev nD) :
    GatedRows.gateArr (φx := .bf16) (φw := .bf16) (V m c main_v29) (V m c main_v31) (V m c main_arg4) (V m c main_arg5) (V m c main_arg6)
      = Cert.ReferenceIdeal.RefValue.gates (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) := by
  rw [V_main_arg4 m c, V_main_arg5 m c, V_main_arg6 m c]
  exact GatedRows.gateArr_congr _ _ _ _ _ _ _ (entry_H m c) (entry_W m c)

/-- The weighted projections after the region are the reference's. -/
theorem gated_eq (c : Dev nD) :
    GatedRows.gatedArr (φx := .bf16) (φw := .bf16) (V m c main_v29) (V m c main_v31) (V m c main_arg4) (V m c main_arg5) (V m c main_arg6)
      = Cert.ReferenceIdeal.RefValue.gatedRows (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) := by
  rw [V_main_arg4 m c, V_main_arg5 m c, V_main_arg6 m c]
  exact GatedRows.gatedArr_congr _ _ _ _ _ _ _ (entry_H m c) (entry_W m c)

/-! ## The aggregation after the region is the reference's -/

theorem tailEnt_same (eb : FVec Ideal S400000x1 .f32) (tmp : FVec Ideal S400000x128 .f32) (src : IVec S400000 32) :
    Tail.tailEntK eb tmp src = Cert.ReferenceIdeal.RefRun.tailEnt (F := Ideal) eb tmp src := rfl

theorem tailRel_same (tmp : FVec Ideal S400000x128 .f32) (rel : IVec S400000 32) :
    Tail.tailRelK tmp rel = Cert.ReferenceIdeal.RefRun.tailRel (F := Ideal) tmp rel := rfl

/-- The entity result. -/
theorem ent_value (c : Dev nD) :
    Tail.tailEntK ((dats m 0 c).arrAt 6 cfg0.N) ((dats m 0 c).arrAt 5 cfg0.N) (V m c main_v1)
      = Cert.ReferenceIdeal.RefRun.tailEnt (F := Ideal)
          (Cert.ReferenceIdeal.RefValue.gates (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)))
          (Cert.ReferenceIdeal.RefValue.gatedRows (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)))
          (Cert.ReferenceIdeal.RefRun.srcIdx (m ((c.tc : Thread nD τ).loc main_arg0))) := by
  have h6 := (final6 m c).trans (gates_eq m c)
  have h5 := (final5 m c).trans (gated_eq m c)
  rw [h6, h5, entry_src m c]
  exact tailEnt_same _ _ _

/-- The relation result. -/
theorem rel_value (c : Dev nD) :
    Tail.tailRelK ((dats m 0 c).arrAt 5 cfg0.N) (V m c main_v5)
      = Cert.ReferenceIdeal.RefRun.tailRel (F := Ideal)
          (Cert.ReferenceIdeal.RefValue.gatedRows (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)))
          (Cert.ReferenceIdeal.RefRun.relIdx (m ((c.tc : Thread nD τ).loc main_arg0))) := by
  have h5 := (final5 m c).trans (gated_eq m c)
  rw [h5, entry_rel m c]
  exact tailRel_same _ _

end Cert.KernelIdeal.RunValue

end
-- ==== Proof.lean ====
/-
  Knowledge-graph attention over 400000 edges: for each edge the source, relation and destination embeddings are laid side by
  side, projected (`c = h·Waᵀ + ba`), scored (`e = exp (leaky_relu (c·Wa2ᵀ + ba2))`) and weighted (`e·c`); the weighted rows
  and the weights are summed per source entity and per relation, normalised, and passed through the exponential linear unit.
  The kernel computes the dense middle part 3200 edges at a time on the matrix unit from bf16 copies of the embeddings and
  weights; the reference computes it with two host products. Over the extended reals a change of float format is the identity,
  the matrix unit's product into a zero accumulator and the host product are the same finite sum, and the lane sum against the
  scoring row is the product with its transpose; every entry of a row depends on that edge's features only, so the 125 blocks
  of the kernel are the blocks of one whole-array function, which is the reference's. Everything outside the dense part is the
  same operations on the same arrays in both programs. No law beyond these is used, so the finiteness of the inputs is never
  opened.
  The three programs each run to the end, fault nowhere and leave their arguments unchanged: the two kernel programs by the
  frame of their one region between the host operations, the reference as a line of host operations. No operation of the
  kernel was rewritten for the reading over the extended reals, so that claim is empty.
-/
import proofs.«177955_j49082886259211_2_alg».proof.Defs
import proofs.«177955_j49082886259211_2_alg».proof.Proof.Gen.Kernel
import proofs.«177955_j49082886259211_2_alg».proof.Proof.Gen.KernelIdeal
import proofs.«177955_j49082886259211_2_alg».proof.Proof.Gen.ReferenceIdeal
import proofs.«177955_j49082886259211_2_alg».proof.Proof.Gen.Pre_finite_inputs
import proofs.«177955_j49082886259211_2_alg».proof.Proof.KFrameBits
import proofs.«177955_j49082886259211_2_alg».proof.Proof.KernelValue
import proofs.«177955_j49082886259211_2_alg».proof.Proof.RefValue

noncomputable section

namespace Cert.Proof

open Idealize.ShloMosaic Idealize.ShloMosaic.TcCoe Idealize.SL.Sem

/-- The kernel program as printed runs and keeps its arguments. -/
theorem frame_k : Cert.frame_Kernel := fun m ρ _ => Cert.Kernel.GenH.frame m ρ

/-- The kernel program read over the extended reals runs and keeps its arguments. -/
theorem frame_ki : Cert.frame_KernelIdeal := fun m ρ _ => Cert.KernelIdeal.GenH.frame m ρ

/-- The reference runs and keeps its arguments. -/
theorem frame_ri : Cert.frame_ReferenceIdeal := fun m ρ _ => Cert.ReferenceIdeal.RefRun.frame (F := Ideal) m ρ

/-- Nothing was rewritten, nothing to preserve. -/
theorem preserves : Cert.preserves_Kernel_KernelIdeal := trivial

/-- The entity result both programs end with, from the kernel program's arguments: the reference's aggregation over source
    entities of the gates and gated rows of the feature matrix. -/
abbrev entOf (m : (ℓ : Loc Cert.KernelIdeal.nD Cert.KernelIdeal.τ Cert.KernelIdeal.sig) → Buf (Elt Ideal) ℓ) (c : Dev Cert.KernelIdeal.nD) :
    FVec Ideal Cert.ReferenceIdeal.S100000x128 .f32 :=
  Cert.ReferenceIdeal.RefRun.tailEnt (F := Ideal) (Cert.ReferenceIdeal.RefValue.gates (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)))
    (Cert.ReferenceIdeal.RefValue.gatedRows (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (Cert.ReferenceIdeal.RefRun.srcIdx (m ((c.tc : Thread Cert.KernelIdeal.nD Cert.KernelIdeal.τ).loc Cert.KernelIdeal.main_arg0)))

/-- The relation result: the reference's aggregation over relations of the gated rows. -/
abbrev relOf (m : (ℓ : Loc Cert.KernelIdeal.nD Cert.KernelIdeal.τ Cert.KernelIdeal.sig) → Buf (Elt Ideal) ℓ) (c : Dev Cert.KernelIdeal.nD) :
    FVec Ideal Cert.ReferenceIdeal.S237x128 .f32 :=
  Cert.ReferenceIdeal.RefRun.tailRel (F := Ideal) (Cert.ReferenceIdeal.RefValue.gatedRows (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)))
    (Cert.ReferenceIdeal.RefRun.relIdx (m ((c.tc : Thread Cert.KernelIdeal.nD Cert.KernelIdeal.τ).loc Cert.KernelIdeal.main_arg0)))

/-- From memories that agree on the seven arguments both programs end with the same two results. -/
theorem algebraic : Cert.algebraic_KernelIdeal_ReferenceIdeal := by
  intro m ρ m' ρ' _ hagree
  refine ⟨entOf m, relOf m, ?_, ?_⟩
  · exact (θ_run (Cert.KernelIdeal.defs (F := Ideal)) _ _).mono
      (fun _ h c => ⟨(h c).1.trans (Cert.KernelIdeal.RunValue.ent_value m c), (h c).2.1.trans (Cert.KernelIdeal.RunValue.rel_value m c), (h c).2.2⟩)
      (Cert.KernelIdeal.Tail.run m ρ)
  refine (θ_run (Cert.ReferenceIdeal.defs (F := Ideal)) _ _).mono (fun _ h c => ⟨(h c).1.trans ?_, (h c).2.1.trans ?_, (h c).2.2⟩)
    (Cert.ReferenceIdeal.RefRun.run (F := Ideal) m' ρ')
  · show Cert.ReferenceIdeal.RefRun.out64 m' c = entOf m c
    unfold Cert.ReferenceIdeal.RefRun.out64
    rw [Cert.ReferenceIdeal.RefValue.outEnt_stages, (hagree c).1, (hagree c).2.1, (hagree c).2.2.1, (hagree c).2.2.2.1,
      (hagree c).2.2.2.2.1, (hagree c).2.2.2.2.2.1, (hagree c).2.2.2.2.2.2]
  · show Cert.ReferenceIdeal.RefRun.out65 m' c = relOf m c
    unfold Cert.ReferenceIdeal.RefRun.out65
    rw [Cert.ReferenceIdeal.RefValue.outRel_stages, (hagree c).1, (hagree c).2.1, (hagree c).2.2.1, (hagree c).2.2.2.1,
      (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
